-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x600000 : Shape := ⟨2, ![2, 600000]⟩
abbrev S600000 : Shape := ⟨1, ![600000]⟩
abbrev S500x256 : Shape := ⟨2, ![500, 256]⟩
abbrev S4x64x64 : Shape := ⟨3, ![4, 64, 64]⟩
abbrev S4x64 : Shape := ⟨2, ![4, 64]⟩
abbrev S1x256 : Shape := ⟨2, ![1, 256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S500x256 : S_.BroadcastsInDim S500x256 (![] : Fin 0 → Fin S500x256.rank)
  reducesTo_S500x256_S_d0_1 : S500x256.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S4x64x64 .f32) (main_arg7 : FVec F S4x64 .f32) (main_arg8 : FVec F S1x256 .f32) (main_arg9 : FVec F S1 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64x64 .f32 := Host.absf main_arg6
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg9 main_v33

def fn {F : FTy → Type} [FloatOps F] (main_arg0 : FVec F S100000x256 .f32) (main_arg1 : IVec S2x600000 32) (main_arg2 : IVec S600000 32) (main_arg3 : FVec F S500x256 .f32) (main_arg4 : FVec F S4x64x64 .f32) (main_arg5 : FVec F S4x64 .f32) (main_arg6 : FVec F S4x64x64 .f32) (main_arg7 : FVec F S4x64 .f32) (main_arg8 : FVec F S1x256 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S500x256 .f32 := Host.absf main_arg3
  let main_cst_0 : FVec F S_ .f32 := constant S_ .f32 0x7F800000#32
  let main_v5 : FVec F S500x256 .f32 := broadcastInDim S500x256 ![] bcast_S_S500x256 main_cst_0
  let main_v6 : IVec S500x256 1 := cmpf .olt main_v4 main_v5
  let main_c_1 : IVec S_ 1 := constantI S_ 1 1#1
  let main_v7 : IVec S_ 1 := (fun x v => Host.reduce IntOp.andi x v reducesTo_S500x256_S_d0_1 h_S_) main_v6 main_c_1
  let main_v8 : IVec S_ 1 := andi main_v3 main_v7
  let main_v9 : FVec F S4x64x64 .f32 := Host.absf main_arg4
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg6 main_arg7 main_arg8 main_arg9 main_v13 main_v16
-- ==== Kernel.lean ====
abbrev S100000x256 : Shape := ⟨2, ![100000, 256]⟩
abbrev S2x600000 : Shape := ⟨2, ![2, 600000]⟩
abbrev S600000 : Shape := ⟨1, ![600000]⟩
abbrev S500x256 : Shape := ⟨2, ![500, 256]⟩
abbrev S4x64x64 : Shape := ⟨3, ![4, 64, 64]⟩
abbrev S4x64 : Shape := ⟨2, ![4, 64]⟩
abbrev S1x256 : Shape := ⟨2, ![1, 256]⟩
abbrev S1 : Shape := ⟨1, ![1]⟩
abbrev S256 : Shape := ⟨1, ![256]⟩
abbrev S1x600000 : Shape := ⟨2, ![1, 600000]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S256x1 : Shape := ⟨2, ![256, 1]⟩
abbrev S1x1 : Shape := ⟨2, ![1, 1]⟩
abbrev S100000 : Shape := ⟨1, ![100000]⟩
abbrev S600000x1 : Shape := ⟨2, ![600000, 1]⟩
abbrev S600000x256 : Shape := ⟨2, ![600000, 256]⟩
abbrev S600064x256 : Shape := ⟨2, ![600064, 256]⟩
abbrev S600064 : Shape := ⟨1, ![600064]⟩
abbrev S600064x1 : Shape := ⟨2, ![600064, 1]⟩
abbrev S2048x256 : Shape := ⟨2, ![2048, 256]⟩
abbrev S2048x1 : Shape := ⟨2, ![2048, 1]⟩
abbrev S100352x256 : Shape := ⟨2, ![100352, 256]⟩

abbrev nBuf : Space → Nat
  | .hbm => 239
  | .vmem => 20
  | .smem => 0
  | _ => 0

abbrev hbmTy0_0 (i : Nat) : BufTy := match i % 128 with
  | 0 => ⟨S100000x256, .f32⟩
  | 1 => ⟨S2x600000, .i32⟩
  | 2 => ⟨S600000, .i32⟩
  | 3 => ⟨S500x256, .f32⟩
  | 4 => ⟨S4x64x64, .f32⟩
  | 5 => ⟨S4x64, .f32⟩
  | 6 => ⟨S4x64x64, .f32⟩
  | 7 => ⟨S4x64, .f32⟩
  | 8 => ⟨S1x256, .f32⟩
  | 9 => ⟨S1, .f32⟩
  | 10 => ⟨S256, .i32⟩
  | 11 => ⟨S256, .i1⟩
  | 12 => ⟨S256, .i1⟩
  | 13 => ⟨S256, .i32⟩
  | 14 => ⟨S256, .i1⟩
  | 15 => ⟨S1x600000, .i32⟩
  | 16 => ⟨S600000, .i32⟩
  | 17 => ⟨S1x600000, .i32⟩
  | 18 => ⟨S600000, .i32⟩
  | 19 => ⟨S1x64x64, .f32⟩
  | 20 => ⟨S64x64, .f32⟩
  | 21 => ⟨S1x64x64, .f32⟩
  | 22 => ⟨S64x64, .f32⟩
  | 23 => ⟨S_, .f32⟩
  | 24 => ⟨S64x64, .f32⟩
  | 25 => ⟨S64x64, .f32⟩
  | 26 => ⟨S1x64x64, .f32⟩
  | 27 => ⟨S64x64, .f32⟩
  | 28 => ⟨S_, .f32⟩
  | 29 => ⟨S64x64, .f32⟩
  | 30 => ⟨S64x64, .f32⟩
  | 31 => ⟨S1x64x64, .f32⟩
  | 32 => ⟨S64x64, .f32⟩
  | 33 => ⟨S_, .f32⟩
  | 34 => ⟨S64x64, .f32⟩
  | 35 => ⟨S64x64, .f32⟩
  | 36 => ⟨S64x256, .f32⟩
  | 37 => ⟨S1x64x64, .f32⟩
  | 38 => ⟨S64x64, .f32⟩
  | 39 => ⟨S1x64x64, .f32⟩
  | 40 => ⟨S64x64, .f32⟩
  | 41 => ⟨S1x64x64, .f32⟩
  | 42 => ⟨S64x64, .f32⟩
  | 43 => ⟨S_, .f32⟩
  | 44 => ⟨S64x64, .f32⟩
  | 45 => ⟨S64x64, .f32⟩
  | 46 => ⟨S1x64x64, .f32⟩
  | 47 => ⟨S64x64, .f32⟩
  | 48 => ⟨S_, .f32⟩
  | 49 => ⟨S64x64, .f32⟩
  | 50 => ⟨S64x64, .f32⟩
  | 51 => ⟨S64x256, .f32⟩
  | 52 => ⟨S1x64x64, .f32⟩
  | 53 => ⟨S64x64, .f32⟩
  | 54 => ⟨S1x64x64, .f32⟩
  | 55 => ⟨S64x64, .f32⟩
  | 56 => ⟨S_, .f32⟩
  | 57 => ⟨S64x64, .f32⟩
  | 58 => ⟨S64x64, .f32⟩
  | 59 => ⟨S1x64x64, .f32⟩
  | 60 => ⟨S64x64, .f32⟩
  | 61 => ⟨S1x64x64, .f32⟩
  | 62 => ⟨S64x64, .f32⟩
  | 63 => ⟨S_, .f32⟩
  | 64 => ⟨S64x64, .f32⟩
  | 65 => ⟨S64x64, .f32⟩
  | 66 => ⟨S64x256, .f32⟩
  | 67 => ⟨S1x64x64, .f32⟩
  | 68 => ⟨S64x64, .f32⟩
  | 69 => ⟨S1x64x64, .f32⟩
  | 70 => ⟨S64x64, .f32⟩
  | 71 => ⟨S1x64x64, .f32⟩
  | 72 => ⟨S64x64, .f32⟩
  | 73 => ⟨S1x64x64, .f32⟩
  | 74 => ⟨S64x64, .f32⟩
  | 75 => ⟨S64x256, .f32⟩
  | 76 => ⟨S256x256, .f32⟩
  | 77 => ⟨S256, .f32⟩
  | 78 => ⟨S1x64x64, .f32⟩
  | 79 => ⟨S64x64, .f32⟩
  | 80 => ⟨S1x64x64, .f32⟩
  | 81 => ⟨S64x64, .f32⟩
  | 82 => ⟨S_, .f32⟩
  | 83 => ⟨S64x64, .f32⟩
  | 84 => ⟨S64x64, .f32⟩
  | 85 => ⟨S1x64x64, .f32⟩
  | 86 => ⟨S64x64, .f32⟩
  | 87 => ⟨S_, .f32⟩
  | 88 => ⟨S64x64, .f32⟩
  | 89 => ⟨S64x64, .f32⟩
  | 90 => ⟨S1x64x64, .f32⟩
  | 91 => ⟨S64x64, .f32⟩
  | 92 => ⟨S_, .f32⟩
  | 93 => ⟨S64x64, .f32⟩
  | 94 => ⟨S64x64, .f32⟩
  | 95 => ⟨S64x256, .f32⟩
  | 96 => ⟨S1x64x64, .f32⟩
  | 97 => ⟨S64x64, .f32⟩
  | 98 => ⟨S1x64x64, .f32⟩
  | 99 => ⟨S64x64, .f32⟩
  | 100 => ⟨S1x64x64, .f32⟩
  | 101 => ⟨S64x64, .f32⟩
  | 102 => ⟨S_, .f32⟩
  | 103 => ⟨S64x64, .f32⟩
  | 104 => ⟨S64x64, .f32⟩
  | 105 => ⟨S1x64x64, .f32⟩
  | 106 => ⟨S64x64, .f32⟩
  | 107 => ⟨S_, .f32⟩
  | 108 => ⟨S64x64, .f32⟩
  | 109 => ⟨S64x64, .f32⟩
  | 110 => ⟨S64x256, .f32⟩
  | 111 => ⟨S1x64x64, .f32⟩
  | 112 => ⟨S64x64, .f32⟩
  | 113 => ⟨S1x64x64, .f32⟩
  | 114 => ⟨S64x64, .f32⟩
  | 115 => ⟨S_, .f32⟩
  | 116 => ⟨S64x64, .f32⟩
  | 117 => ⟨S64x64, .f32⟩
  | 118 => ⟨S1x64x64, .f32⟩
  | 119 => ⟨S64x64, .f32⟩
  | 120 => ⟨S1x64x64, .f32⟩
  | 121 => ⟨S64x64, .f32⟩
  | 122 => ⟨S_, .f32⟩
  | 123 => ⟨S64x64, .f32⟩
  | 124 => ⟨S64x64, .f32⟩
  | 125 => ⟨S64x256, .f32⟩
  | 126 => ⟨S1x64x64, .f32⟩
  | 127 => ⟨S64x64, .f32⟩
  | _ => ⟨S100000x256, .f32⟩

abbrev hbmTy0_1 (i : Nat) : BufTy := match i % 128 with
  | 0 => ⟨S1x64x64, .f32⟩
  | 1 => ⟨S64x64, .f32⟩
  | 2 => ⟨S1x64x64, .f32⟩
  | 3 => ⟨S64x64, .f32⟩
  | 4 => ⟨S1x64x64, .f32⟩
  | 5 => ⟨S64x64, .f32⟩
  | 6 => ⟨S64x256, .f32⟩
  | 7 => ⟨S256x256, .f32⟩
  | 8 => ⟨S256, .f32⟩
  | 9 => ⟨S_, .i32⟩
  | 10 => ⟨S256, .i32⟩
  | 11 => ⟨S256, .i32⟩
  | 12 => ⟨S256, .i32⟩
  | 13 => ⟨S256x1, .i32⟩
  | 14 => ⟨S256x256, .f32⟩
  | 15 => ⟨S_, .i32⟩
  | 16 => ⟨S256, .i32⟩
  | 17 => ⟨S256, .i32⟩
  | 18 => ⟨S256, .i32⟩
  | 19 => ⟨S256x1, .i32⟩
  | 20 => ⟨S256, .f32⟩
  | 21 => ⟨S_, .i32⟩
  | 22 => ⟨S256, .i32⟩
  | 23 => ⟨S256, .i32⟩
  | 24 => ⟨S256, .i32⟩
  | 25 => ⟨S256x1, .i32⟩
  | 26 => ⟨S1x256, .f32⟩
  | 27 => ⟨S256x256, .f32⟩
  | 28 => ⟨S256x256, .bf16⟩
  | 29 => ⟨S256x256, .f32⟩
  | 30 => ⟨S256x256, .bf16⟩
  | 31 => ⟨S1x256, .f32⟩
  | 32 => ⟨S1x256, .f32⟩
  | 33 => ⟨S256x1, .f32⟩
  | 34 => ⟨S256x1, .bf16⟩
  | 35 => ⟨S1x1, .f32⟩
  | 36 => ⟨S_, .f32⟩
  | 37 => ⟨S600000, .f32⟩
  | 38 => ⟨S_, .f32⟩
  | 39 => ⟨S100000, .f32⟩
  | 40 => ⟨S600000x1, .i32⟩
  | 41 => ⟨S100000, .f32⟩
  | 42 => ⟨S_, .f32⟩
  | 43 => ⟨S100000, .f32⟩
  | 44 => ⟨S600000x1, .i32⟩
  | 45 => ⟨S100000, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000, .f32⟩
  | 64 => ⟨S600000, .f32⟩
  | 65 => ⟨S_, .f32⟩
  | 66 => ⟨S600000, .f32⟩
  | 67 => ⟨S600000, .f32⟩
  | 68 => ⟨S600000, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x256, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x256, .f32⟩
  | 87 => ⟨S_, .i32⟩
  | 88 => ⟨S_, .f32⟩
  | 89 => ⟨S600064x256, .f32⟩
  | 90 => ⟨S_, .i32⟩
  | 91 => ⟨S_, .f32⟩
  | 92 => ⟨S600064x256, .f32⟩
  | 93 => ⟨S_, .i32⟩
  | 94 => ⟨S_, .f32⟩
  | 95 => ⟨S600064, .f32⟩
  | 96 => ⟨S600064x1, .f32⟩
  | 97 => ⟨S600064x256, .f32⟩
  | 98 => ⟨S600000x256, .f32⟩
  | 99 => ⟨S_, .f32⟩
  | 100 => ⟨S100000x256, .f32⟩
  | 101 => ⟨S600000x1, .i32⟩
  | 102 => ⟨S100000x256, .f32⟩
  | 103 => ⟨S_, .i32⟩
  | 104 => ⟨S_, .f32⟩
  | 105 => ⟨S100352x256, .f32⟩
  | 106 => ⟨S_, .i32⟩
  | 107 => ⟨S_, .f32⟩
  | 108 => ⟨S100352x256, .f32⟩
  | 109 => ⟨S100352x256, .f32⟩
  | 110 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | .local _ .vmem, ⟨6, _⟩ => ⟨S256x256, .bf16⟩
  | .local _ .vmem, ⟨7, _⟩ => ⟨S1x256, .f32⟩
  | .local _ .vmem, ⟨8, _⟩ => ⟨S256x1, .bf16⟩
  | .local _ .vmem, ⟨9, _⟩ => ⟨S1x1, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S256x256, .bf16⟩
  | .local _ .vmem, ⟨17, _⟩ => ⟨S1x256, .f32⟩
  | .local _ .vmem, ⟨18, _⟩ => ⟨S2048x256, .f32⟩
  | .local _ .vmem, ⟨19, _⟩ => ⟨S2048x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_14 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_16 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_17 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_c_18 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_c_19 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_20 : Ref sig .tc := ⟨.hbm, 164, rfl⟩
abbrev main_v132 : Ref sig .tc := ⟨.hbm, 165, rfl⟩
abbrev main_cst_21 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_22 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_c_23 : Ref sig .tc := ⟨.hbm, 174, rfl⟩
abbrev main_v139 : Ref sig .tc := ⟨.hbm, 175, rfl⟩
abbrev main_v140 : Ref sig .tc := ⟨.hbm, 176, rfl⟩
abbrev main_c_24 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_c_25 : Ref sig .tc := ⟨.hbm, 183, rfl⟩
abbrev main_v146 : Ref sig .tc := ⟨.hbm, 184, rfl⟩
abbrev main_v147 : Ref sig .tc := ⟨.hbm, 185, rfl⟩
abbrev main_c_26 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_27 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_c_28 : Ref sig .tc := ⟨.hbm, 197, rfl⟩
abbrev main_v157 : Ref sig .tc := ⟨.hbm, 198, rfl⟩
abbrev main_v158 : Ref sig .tc := ⟨.hbm, 199, rfl⟩
abbrev main_c_29 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_c_30 : Ref sig .tc := ⟨.hbm, 206, rfl⟩
abbrev main_v164 : Ref sig .tc := ⟨.hbm, 207, rfl⟩
abbrev main_v165 : Ref sig .tc := ⟨.hbm, 208, rfl⟩
abbrev main_c_31 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_c_32 : Ref sig .tc := ⟨.hbm, 215, rfl⟩
abbrev main_call0_v0 : Ref sig .tc := ⟨.hbm, 216, rfl⟩
abbrev main_v171 : Ref sig .tc := ⟨.hbm, 217, rfl⟩
abbrev main_c_33 : Ref sig .tc := ⟨.hbm, 218, rfl⟩
abbrev main_call1_v0 : Ref sig .tc := ⟨.hbm, 219, rfl⟩
abbrev main_v172 : Ref sig .tc := ⟨.hbm, 220, rfl⟩
abbrev main_c_34 : Ref sig .tc := ⟨.hbm, 221, rfl⟩
abbrev main_call2_v0 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_35 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_c_36 : Ref sig .tc := ⟨.hbm, 231, rfl⟩
abbrev main_call3_v0 : Ref sig .tc := ⟨.hbm, 232, rfl⟩
abbrev main_v180 : Ref sig .tc := ⟨.hbm, 233, rfl⟩
abbrev main_c_37 : Ref sig .tc := ⟨.hbm, 234, rfl⟩
abbrev main_call4_v0 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![293], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  bcast_S_S64x64 : S_.BroadcastsInDim S64x64 (![] : Fin 0 → Fin S64x64.rank)
  slices_S4x64x64_S1x64x64_2_0_0 : S4x64x64.Slices ![2, 0, 0] S1x64x64
  slices_S4x64x64_S1x64x64_3_0_0 : S4x64x64.Slices ![3, 0, 0] S1x64x64
  concatenates_S64x64_S64x64_S64x64_S64x64_S64x256_d1 : Shape.Concatenates [S64x64, S64x64, S64x64, S64x64] S64x256 1
  concatenates_S64x256_S64x256_S64x256_S64x256_S256x256_d0 : Shape.Concatenates [S64x256, S64x256, S64x256, S64x256] S256x256 0
  shapeCasts_S4x64_S256 : S4x64.ShapeCasts S256
  bcast_S_S256 : S_.BroadcastsInDim S256 (![] : Fin 0 → Fin S256.rank)
  bcast_S256_S256x1_0 : S256.BroadcastsInDim S256x1 (![0] : Fin 1 → Fin S256x1.rank)
  transposes_S256x256_S256x256_1_0 : S256x256.Transposes [1, 0] S256x256
  bitsLt_bf16_f32 : FTy.bits .bf16 < FTy.bits .f32
  shapeCasts_S256_S1x256 : S256.ShapeCasts S1x256
  shapeCasts_S1x256_S256x1 : S1x256.ShapeCasts S256x1
  shapeCasts_S1_S1x1 : S1.ShapeCasts S1x1
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  pads_S600000x256_S600064x256_0640_000 : S600000x256.Pads (![0, 0] : Fin 2 → Nat) ![64, 0] ![0, 0] S600064x256
  h_S_ : 0 < S_.numel
  pads_S600000_S600064_0640 : S600000.Pads (![0] : Fin 1 → Nat) ![64] ![0] S600064
  shapeCasts_S600064_S600064x1 : S600064.ShapeCasts S600064x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  slices_S600064x256_S600000x256_0_0 : S600064x256.Slices ![0, 0] S600000x256
  bcast_S_S100000x256 : S_.BroadcastsInDim S100000x256 (![] : Fin 0 → Fin S100000x256.rank)
  pads_S100000x256_S100352x256_03520_000 : S100000x256.Pads (![0, 0] : Fin 2 → Nat) ![352, 0] ![0, 0] S100352x256
  slices_S100352x256_S100000x256_0_0 : S100352x256.Slices ![0, 0] S100000x256
  gather_S256x256_S256x1_S256x256_1_0_n_n_0_1_1256_wf : GatherDims.WF S256x256 S256x1 S256x256 [1] [0] [] [0] [] 1 ![1, 256]
  gather_S256_S256x1_S256_n_0_n_n_0_1_1_wf : GatherDims.WF S256 S256x1 S256 [] [0] [] [0] [] 1 ![1]
  gather_S1x256_S256x1_S1x256_0_1_n_n_1_1_11_wf : GatherDims.WF S1x256 S256x1 S1x256 [0] [1] [] [1] [] 1 ![1, 1]
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x256_S600000x1_S600000x256_1_0_n_n_0_1_1256_wf : GatherDims.WF S100000x256 S600000x1 S600000x256 [1] [0] [] [0] [] 1 ![1, 256]
  gather_S500x256_S600000x1_S600000x256_1_0_n_n_0_1_1256_wf : GatherDims.WF S500x256 S600000x1 S600000x256 [1] [0] [] [0] [] 1 ![1, 256]
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  scatter_S100000x256_S600000x1_S600000x256_1_0_0_1_wf : ScatterDims.WF S100000x256 S600000x1 S600000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S600064x256.size a
  hwx0_0 : ∀ i : grid0.Coords, EltTy.bits .f32 = 32 ∨ (Rect.block (s := S600064x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S600064x256.size a
  hwx0_1 : ∀ i : grid0.Coords, EltTy.bits .f32 = 32 ∨ (Rect.block (s := S600064x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S600064x1.size a
  hwx0_2 : ∀ i : grid0.Coords, EltTy.bits .f32 = 32 ∨ (Rect.block (s := S600064x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .bf16 = 32 ∨ (Rect.block (s := S256x1) S256x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S600064x256.size a
  hwx0_7 : ∀ i : grid0.Coords, EltTy.bits .f32 = 32 ∨ (Rect.block (s := S600064x256) S2048x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S100352x256.size a
  hwx1_0 : ∀ i : grid1.Coords, EltTy.bits .f32 = 32 ∨ (Rect.block (s := S100352x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S100352x256.size a
  hwx1_1 : ∀ i : grid1.Coords, EltTy.bits .f32 = 32 ∨ (Rect.block (s := S100352x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S100352x256.size a
  hwx1_4 : ∀ i : grid1.Coords, EltTy.bits .f32 = 32 ∨ (Rect.block (s := S100352x256) S2048x256.size (cc1_transform_4 i) (hinb1_4 i)).WholeWords (EltTy.packing .f32)

variable [Facts₀]

def gather_S256x256_S256x1_S256x256_1_0_n_n_0_1_1256 : GatherDims S256x256 S256x1 S256x256 where
  offsetDims := [1]
  collapsedSliceDims := [0]
  operandBatchingDims := []
  startIndicesBatchingDims := []
  startIndexMap := [0]
  indexVectorDim := 1
  sliceSizes := ![1, 256]
  wf := gather_S256x256_S256x1_S256x256_1_0_n_n_0_1_1256_wf
def gather_S256_S256x1_S256_n_0_n_n_0_1_1 : GatherDims S256 S256x1 S256 where
  offsetDims := []
  collapsedSliceDims := [0]
  operandBatchingDims := []
  startIndicesBatchingDims := []
  startIndexMap := [0]
  indexVectorDim := 1
  sliceSizes := ![1]
  wf := gather_S256_S256x1_S256_n_0_n_n_0_1_1_wf
def gather_S1x256_S256x1_S1x256_0_1_n_n_1_1_11 : GatherDims S1x256 S256x1 S1x256 where
  offsetDims := [0]
  collapsedSliceDims := [1]
  operandBatchingDims := []
  startIndicesBatchingDims := []
  startIndexMap := [1]
  indexVectorDim := 1
  sliceSizes := ![1, 1]
  wf := gather_S1x256_S256x1_S1x256_0_1_n_n_1_1_11_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def gather_S500x256_S600000x1_S600000x256_1_0_n_n_0_1_1256 : GatherDims S500x256 S600000x1 S600000x256 where
  offsetDims := [1]
  collapsedSliceDims := [0]
  operandBatchingDims := []
  startIndicesBatchingDims := []
  startIndexMap := [0]
  indexVectorDim := 1
  sliceSizes := ![1, 256]
  wf := gather_S500x256_S600000x1_S600000x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf

abbrev win0_0 : Pipeline.Window sig grid0 :=
  Pipeline.Window.ofSpec (Memref.whole main_v171) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v172) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v174) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v124) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v127) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v130) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v131) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v175) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v180) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v181) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v126) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v128) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v182) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x600000 : Shape := ⟨2, ![2, 600000]⟩
abbrev S600000 : Shape := ⟨1, ![600000]⟩
abbrev S500x256 : Shape := ⟨2, ![500, 256]⟩
abbrev S4x64x64 : Shape := ⟨3, ![4, 64, 64]⟩
abbrev S4x64 : Shape := ⟨2, ![4, 64]⟩
abbrev S1x256 : Shape := ⟨2, ![1, 256]⟩
abbrev S1 : Shape := ⟨1, ![1]⟩
abbrev S100000x4x64 : Shape := ⟨3, ![100000, 4, 64]⟩
abbrev S100000x64x4 : Shape := ⟨3, ![100000, 64, 4]⟩
abbrev S500x4x64 : Shape := ⟨3, ![500, 4, 64]⟩
abbrev S500x64x4 : Shape := ⟨3, ![500, 64, 4]⟩
abbrev S1x600000 : Shape := ⟨2, ![1, 600000]⟩
abbrev S_ : Shape := ⟨0, ![]⟩
abbrev S600000x1 : Shape := ⟨2, ![600000, 1]⟩
abbrev S600000x64x4 : Shape := ⟨3, ![600000, 64, 4]⟩
abbrev S1x64x64 : Shape := ⟨3, ![1, 64, 64]⟩
abbrev S64x64 : Shape := ⟨2, ![64, 64]⟩
abbrev S64x256 : Shape := ⟨2, ![64, 256]⟩
abbrev S256x256 : Shape := ⟨2, ![256, 256]⟩
abbrev S600000x4x64 : Shape := ⟨3, ![600000, 4, 64]⟩
abbrev S600000x256 : Shape := ⟨2, ![600000, 256]⟩
abbrev S256 : Shape := ⟨1, ![256]⟩
abbrev S256x1 : Shape := ⟨2, ![256, 1]⟩
abbrev S1x1 : Shape := ⟨2, ![1, 1]⟩
abbrev S600000x1x1 : Shape := ⟨3, ![600000, 1, 1]⟩
abbrev S100000 : Shape := ⟨1, ![100000]⟩

abbrev nBuf : Space → Nat
  | .hbm => 234
  | .vmem => 0
  | .smem => 0
  | _ => 0

abbrev hbmTy0_0 (i : Nat) : BufTy := match i % 128 with
  | 0 => ⟨S100000x256, .f32⟩
  | 1 => ⟨S2x600000, .i32⟩
  | 2 => ⟨S600000, .i32⟩
  | 3 => ⟨S500x256, .f32⟩
  | 4 => ⟨S4x64x64, .f32⟩
  | 5 => ⟨S4x64, .f32⟩
  | 6 => ⟨S4x64x64, .f32⟩
  | 7 => ⟨S4x64, .f32⟩
  | 8 => ⟨S1x256, .f32⟩
  | 9 => ⟨S1, .f32⟩
  | 10 => ⟨S100000x4x64, .f32⟩
  | 11 => ⟨S100000x64x4, .f32⟩
  | 12 => ⟨S500x4x64, .f32⟩
  | 13 => ⟨S500x64x4, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x64x4, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x64x4, .f32⟩
  | 36 => ⟨S600000x64x4, .f32⟩
  | 37 => ⟨S1x64x64, .f32⟩
  | 38 => ⟨S64x64, .f32⟩
  | 39 => ⟨S1x64x64, .f32⟩
  | 40 => ⟨S64x64, .f32⟩
  | 41 => ⟨S_, .f32⟩
  | 42 => ⟨S64x64, .f32⟩
  | 43 => ⟨S64x64, .f32⟩
  | 44 => ⟨S1x64x64, .f32⟩
  | 45 => ⟨S64x64, .f32⟩
  | 46 => ⟨S_, .f32⟩
  | 47 => ⟨S64x64, .f32⟩
  | 48 => ⟨S64x64, .f32⟩
  | 49 => ⟨S1x64x64, .f32⟩
  | 50 => ⟨S64x64, .f32⟩
  | 51 => ⟨S_, .f32⟩
  | 52 => ⟨S64x64, .f32⟩
  | 53 => ⟨S64x64, .f32⟩
  | 54 => ⟨S64x256, .f32⟩
  | 55 => ⟨S1x64x64, .f32⟩
  | 56 => ⟨S64x64, .f32⟩
  | 57 => ⟨S1x64x64, .f32⟩
  | 58 => ⟨S64x64, .f32⟩
  | 59 => ⟨S1x64x64, .f32⟩
  | 60 => ⟨S64x64, .f32⟩
  | 61 => ⟨S_, .f32⟩
  | 62 => ⟨S64x64, .f32⟩
  | 63 => ⟨S64x64, .f32⟩
  | 64 => ⟨S1x64x64, .f32⟩
  | 65 => ⟨S64x64, .f32⟩
  | 66 => ⟨S_, .f32⟩
  | 67 => ⟨S64x64, .f32⟩
  | 68 => ⟨S64x64, .f32⟩
  | 69 => ⟨S64x256, .f32⟩
  | 70 => ⟨S1x64x64, .f32⟩
  | 71 => ⟨S64x64, .f32⟩
  | 72 => ⟨S1x64x64, .f32⟩
  | 73 => ⟨S64x64, .f32⟩
  | 74 => ⟨S_, .f32⟩
  | 75 => ⟨S64x64, .f32⟩
  | 76 => ⟨S64x64, .f32⟩
  | 77 => ⟨S1x64x64, .f32⟩
  | 78 => ⟨S64x64, .f32⟩
  | 79 => ⟨S1x64x64, .f32⟩
  | 80 => ⟨S64x64, .f32⟩
  | 81 => ⟨S_, .f32⟩
  | 82 => ⟨S64x64, .f32⟩
  | 83 => ⟨S64x64, .f32⟩
  | 84 => ⟨S64x256, .f32⟩
  | 85 => ⟨S1x64x64, .f32⟩
  | 86 => ⟨S64x64, .f32⟩
  | 87 => ⟨S1x64x64, .f32⟩
  | 88 => ⟨S64x64, .f32⟩
  | 89 => ⟨S1x64x64, .f32⟩
  | 90 => ⟨S64x64, .f32⟩
  | 91 => ⟨S1x64x64, .f32⟩
  | 92 => ⟨S64x64, .f32⟩
  | 93 => ⟨S64x256, .f32⟩
  | 94 => ⟨S256x256, .f32⟩
  | 95 => ⟨S600000x4x64, .f32⟩
  | 96 => ⟨S600000x256, .f32⟩
  | 97 => ⟨S256x256, .f32⟩
  | 98 => ⟨S600000x256, .f32⟩
  | 99 => ⟨S256, .f32⟩
  | 100 => ⟨S1x256, .f32⟩
  | 101 => ⟨S600000x256, .f32⟩
  | 102 => ⟨S600000x256, .f32⟩
  | 103 => ⟨S600000x4x64, .f32⟩
  | 104 => ⟨S600000x64x4, .f32⟩
  | 105 => ⟨S600000x256, .f32⟩
  | 106 => ⟨S256x1, .f32⟩
  | 107 => ⟨S600000x1, .f32⟩
  | 108 => ⟨S1x1, .f32⟩
  | 109 => ⟨S600000x1, .f32⟩
  | 110 => ⟨S600000x1, .f32⟩
  | 111 => ⟨S600000x1, .f32⟩
  | 112 => ⟨S600000x1, .f32⟩
  | 113 => ⟨S_, .f32⟩
  | 114 => ⟨S600000x1, .f32⟩
  | 115 => ⟨S600000x1, .f32⟩
  | 116 => ⟨S_, .f32⟩
  | 117 => ⟨S600000x1, .f32⟩
  | 118 => ⟨S600000x1, .f32⟩
  | 119 => ⟨S600000x1x1, .f32⟩
  | 120 => ⟨S600000x64x4, .f32⟩
  | 121 => ⟨S600000x64x4, .f32⟩
  | 122 => ⟨S_, .f32⟩
  | 123 => ⟨S600000, .f32⟩
  | 124 => ⟨S_, .f32⟩
  | 125 => ⟨S100000, .f32⟩
  | 126 => ⟨S600000x1, .i32⟩
  | 127 => ⟨S100000, .f32⟩
  | _ => ⟨S100000x256, .f32⟩

abbrev hbmTy0_1 (i : Nat) : BufTy := match i % 128 with
  | 0 => ⟨S_, .f32⟩
  | 1 => ⟨S100000, .f32⟩
  | 2 => ⟨S600000x1, .i32⟩
  | 3 => ⟨S100000, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000, .f32⟩
  | 22 => ⟨S600000, .f32⟩
  | 23 => ⟨S_, .f32⟩
  | 24 => ⟨S600000, .f32⟩
  | 25 => ⟨S600000, .f32⟩
  | 26 => ⟨S_, .f32⟩
  | 27 => ⟨S600000, .f32⟩
  | 28 => ⟨S600000, .f32⟩
  | 29 => ⟨S600000x1x1, .f32⟩
  | 30 => ⟨S600000x64x4, .f32⟩
  | 31 => ⟨S600000x64x4, .f32⟩
  | 32 => ⟨S_, .f32⟩
  | 33 => ⟨S100000x64x4, .f32⟩
  | 34 => ⟨S600000x1, .i32⟩
  | 35 => ⟨S100000x64x4, .f32⟩
  | 36 => ⟨S100000x64x4, .f32⟩
  | 37 => ⟨S1x64x64, .f32⟩
  | 38 => ⟨S64x64, .f32⟩
  | 39 => ⟨S1x64x64, .f32⟩
  | 40 => ⟨S64x64, .f32⟩
  | 41 => ⟨S_, .f32⟩
  | 42 => ⟨S64x64, .f32⟩
  | 43 => ⟨S64x64, .f32⟩
  | 44 => ⟨S1x64x64, .f32⟩
  | 45 => ⟨S64x64, .f32⟩
  | 46 => ⟨S_, .f32⟩
  | 47 => ⟨S64x64, .f32⟩
  | 48 => ⟨S64x64, .f32⟩
  | 49 => ⟨S1x64x64, .f32⟩
  | 50 => ⟨S64x64, .f32⟩
  | 51 => ⟨S_, .f32⟩
  | 52 => ⟨S64x64, .f32⟩
  | 53 => ⟨S64x64, .f32⟩
  | 54 => ⟨S64x256, .f32⟩
  | 55 => ⟨S1x64x64, .f32⟩
  | 56 => ⟨S64x64, .f32⟩
  | 57 => ⟨S1x64x64, .f32⟩
  | 58 => ⟨S64x64, .f32⟩
  | 59 => ⟨S1x64x64, .f32⟩
  | 60 => ⟨S64x64, .f32⟩
  | 61 => ⟨S_, .f32⟩
  | 62 => ⟨S64x64, .f32⟩
  | 63 => ⟨S64x64, .f32⟩
  | 64 => ⟨S1x64x64, .f32⟩
  | 65 => ⟨S64x64, .f32⟩
  | 66 => ⟨S_, .f32⟩
  | 67 => ⟨S64x64, .f32⟩
  | 68 => ⟨S64x64, .f32⟩
  | 69 => ⟨S64x256, .f32⟩
  | 70 => ⟨S1x64x64, .f32⟩
  | 71 => ⟨S64x64, .f32⟩
  | 72 => ⟨S1x64x64, .f32⟩
  | 73 => ⟨S64x64, .f32⟩
  | 74 => ⟨S_, .f32⟩
  | 75 => ⟨S64x64, .f32⟩
  | 76 => ⟨S64x64, .f32⟩
  | 77 => ⟨S1x64x64, .f32⟩
  | 78 => ⟨S64x64, .f32⟩
  | 79 => ⟨S1x64x64, .f32⟩
  | 80 => ⟨S64x64, .f32⟩
  | 81 => ⟨S_, .f32⟩
  | 82 => ⟨S64x64, .f32⟩
  | 83 => ⟨S64x64, .f32⟩
  | 84 => ⟨S64x256, .f32⟩
  | 85 => ⟨S1x64x64, .f32⟩
  | 86 => ⟨S64x64, .f32⟩
  | 87 => ⟨S1x64x64, .f32⟩
  | 88 => ⟨S64x64, .f32⟩
  | 89 => ⟨S1x64x64, .f32⟩
  | 90 => ⟨S64x64, .f32⟩
  | 91 => ⟨S1x64x64, .f32⟩
  | 92 => ⟨S64x64, .f32⟩
  | 93 => ⟨S64x256, .f32⟩
  | 94 => ⟨S256x256, .f32⟩
  | 95 => ⟨S100000x4x64, .f32⟩
  | 96 => ⟨S100000x256, .f32⟩
  | 97 => ⟨S256x256, .f32⟩
  | 98 => ⟨S100000x256, .f32⟩
  | 99 => ⟨S256, .f32⟩
  | 100 => ⟨S1x256, .f32⟩
  | 101 => ⟨S100000x256, .f32⟩
  | 102 => ⟨S100000x256, .f32⟩
  | 103 => ⟨S100000x4x64, .f32⟩
  | 104 => ⟨S100000x64x4, .f32⟩
  | 105 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_9 : Ref sig .tc := ⟨.hbm, 113, rfl⟩
abbrev main_v92 : Ref sig .tc := ⟨.hbm, 114, rfl⟩
abbrev main_v93 : Ref sig .tc := ⟨.hbm, 115, rfl⟩
abbrev main_cst_10 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_11 : Ref sig .tc := ⟨.hbm, 122, rfl⟩
abbrev main_v99 : Ref sig .tc := ⟨.hbm, 123, rfl⟩
abbrev main_cst_12 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_13 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_14 : Ref sig .tc := ⟨.hbm, 132, rfl⟩
abbrev main_v106 : Ref sig .tc := ⟨.hbm, 133, rfl⟩
abbrev main_v107 : Ref sig .tc := ⟨.hbm, 134, rfl⟩
abbrev main_c_15 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_c_16 : Ref sig .tc := ⟨.hbm, 141, rfl⟩
abbrev main_v113 : Ref sig .tc := ⟨.hbm, 142, rfl⟩
abbrev main_v114 : Ref sig .tc := ⟨.hbm, 143, rfl⟩
abbrev main_c_17 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_18 : Ref sig .tc := ⟨.hbm, 151, rfl⟩
abbrev main_v121 : Ref sig .tc := ⟨.hbm, 152, rfl⟩
abbrev main_v122 : Ref sig .tc := ⟨.hbm, 153, rfl⟩
abbrev main_cst_19 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_20 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_21 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_22 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_23 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_24 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_25 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_26 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_27 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩

abbrev nD : Nat := 1
abbrev τ : Topo := Topo.v7x

variable {F : FTy → Type} [FloatOps F]

class Facts₀ : Prop where
  shapeCasts_S100000x256_S100000x4x64 : S100000x256.ShapeCasts S100000x4x64
  transposes_S100000x4x64_S100000x64x4_0_2_1 : S100000x4x64.Transposes [0, 2, 1] S100000x64x4
  shapeCasts_S500x256_S500x4x64 : S500x256.ShapeCasts S500x4x64
  transposes_S500x4x64_S500x64x4_0_2_1 : S500x4x64.Transposes [0, 2, 1] S500x64x4
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  bcast_S_S64x64 : S_.BroadcastsInDim S64x64 (![] : Fin 0 → Fin S64x64.rank)
  slices_S4x64x64_S1x64x64_2_0_0 : S4x64x64.Slices ![2, 0, 0] S1x64x64
  slices_S4x64x64_S1x64x64_3_0_0 : S4x64x64.Slices ![3, 0, 0] S1x64x64
  concatenates_S64x64_S64x64_S64x64_S64x64_S64x256_d1 : Shape.Concatenates [S64x64, S64x64, S64x64, S64x64] S64x256 1
  concatenates_S64x256_S64x256_S64x256_S64x256_S256x256_d0 : Shape.Concatenates [S64x256, S64x256, S64x256, S64x256] S256x256 0
  transposes_S600000x64x4_S600000x4x64_0_2_1 : S600000x64x4.Transposes [0, 2, 1] S600000x4x64
  shapeCasts_S600000x4x64_S600000x256 : S600000x4x64.ShapeCasts S600000x256
  transposes_S256x256_S256x256_1_0 : S256x256.Transposes [1, 0] S256x256
  shapeCasts_S4x64_S256 : S4x64.ShapeCasts S256
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  shapeCasts_S600000x256_S600000x4x64 : S600000x256.ShapeCasts S600000x4x64
  transposes_S600000x4x64_S600000x64x4_0_2_1 : S600000x4x64.Transposes [0, 2, 1] S600000x64x4
  shapeCasts_S600000x64x4_S600000x256 : S600000x64x4.ShapeCasts S600000x256
  transposes_S1x256_S256x1_1_0 : S1x256.Transposes [1, 0] S256x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  bcast_S600000x1_S600000x1x1_0_1 : S600000x1.BroadcastsInDim S600000x1x1 (![0, 1] : Fin 2 → Fin S600000x1x1.rank)
  bcast_S600000x1x1_S600000x64x4_0_1_2 : S600000x1x1.BroadcastsInDim S600000x64x4 (![0, 1, 2] : Fin 3 → Fin S600000x64x4.rank)
  bcast_S_S100000 : S_.BroadcastsInDim S100000 (![] : Fin 0 → Fin S100000.rank)
  bcast_S600000_S600000x1x1_0 : S600000.BroadcastsInDim S600000x1x1 (![0] : Fin 1 → Fin S600000x1x1.rank)
  bcast_S_S100000x64x4 : S_.BroadcastsInDim S100000x64x4 (![] : Fin 0 → Fin S100000x64x4.rank)
  transposes_S100000x64x4_S100000x4x64_0_2_1 : S100000x64x4.Transposes [0, 2, 1] S100000x4x64
  shapeCasts_S100000x4x64_S100000x256 : S100000x4x64.ShapeCasts S100000x256
  bcast_S1x256_S100000x256_0_1 : S1x256.BroadcastsInDim S100000x256 (![0, 1] : Fin 2 → Fin S100000x256.rank)
  shapeCasts_S100000x64x4_S100000x256 : S100000x64x4.ShapeCasts S100000x256
  gather_S100000x64x4_S600000x1_S600000x64x4_12_0_n_n_0_1_1644_wf : GatherDims.WF S100000x64x4 S600000x1 S600000x64x4 [1, 2] [0] [] [0] [] 1 ![1, 64, 4]
  gather_S500x64x4_S600000x1_S600000x64x4_12_0_n_n_0_1_1644_wf : GatherDims.WF S500x64x4 S600000x1 S600000x64x4 [1, 2] [0] [] [0] [] 1 ![1, 64, 4]
  dot_S600000x256_S256x256_S600000x256_1_0_0_1_n_n_wf : DotDims.WF S600000x256 S256x256 S600000x256 [1] [0] [0] [1] [] []
  dot_S600000x256_S256x1_S600000x1_1_0_0_1_n_n_wf : DotDims.WF S600000x256 S256x1 S600000x1 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  scatter_S100000x64x4_S600000x1_S600000x64x4_12_0_0_1_wf : ScatterDims.WF S100000x64x4 S600000x1 S600000x64x4 [1, 2] [0] [0] 1
  dot_S100000x256_S256x256_S100000x256_1_0_0_1_n_n_wf : DotDims.WF S100000x256 S256x256 S100000x256 [1] [0] [0] [1] [] []

variable [Facts₀]

def gather_S100000x64x4_S600000x1_S600000x64x4_12_0_n_n_0_1_1644 : GatherDims S100000x64x4 S600000x1 S600000x64x4 where
  offsetDims := [1, 2]
  collapsedSliceDims := [0]
  operandBatchingDims := []
  startIndicesBatchingDims := []
  startIndexMap := [0]
  indexVectorDim := 1
  sliceSizes := ![1, 64, 4]
  wf := gather_S100000x64x4_S600000x1_S600000x64x4_12_0_n_n_0_1_1644_wf
def gather_S500x64x4_S600000x1_S600000x64x4_12_0_n_n_0_1_1644 : GatherDims S500x64x4 S600000x1 S600000x64x4 where
  offsetDims := [1, 2]
  collapsedSliceDims := [0]
  operandBatchingDims := []
  startIndicesBatchingDims := []
  startIndexMap := [0]
  indexVectorDim := 1
  sliceSizes := ![1, 64, 4]
  wf := gather_S500x64x4_S600000x1_S600000x64x4_12_0_n_n_0_1_1644_wf
def dot_S600000x256_S256x256_S600000x256_1_0_0_1_n_n : DotDims S600000x256 S256x256 S600000x256 where
  lhsContracting := [1]
  rhsContracting := [0]
  lhsNonContracting := [0]
  rhsNonContracting := [1]
  lhsBatch := []
  rhsBatch := []
  wf := dot_S600000x256_S256x256_S600000x256_1_0_0_1_n_n_wf
def dot_S600000x256_S256x1_S600000x1_1_0_0_1_n_n : DotDims S600000x256 S256x1 S600000x1 where
  lhsContracting := [1]
  rhsContracting := [0]
  lhsNonContracting := [0]
  rhsNonContracting := [1]
  lhsBatch := []
  rhsBatch := []
  wf := dot_S600000x256_S256x1_S600000x1_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def scatter_S100000x64x4_S600000x1_S600000x64x4_12_0_0_1 : ScatterDims S100000x64x4 S600000x1 S600000x64x4 where
  updateWindowDims := [1, 2]
  insertedWindowDims := [0]
  scatterDimsToOperandDims := [0]
  indexVectorDim := 1
  wf := scatter_S100000x64x4_S600000x1_S600000x64x4_12_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Data.lean ====
/-
  The shared definitions of the kernel program's frame, at any float instance.

  Per pallas_call (a "region" of @main), at the contents `V` the TensorCore's buffers hold when the region is
  entered: a window's block at a grid point read off its array; what the one output window's staging buffer holds
  after the body (its single whole-block store, the body's arithmetic kept as the skeleton's one payload); and the
  pipeline's proof data (inputs stay as fetched, the output takes the stored block, nothing owed, full shares).

  Then the buffer contents at each boundary between two items of @main: the launch memory, folded through each
  stretch of host operations, a region replacing its arrays by what its write-backs leave.
-/
import proofs.«164897_j31104153157801_1_alg».proof.Proof.Gen.KernelIdeal.Launch
import proofs.«164897_j31104153157801_1_alg».proof.Proof.Gen.KernelIdeal.Skeleton
import proofs.«164897_j31104153157801_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! ## The message kernel's region -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the two bodies load and store through. -/
abbrev rA : Rect S2048x256 := Rect.unit (s := S2048x256) ![0, 0] S2048x256.size inb_S2048x256_S2048x256_0_0
abbrev rN : Rect S2048x1 := Rect.unit (s := S2048x1) ![0, 0] S2048x1.size inb_S2048x1_S2048x1_0_0
abbrev rK : Rect S256x256 := Rect.unit (s := S256x256) ![0, 0] S256x256.size inb_S256x256_S256x256_0_0
abbrev rB : Rect S1x256 := Rect.unit (s := S1x256) ![0, 0] S1x256.size inb_S1x256_S1x256_0_0
abbrev rG : Rect S256x1 := Rect.unit (s := S256x1) ![0, 0] S256x1.size inb_S256x1_S256x1_0_0
abbrev rS : Rect S1x1 := Rect.unit (s := S1x1) ![0, 0] S1x1.size inb_S1x1_S1x1_0_0

/-- The output block after the body: one store of the whole block, its value the body's payload of the seven input
    blocks (rows of gathered node features, of gathered relation embeddings, the degree norms, the transposed
    message matrix, its bias row, the gate column, the gate bias). -/
def out0_7 (x0 : Vec F S2048x256 .f32) (x1 : Vec F S2048x256 .f32) (x2 : Vec F S2048x1 .f32) (x3 : Vec F S256x256 .bf16)
    (x4 : Vec F S1x256 .f32) (x5 : Vec F S256x1 .bf16) (x6 : Vec F S1x1 .f32) : Vec F S2048x256 .f32 :=
  View.canon [⟨rA, k0_pay1 (View.ld x0 rA) (View.ld x1 rA) (View.ld x3 rK) (View.ld x4 rB) (View.ld x5 rG) (View.ld x6 rS) (View.ld x2 rN)⟩]

/-- The pipeline's proof data: every input window keeps its block, the output window takes the stored block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-! ## The update kernel's region -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body: one store of the whole block, the payload of the four input blocks (node
    features, aggregated messages, the transposed update matrix, its bias row). -/
def out1_4 (x0 : Vec F S2048x256 .f32) (x1 : Vec F S2048x256 .f32) (x2 : Vec F S256x256 .bf16) (x3 : Vec F S1x256 .f32) : Vec F S2048x256 .f32 :=
  View.canon [⟨rA, k1_pay1 (View.ld x0 rA) (View.ld x1 rA) (View.ld x2 rK) (View.ld x3 rB)⟩]

/-- The pipeline's proof data: every input window keeps its block, the output window takes the stored block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

end Regions

/-! ## The buffer contents at each boundary of @main -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the long first stretch (weights assembled, degrees, gathers). -/
abbrev W1 : Dev nD → Valuation τ sig (Elt F) := fun c => StableHlo.after hostOps0 (W0 m ρ c)
/-- After the gathered node rows are padded. -/
abbrev W2 : Dev nD → Valuation τ sig (Elt F) := fun c => StableHlo.after hostOps0_1 (W1 m ρ c)
abbrev W3 : Dev nD → Valuation τ sig (Elt F) := fun c => StableHlo.after hostOps0_2 (W2 m ρ c)
/-- After the gathered relation rows are padded. -/
abbrev W4 : Dev nD → Valuation τ sig (Elt F) := fun c => StableHlo.after hostOps0_3 (W3 m ρ c)
abbrev W5 : Dev nD → Valuation τ sig (Elt F) := fun c => StableHlo.after hostOps0_4 (W4 m ρ c)
/-- After the norms are padded. -/
abbrev W6 : Dev nD → Valuation τ sig (Elt F) := fun c => StableHlo.after hostOps0_5 (W5 m ρ c)
/-- The message kernel's entry. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
/-- The message kernel's exit: its arrays at what the write-backs leave, every other buffer as entered. -/
def W8 (c : Dev nD) : Valuation τ sig (Elt F) :=
  Pipeline.withArrays spec0 c (W7 m ρ c) fun w => (dat0 (V7 m ρ) c).arrAt w cfg0.N
/-- After the messages are cut to size and summed by destination. -/
abbrev W9 : Dev nD → Valuation τ sig (Elt F) := fun c => StableHlo.after hostOps1 (W8 m ρ c)
abbrev W10 : Dev nD → Valuation τ sig (Elt F) := fun c => StableHlo.after hostOps1_1 (W9 m ρ c)
abbrev W11 : Dev nD → Valuation τ sig (Elt F) := fun c => StableHlo.after hostOps1_2 (W10 m ρ c)
/-- The update kernel's entry. -/
abbrev W12 : Dev nD → Valuation τ sig (Elt F) := fun c => StableHlo.after hostOps1_3 (W11 m ρ c)
abbrev V12 : (c : Dev nD) → (b : Ref sig .tc) → Buf (Elt F) ((c : Thread nD τ).loc b) := fun c b => W12 m ρ c b
/-- The update kernel's exit. -/
def W13 (c : Dev nD) : Valuation τ sig (Elt F) :=
  Pipeline.withArrays spec1 c (W12 m ρ c) fun w => (dat1 (V12 m ρ) c).arrAt w cfg1.N
/-- The end: the result cut to size. -/
abbrev W14 : Dev nD → Valuation τ sig (Elt F) := fun c => StableHlo.after hostOps2 (W13 m ρ c)

end Cert.KernelIdeal.Hand

end
-- ==== Proof.Reg0.lean ====
/-
  The message kernel's region, at any float instance: the body's triple on whole staging buffers, and the
  pipeline's body obligation at every grid point.

  The body loads its seven input blocks whole (two blocks of 2048 rows of 256 features, the 2048 norms, the
  256 by 256 message matrix, its bias row, the gate column and the gate bias), loads the output block (a value it
  never uses), and stores one value over the whole output block. So after the body the output block reads that
  value at every index, whatever it held before, and every input block is as it was.

  The four weight windows have a constant block index: the pipeline fetches them at the first point only. At a
  later point their staging buffer still holds the block fetched at the first, which is the block of that point
  too, since the index never moves; the three row windows are fetched at every point.
-/
import proofs.«164897_j31104153157801_1_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The one store covers the output block -/

/-- The body's single store is through the whole-block rectangle, so every index of the block lies in it. -/
theorem cover0_7 (p0 : Vec F S2048x256 .f32) (y : S2048x256.Idx) :
    ∃ pc ∈ ([⟨rA, p0⟩] : List (View.Piece (Elt F) S2048x256 .f32)), y ∈ pc.1.set :=
  View.cover_of_tiled [⟨rA, p0⟩] S2048x256.size (by rfl) y

/-! ## The body's triple -/

set_option maxHeartbeats 4000000 in
/-- The body on whole staging buffers, the seven inputs reading `x0 … x6` and the output holding anything, runs to
    a state where the inputs read what they did and the output reads the stored value at every index. -/
theorem sound_kernel0 (c : Dev nD) (E : Set ℕ) (i : grid0.Coords)
    (arg1 : Memref sig .tc .vmem S2048x256 .f32) (harg1 : arg1.IsWhole)
    (arg2 : Memref sig .tc .vmem S2048x256 .f32) (harg2 : arg2.IsWhole)
    (arg3 : Memref sig .tc .vmem S2048x1 .f32) (harg3 : arg3.IsWhole)
    (arg4 : Memref sig .tc .vmem S256x256 .bf16) (harg4 : arg4.IsWhole)
    (arg5 : Memref sig .tc .vmem S1x256 .f32) (harg5 : arg5.IsWhole)
    (arg6 : Memref sig .tc .vmem S256x1 .bf16) (harg6 : arg6.IsWhole)
    (arg7 : Memref sig .tc .vmem S1x1 .f32) (harg7 : arg7.IsWhole)
    (arg8 : Memref sig .tc .vmem S2048x256 .f32) (harg8 : arg8.IsWhole)
    (x0 : Vec F S2048x256 .f32) (x1 : Vec F S2048x256 .f32) (x2 : Vec F S2048x1 .f32) (x3 : Vec F S256x256 .bf16) (x4 : Vec F S1x256 .f32) (x5 : Vec F S256x1 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E (cc0__msg_kernel i arg1 harg1 arg2 harg2 arg3 harg3 arg4 harg4 arg5 harg5 arg6 harg6 arg7 harg7 arg8 harg8) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The proof data, field by field -/

/-- The proof data's arrays are the contents the region is entered with. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not: the body leaves the
    block in place, and where the pipeline does not fetch, the block index has not moved since the last fetch. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.Reg1.lean ====
/-
  The update kernel's region: the body's half of the frame, at any float instance.

  At the contents V the TensorCore's buffers hold when the region is entered: each input window's staging buffer
  holds that window's block at every grid point (the two row-blocked inputs are fetched at every point; the weight
  matrix and the bias row have a constant block index, are fetched once, and stay in place because the body leaves
  them as found); the body's triple on whole staging buffers (four loads of inputs, one load of the output buffer
  whose value is unused, one whole-block store of the payload); and the body obligation at a generic grid point.
-/
import proofs.«164897_j31104153157801_1_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The input windows' staging buffers hold their blocks -/

/-- An input window's current staging buffer holds its block at every point, fetched there or not: where it was not
    fetched the block index has not moved and the body left the block in place. Stated for any proof data whose
    array is the entry contents and whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The output window's store covers its buffer -/

/-- The one store is of the whole block, so it covers the buffer. -/
theorem cover1_4 (p0 : Vec F S2048x256 .f32) (y : S2048x256.Idx) :
    ∃ pc ∈ ([⟨rA, p0⟩] : List (View.Piece (Elt F) S2048x256 .f32)), y ∈ pc.1.set :=
  View.cover_of_tiled [⟨rA, p0⟩] S2048x256.size (by rfl) y

/-! ## The body's triple -/

set_option maxHeartbeats 1000000 in
/-- The body on whole staging buffers, the four inputs' at read contents x0..x3 and the output's at anything, runs to
    the continuation holding the inputs' as they were and the output's at the stored payload of the inputs. The
    body's load of the output buffer binds a value nothing reads. -/
theorem sound_kernel1 (c : Dev nD) (E : Set ℕ) (i : grid1.Coords)
    (arg1 : Memref sig .tc .vmem S2048x256 .f32) (harg1 : arg1.IsWhole) (arg2 : Memref sig .tc .vmem S2048x256 .f32) (harg2 : arg2.IsWhole)
    (arg3 : Memref sig .tc .vmem S256x256 .bf16) (harg3 : arg3.IsWhole) (arg4 : Memref sig .tc .vmem S1x256 .f32) (harg4 : arg4.IsWhole)
    (arg5 : Memref sig .tc .vmem S2048x256 .f32) (harg5 : arg5.IsWhole)
    (x0 : Vec F S2048x256 .f32) (x1 : Vec F S2048x256 .f32) (x2 : Vec F S256x256 .bf16) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__upd_kernel i arg1 harg1 arg2 harg2 arg3 harg3 arg4 harg4 arg5 harg5) K := by
  simp only [cc1__upd_kernel_eq_skeleton]; unfold cc1__upd_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data, projected -/

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t: the invariant, the core's debts, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.HostFacts.lean ====
/- What the host stretches of @main write, and what they therefore leave alone.

   @main is a chain of fourteen items: twelve stretches of host operations and, among them, the two kernel regions.
   Every host operation writes exactly one buffer, its result's, and allocates none; so a stretch changes only the
   references its operations' results name, and a value computed by an earlier item is still in place when a later
   item reads it as long as no stretch in between names it as a result. This module lists, per stretch, the
   references written, proves the list complete, and derives that every other reference keeps its contents. -/
import proofs.«164897_j31104153157801_1_alg».proof.Proof.Gen.KernelIdeal.Launch
import Idealize.ShloMosaic.Lib.Pipeline.Frame
import Idealize.ShloMosaic.Lib.Pipeline.Regions

noncomputable section

namespace Cert.KernelIdeal.Hand

open Idealize.ShloMosaic Idealize.ShloMosaic.TcCoe
open Cert.KernelIdeal Cert.KernelIdeal.Gen

variable {F : FTy → Type} [FloatOps F]

-- the longest stretch's list of 206 operations is walked one `::` at a time
set_option maxRecDepth 8000

/-- Operations that write, one by one, exactly the references of a list write only within that list. -/
theorem writes_sub_of_forall₂ {Val : EltTy → Type} {ops : List (HloOp τ sig Val)} {W : List (Ref sig .tc)}
    (h : List.Forall₂ (fun op r => op.writes = {Proc.devRef (τ := τ) .tc r}) ops W) :
    ops.Forall fun op => op.writes ⊆ (W.map (Proc.devRef (τ := τ) .tc)).toFinset := by
  rw [List.forall_iff_forall_mem]
  induction h with
  | nil => intro op hop; cases hop
  | @cons op r ops W hd _ ih =>
    intro o ho
    rcases List.mem_cons.mp ho with rfl | ho'
    · rw [hd, Finset.singleton_subset_iff, List.mem_toFinset]
      exact List.mem_map_of_mem List.mem_cons_self
    · refine (ih o ho').trans fun x hx => ?_
      rw [List.mem_toFinset] at hx ⊢
      rw [List.map_cons]
      exact List.mem_cons_of_mem _ hx

/-! ## What each host stretch writes -/

/-! ### `hostOps0`: the 206 operations up to the first padding call -/

set_option maxHeartbeats 40000000 in
/-- No operation of `hostOps0` allocates a buffer. -/
theorem hostOps0_fresh : (hostOps0 : List (HloOp τ sig (Elt F))).Forall fun op => op.fresh = ∅ := by
  simp only [List.Forall]; repeat' constructor
/-- The references `hostOps0`'s operations write, in the operations' order. -/
abbrev hostOps0_W : List (Ref sig .tc) := [
    main_c, main_c_0, main_c_1, main_c_2, main_c_3, main_v0, main_v1, main_v2, main_v3, main_v4,
    main_v5, main_v6, main_v7, main_cst, main_v8, main_v9, main_v10, main_v11, main_cst_4, main_v12,
    main_v13, main_v14, main_v15, main_cst_5, main_v16, main_v17, main_v18, main_v19, main_v20, main_v21,
    main_v22, main_v23, main_v24, main_cst_6, main_v25, main_v26, main_v27, main_v28, main_cst_7, main_v29,
    main_v30, main_v31, main_v32, main_v33, main_v34, main_v35, main_cst_8, main_v36, main_v37, main_v38,
    main_v39, main_v40, main_v41, main_cst_9, main_v42, main_v43, main_v44, main_v45, main_v46, main_v47,
    main_v48, main_v49, main_v50, main_v51, main_v52, main_v53, main_v54, main_v55, main_v56, main_v57,
    main_v58, main_v59, main_cst_10, main_v60, main_v61, main_v62, main_v63, main_cst_11, main_v64, main_v65,
    main_v66, main_v67, main_cst_12, main_v68, main_v69, main_v70, main_v71, main_v72, main_v73, main_v74,
    main_v75, main_v76, main_cst_13, main_v77, main_v78, main_v79, main_v80, main_cst_14, main_v81, main_v82,
    main_v83, main_v84, main_v85, main_v86, main_v87, main_cst_15, main_v88, main_v89, main_v90, main_v91,
    main_v92, main_v93, main_cst_16, main_v94, main_v95, main_v96, main_v97, main_v98, main_v99, main_v100,
    main_v101, main_v102, main_v103, main_v104, main_v105, main_v106, main_v107, main_c_17, main_v108, main_v109,
    main_v110, main_v111, main_v112, main_c_18, main_v113, main_v114, main_v115, main_v116, main_v117, main_c_19,
    main_v118, main_v119, main_v120, main_v121, main_v122, main_v123, main_v124, main_v125, main_v126, main_v127,
    main_v128, main_v129, main_v130, main_v131, main_cst_20, main_v132, main_cst_21, main_v133, main_v134, main_v135,
    main_cst_22, main_v136, main_v137, main_v138, main_c_23, main_v139, main_v140, main_c_24, main_v141, main_v142,
    main_v143, main_v144, main_v145, main_c_25, main_v146, main_v147, main_c_26, main_v148, main_v149, main_v150,
    main_v151, main_v152, main_v153, main_cst_27, main_v154, main_v155, main_v156, main_c_28, main_v157, main_v158,
    main_c_29, main_v159, main_v160, main_v161, main_v162, main_v163, main_c_30, main_v164, main_v165, main_c_31,
    main_v166, main_v167, main_v168, main_v169, main_v170, main_c_32 ]
set_option maxHeartbeats 40000000 in
/-- Operation by operation, `hostOps0` writes exactly the listed references. -/
theorem hostOps0_writes : (hostOps0 : List (HloOp τ sig (Elt F))).Forall fun op => op.writes ⊆ (hostOps0_W.map (Proc.devRef (τ := τ) .tc)).toFinset := by
  apply writes_sub_of_forall₂
  repeat' constructor
/-- A reference `hostOps0` does not write holds after it what it held before. -/
theorem hostOps0_keeps (W : Valuation τ sig (Elt F)) (r : Ref sig .tc) (h : r ∉ hostOps0_W) :
    StableHlo.after hostOps0 W (Proc.devRef .tc r) = W (Proc.devRef .tc r) :=
  StableHlo.after_of_writes_sub hostOps0 W hostOps0_writes h

/-! ### `hostOps0_1`: the first padding call, `main_v163` padded to `main_v171` -/

/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write, in the operations' order. -/
abbrev hostOps0_1_W : List (Ref sig .tc) := [main_call0_v0, main_v171]
/-- Operation by operation, `hostOps0_1` writes exactly the listed references. -/
theorem hostOps0_1_writes : (hostOps0_1 : List (HloOp τ sig (Elt F))).Forall fun op => op.writes ⊆ (hostOps0_1_W.map (Proc.devRef (τ := τ) .tc)).toFinset := by
  apply writes_sub_of_forall₂
  repeat' constructor
/-- A reference `hostOps0_1` does not write holds after it what it held before. -/
theorem hostOps0_1_keeps (W : Valuation τ sig (Elt F)) (r : Ref sig .tc) (h : r ∉ hostOps0_1_W) :
    StableHlo.after hostOps0_1 W (Proc.devRef .tc r) = W (Proc.devRef .tc r) :=
  StableHlo.after_of_writes_sub hostOps0_1 W hostOps0_1_writes h

/-! ### `hostOps0_2`: the constant `main_c_33` -/

/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write, in the operations' order. -/
abbrev hostOps0_2_W : List (Ref sig .tc) := [main_c_33]
/-- Operation by operation, `hostOps0_2` writes exactly the listed references. -/
theorem hostOps0_2_writes : (hostOps0_2 : List (HloOp τ sig (Elt F))).Forall fun op => op.writes ⊆ (hostOps0_2_W.map (Proc.devRef (τ := τ) .tc)).toFinset := by
  apply writes_sub_of_forall₂
  repeat' constructor
/-- A reference `hostOps0_2` does not write holds after it what it held before. -/
theorem hostOps0_2_keeps (W : Valuation τ sig (Elt F)) (r : Ref sig .tc) (h : r ∉ hostOps0_2_W) :
    StableHlo.after hostOps0_2 W (Proc.devRef .tc r) = W (Proc.devRef .tc r) :=
  StableHlo.after_of_writes_sub hostOps0_2 W hostOps0_2_writes h

/-! ### `hostOps0_3`: the second padding call, `main_v170` padded to `main_v172` -/

/-- No operation of `hostOps0_3` allocates a buffer. -/
theorem hostOps0_3_fresh : (hostOps0_3 : List (HloOp τ sig (Elt F))).Forall fun op => op.fresh = ∅ := by
  simp only [List.Forall]; repeat' constructor
/-- The references `hostOps0_3`'s operations write, in the operations' order. -/
abbrev hostOps0_3_W : List (Ref sig .tc) := [main_call1_v0, main_v172]
/-- Operation by operation, `hostOps0_3` writes exactly the listed references. -/
theorem hostOps0_3_writes : (hostOps0_3 : List (HloOp τ sig (Elt F))).Forall fun op => op.writes ⊆ (hostOps0_3_W.map (Proc.devRef (τ := τ) .tc)).toFinset := by
  apply writes_sub_of_forall₂
  repeat' constructor
/-- A reference `hostOps0_3` does not write holds after it what it held before. -/
theorem hostOps0_3_keeps (W : Valuation τ sig (Elt F)) (r : Ref sig .tc) (h : r ∉ hostOps0_3_W) :
    StableHlo.after hostOps0_3 W (Proc.devRef .tc r) = W (Proc.devRef .tc r) :=
  StableHlo.after_of_writes_sub hostOps0_3 W hostOps0_3_writes h

/-! ### `hostOps0_4`: the constant `main_c_34` -/

/-- No operation of `hostOps0_4` allocates a buffer. -/
theorem hostOps0_4_fresh : (hostOps0_4 : List (HloOp τ sig (Elt F))).Forall fun op => op.fresh = ∅ := by
  simp only [List.Forall]; repeat' constructor
/-- The references `hostOps0_4`'s operations write, in the operations' order. -/
abbrev hostOps0_4_W : List (Ref sig .tc) := [main_c_34]
/-- Operation by operation, `hostOps0_4` writes exactly the listed references. -/
theorem hostOps0_4_writes : (hostOps0_4 : List (HloOp τ sig (Elt F))).Forall fun op => op.writes ⊆ (hostOps0_4_W.map (Proc.devRef (τ := τ) .tc)).toFinset := by
  apply writes_sub_of_forall₂
  repeat' constructor
/-- A reference `hostOps0_4` does not write holds after it what it held before. -/
theorem hostOps0_4_keeps (W : Valuation τ sig (Elt F)) (r : Ref sig .tc) (h : r ∉ hostOps0_4_W) :
    StableHlo.after hostOps0_4 W (Proc.devRef .tc r) = W (Proc.devRef .tc r) :=
  StableHlo.after_of_writes_sub hostOps0_4 W hostOps0_4_writes h

/-! ### `hostOps0_5`: the third padding call, `main_v156` padded to `main_v173` -/

/-- No operation of `hostOps0_5` allocates a buffer. -/
theorem hostOps0_5_fresh : (hostOps0_5 : List (HloOp τ sig (Elt F))).Forall fun op => op.fresh = ∅ := by
  simp only [List.Forall]; repeat' constructor
/-- The references `hostOps0_5`'s operations write, in the operations' order. -/
abbrev hostOps0_5_W : List (Ref sig .tc) := [main_call2_v0, main_v173]
/-- Operation by operation, `hostOps0_5` writes exactly the listed references. -/
theorem hostOps0_5_writes : (hostOps0_5 : List (HloOp τ sig (Elt F))).Forall fun op => op.writes ⊆ (hostOps0_5_W.map (Proc.devRef (τ := τ) .tc)).toFinset := by
  apply writes_sub_of_forall₂
  repeat' constructor
/-- A reference `hostOps0_5` does not write holds after it what it held before. -/
theorem hostOps0_5_keeps (W : Valuation τ sig (Elt F)) (r : Ref sig .tc) (h : r ∉ hostOps0_5_W) :
    StableHlo.after hostOps0_5 W (Proc.devRef .tc r) = W (Proc.devRef .tc r) :=
  StableHlo.after_of_writes_sub hostOps0_5 W hostOps0_5_writes h

/-! ### `hostOps0_6`: the reshape of `main_v173` into the column `main_v174` -/

/-- No operation of `hostOps0_6` allocates a buffer. -/
theorem hostOps0_6_fresh : (hostOps0_6 : List (HloOp τ sig (Elt F))).Forall fun op => op.fresh = ∅ := by
  simp only [List.Forall]; repeat' constructor
/-- The references `hostOps0_6`'s operations write, in the operations' order. -/
abbrev hostOps0_6_W : List (Ref sig .tc) := [main_v174]
/-- Operation by operation, `hostOps0_6` writes exactly the listed references. -/
theorem hostOps0_6_writes : (hostOps0_6 : List (HloOp τ sig (Elt F))).Forall fun op => op.writes ⊆ (hostOps0_6_W.map (Proc.devRef (τ := τ) .tc)).toFinset := by
  apply writes_sub_of_forall₂
  repeat' constructor
/-- A reference `hostOps0_6` does not write holds after it what it held before. -/
theorem hostOps0_6_keeps (W : Valuation τ sig (Elt F)) (r : Ref sig .tc) (h : r ∉ hostOps0_6_W) :
    StableHlo.after hostOps0_6 W (Proc.devRef .tc r) = W (Proc.devRef .tc r) :=
  StableHlo.after_of_writes_sub hostOps0_6 W hostOps0_6_writes h

/-! ### `hostOps1`: the slice `main_v176` of the first region's output `main_v175`, its scatter-add `main_v179` onto a zero array, the constant `main_c_36` -/

/-- No operation of `hostOps1` allocates a buffer. -/
theorem hostOps1_fresh : (hostOps1 : List (HloOp τ sig (Elt F))).Forall fun op => op.fresh = ∅ := by
  simp only [List.Forall]; repeat' constructor
/-- The references `hostOps1`'s operations write, in the operations' order. -/
abbrev hostOps1_W : List (Ref sig .tc) := [main_v176, main_cst_35, main_v177, main_v178, main_v179, main_c_36]
/-- Operation by operation, `hostOps1` writes exactly the listed references. -/
theorem hostOps1_writes : (hostOps1 : List (HloOp τ sig (Elt F))).Forall fun op => op.writes ⊆ (hostOps1_W.map (Proc.devRef (τ := τ) .tc)).toFinset := by
  apply writes_sub_of_forall₂
  repeat' constructor
/-- A reference `hostOps1` does not write holds after it what it held before. -/
theorem hostOps1_keeps (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

/-! ### `hostOps1_1`: the fourth padding call, `main_arg0` padded to `main_v180` -/

/-- No operation of `hostOps1_1` allocates a buffer. -/
theorem hostOps1_1_fresh : (hostOps1_1 : List (HloOp τ sig (Elt F))).Forall fun op => op.fresh = ∅ := by
  simp only [List.Forall]; repeat' constructor
/-- The references `hostOps1_1`'s operations write, in the operations' order. -/
abbrev hostOps1_1_W : List (Ref sig .tc) := [main_call3_v0, main_v180]
/-- Operation by operation, `hostOps1_1` writes exactly the listed references. -/
theorem hostOps1_1_writes : (hostOps1_1 : List (HloOp τ sig (Elt F))).Forall fun op => op.writes ⊆ (hostOps1_1_W.map (Proc.devRef (τ := τ) .tc)).toFinset := by
  apply writes_sub_of_forall₂
  repeat' constructor
/-- A reference `hostOps1_1` does not write holds after it what it held before. -/
theorem hostOps1_1_keeps (W : Valuation τ sig (Elt F)) (r : Ref sig .tc) (h : r ∉ hostOps1_1_W) :
    StableHlo.after hostOps1_1 W (Proc.devRef .tc r) = W (Proc.devRef .tc r) :=
  StableHlo.after_of_writes_sub hostOps1_1 W hostOps1_1_writes h

/-! ### `hostOps1_2`: the constant `main_c_37` -/

/-- No operation of `hostOps1_2` allocates a buffer. -/
theorem hostOps1_2_fresh : (hostOps1_2 : List (HloOp τ sig (Elt F))).Forall fun op => op.fresh = ∅ := by
  simp only [List.Forall]; repeat' constructor
/-- The references `hostOps1_2`'s operations write, in the operations' order. -/
abbrev hostOps1_2_W : List (Ref sig .tc) := [main_c_37]
/-- Operation by operation, `hostOps1_2` writes exactly the listed references. -/
theorem hostOps1_2_writes : (hostOps1_2 : List (HloOp τ sig (Elt F))).Forall fun op => op.writes ⊆ (hostOps1_2_W.map (Proc.devRef (τ := τ) .tc)).toFinset := by
  apply writes_sub_of_forall₂
  repeat' constructor
/-- A reference `hostOps1_2` does not write holds after it what it held before. -/
theorem hostOps1_2_keeps (W : Valuation τ sig (Elt F)) (r : Ref sig .tc) (h : r ∉ hostOps1_2_W) :
    StableHlo.after hostOps1_2 W (Proc.devRef .tc r) = W (Proc.devRef .tc r) :=
  StableHlo.after_of_writes_sub hostOps1_2 W hostOps1_2_writes h

/-! ### `hostOps1_3`: the fifth padding call, `main_v179` padded to `main_v181` -/

/-- No operation of `hostOps1_3` allocates a buffer. -/
theorem hostOps1_3_fresh : (hostOps1_3 : List (HloOp τ sig (Elt F))).Forall fun op => op.fresh = ∅ := by
  simp only [List.Forall]; repeat' constructor
/-- The references `hostOps1_3`'s operations write, in the operations' order. -/
abbrev hostOps1_3_W : List (Ref sig .tc) := [main_call4_v0, main_v181]
/-- Operation by operation, `hostOps1_3` writes exactly the listed references. -/
theorem hostOps1_3_writes : (hostOps1_3 : List (HloOp τ sig (Elt F))).Forall fun op => op.writes ⊆ (hostOps1_3_W.map (Proc.devRef (τ := τ) .tc)).toFinset := by
  apply writes_sub_of_forall₂
  repeat' constructor
/-- A reference `hostOps1_3` does not write holds after it what it held before. -/
theorem hostOps1_3_keeps (W : Valuation τ sig (Elt F)) (r : Ref sig .tc) (h : r ∉ hostOps1_3_W) :
    StableHlo.after hostOps1_3 W (Proc.devRef .tc r) = W (Proc.devRef .tc r) :=
  StableHlo.after_of_writes_sub hostOps1_3 W hostOps1_3_writes h

/-! ### `hostOps2`: the slice `main_v183` of the second region's output `main_v182` -/

/-- No operation of `hostOps2` allocates a buffer. -/
theorem hostOps2_fresh : (hostOps2 : List (HloOp τ sig (Elt F))).Forall fun op => op.fresh = ∅ := by
  simp only [List.Forall]; repeat' constructor
/-- The references `hostOps2`'s operations write, in the operations' order. -/
abbrev hostOps2_W : List (Ref sig .tc) := [main_v183]
/-- Operation by operation, `hostOps2` writes exactly the listed references. -/
theorem hostOps2_writes : (hostOps2 : List (HloOp τ sig (Elt F))).Forall fun op => op.writes ⊆ (hostOps2_W.map (Proc.devRef (τ := τ) .tc)).toFinset := by
  apply writes_sub_of_forall₂
  repeat' constructor
/-- A reference `hostOps2` does not write holds after it what it held before. -/
theorem hostOps2_keeps (W : Valuation τ sig (Elt F)) (r : Ref sig .tc) (h : r ∉ hostOps2_W) :
    StableHlo.after hostOps2 W (Proc.devRef .tc r) = W (Proc.devRef .tc r) :=
  StableHlo.after_of_writes_sub hostOps2 W hostOps2_writes h

/-! ## What each host stretch leaves alone

The arguments are never a result. Of the values computed along the way, those still awaited by a later item when a
stretch runs: the operands of the regions that `hostOps0` computes (`main_v124`, `main_v127`, `main_v130`,
`main_v131` for the first region, `main_v126`, `main_v128` for the second), the operands of the second and third
padding calls (`main_v170`, `main_v156`), the padded operands of the first region (`main_v171`, `main_v172`), the
scatter-add's indices (`main_v3`), and what the last padding call and the second region await (`main_v179`,
`main_v180`). -/

/-- `hostOps0` writes none of the program's arguments. -/
theorem hostOps0_args : ∀ r ∈ ([main_arg0, main_arg1, main_arg2, main_arg3, main_arg4, main_arg5, main_arg6, main_arg7, main_arg8, main_arg9] : List (Ref sig .tc)), r ∉ hostOps0_W := by decide

/-- `hostOps0_1` writes none of the program's arguments. -/
theorem hostOps0_1_args : ∀ r ∈ ([main_arg0, main_arg1, main_arg2, main_arg3, main_arg4, main_arg5, main_arg6, main_arg7, main_arg8, main_arg9] : List (Ref sig .tc)), r ∉ hostOps0_1_W := by decide
/-- `hostOps0_1` writes none of the values computed before it that a later item still reads. -/
theorem hostOps0_1_live : ∀ r ∈ ([main_v124, main_v127, main_v130, main_v131, main_v126, main_v128, main_v170, main_v156, main_v3] : List (Ref sig .tc)), r ∉ hostOps0_1_W := by decide

/-- `hostOps0_2` writes none of the program's arguments. -/
theorem hostOps0_2_args : ∀ r ∈ ([main_arg0, main_arg1, main_arg2, main_arg3, main_arg4, main_arg5, main_arg6, main_arg7, main_arg8, main_arg9] : List (Ref sig .tc)), r ∉ hostOps0_2_W := by decide
/-- `hostOps0_2` writes none of the values computed before it that a later item still reads. -/
theorem hostOps0_2_live : ∀ r ∈ ([main_v171, main_v124, main_v127, main_v130, main_v131, main_v126, main_v128, main_v170, main_v156, main_v3] : List (Ref sig .tc)), r ∉ hostOps0_2_W := by decide

/-- `hostOps0_3` writes none of the program's arguments. -/
theorem hostOps0_3_args : ∀ r ∈ ([main_arg0, main_arg1, main_arg2, main_arg3, main_arg4, main_arg5, main_arg6, main_arg7, main_arg8, main_arg9] : List (Ref sig .tc)), r ∉ hostOps0_3_W := by decide
/-- `hostOps0_3` writes none of the values computed before it that a later item still reads. -/
theorem hostOps0_3_live : ∀ r ∈ ([main_v171, main_v124, main_v127, main_v130, main_v131, main_v126, main_v128, main_v156, main_v3] : List (Ref sig .tc)), r ∉ hostOps0_3_W := by decide

/-- `hostOps0_4` writes none of the program's arguments. -/
theorem hostOps0_4_args : ∀ r ∈ ([main_arg0, main_arg1, main_arg2, main_arg3, main_arg4, main_arg5, main_arg6, main_arg7, main_arg8, main_arg9] : List (Ref sig .tc)), r ∉ hostOps0_4_W := by decide
/-- `hostOps0_4` writes none of the values computed before it that a later item still reads. -/
theorem hostOps0_4_live : ∀ r ∈ ([main_v171, main_v172, main_v124, main_v127, main_v130, main_v131, main_v126, main_v128, main_v156, main_v3] : List (Ref sig .tc)), r ∉ hostOps0_4_W := by decide

/-- `hostOps0_5` writes none of the program's arguments. -/
theorem hostOps0_5_args : ∀ r ∈ ([main_arg0, main_arg1, main_arg2, main_arg3, main_arg4, main_arg5, main_arg6, main_arg7, main_arg8, main_arg9] : List (Ref sig .tc)), r ∉ hostOps0_5_W := by decide
/-- `hostOps0_5` writes none of the values computed before it that a later item still reads. -/
theorem hostOps0_5_live : ∀ r ∈ ([main_v171, main_v172, main_v124, main_v127, main_v130, main_v131, main_v126, main_v128, main_v3] : List (Ref sig .tc)), r ∉ hostOps0_5_W := by decide

/-- `hostOps0_6` writes none of the program's arguments. -/
theorem hostOps0_6_args : ∀ r ∈ ([main_arg0, main_arg1, main_arg2, main_arg3, main_arg4, main_arg5, main_arg6, main_arg7, main_arg8, main_arg9] : List (Ref sig .tc)), r ∉ hostOps0_6_W := by decide
/-- `hostOps0_6` writes none of the values computed before it that a later item still reads. -/
theorem hostOps0_6_live : ∀ r ∈ ([main_v171, main_v172, main_v124, main_v127, main_v130, main_v131, main_v126, main_v128, main_v3] : List (Ref sig .tc)), r ∉ hostOps0_6_W := by decide

/-- `hostOps1` writes none of the program's arguments. -/
theorem hostOps1_args : ∀ r ∈ ([main_arg0, main_arg1, main_arg2, main_arg3, main_arg4, main_arg5, main_arg6, main_arg7, main_arg8, main_arg9] : List (Ref sig .tc)), r ∉ hostOps1_W := by decide
/-- `hostOps1` writes none of the values computed before it that a later item still reads. -/
theorem hostOps1_live : ∀ r ∈ ([main_v126, main_v128] : List (Ref sig .tc)), r ∉ hostOps1_W := by decide

/-- `hostOps1_1` writes none of the program's arguments. -/
theorem hostOps1_1_args : ∀ r ∈ ([main_arg0, main_arg1, main_arg2, main_arg3, main_arg4, main_arg5, main_arg6, main_arg7, main_arg8, main_arg9] : List (Ref sig .tc)), r ∉ hostOps1_1_W := by decide
/-- `hostOps1_1` writes none of the values computed before it that a later item still reads. -/
theorem hostOps1_1_live : ∀ r ∈ ([main_v126, main_v128, main_v179] : List (Ref sig .tc)), r ∉ hostOps1_1_W := by decide

/-- `hostOps1_2` writes none of the program's arguments. -/
theorem hostOps1_2_args : ∀ r ∈ ([main_arg0, main_arg1, main_arg2, main_arg3, main_arg4, main_arg5, main_arg6, main_arg7, main_arg8, main_arg9] : List (Ref sig .tc)), r ∉ hostOps1_2_W := by decide
/-- `hostOps1_2` writes none of the values computed before it that a later item still reads. -/
theorem hostOps1_2_live : ∀ r ∈ ([main_v126, main_v128, main_v179, main_v180] : List (Ref sig .tc)), r ∉ hostOps1_2_W := by decide

/-- `hostOps1_3` writes none of the program's arguments. -/
theorem hostOps1_3_args : ∀ r ∈ ([main_arg0, main_arg1, main_arg2, main_arg3, main_arg4, main_arg5, main_arg6, main_arg7, main_arg8, main_arg9] : List (Ref sig .tc)), r ∉ hostOps1_3_W := by decide
/-- `hostOps1_3` writes none of the values computed before it that a later item still reads. -/
theorem hostOps1_3_live : ∀ r ∈ ([main_v126, main_v128, main_v180] : List (Ref sig .tc)), r ∉ hostOps1_3_W := by decide

/-- `hostOps2` writes none of the program's arguments. -/
theorem hostOps2_args : ∀ r ∈ ([main_arg0, main_arg1, main_arg2, main_arg3, main_arg4, main_arg5, main_arg6, main_arg7, main_arg8, main_arg9] : List (Ref sig .tc)), r ∉ hostOps2_W := by decide

end Cert.KernelIdeal.Hand

end
-- ==== Proof.Run.lean ====
/-
  The kernel program's run, at any float instance: @main's fourteen items — twelve stretches of host operations and
  the two pallas_calls — composed from the launch to the return. Between two items a core holds every unscoped buffer
  at that boundary's contents (the launch memory folded through the items so far), beside the generator register and
  nothing owed. A region takes its windows' arrays out of the unscoped buffers, runs its pipeline, and puts them back at
  what the write-backs leave; a host stretch maps the contents through its operations. At the end every unscoped buffer
  is read back at the last boundary's contents: the arguments are among them, unchanged, and so is the result.
-/
import proofs.«164897_j31104153157801_1_alg».proof.Proof.Data
import proofs.«164897_j31104153157801_1_alg».proof.Proof.Reg0
import proofs.«164897_j31104153157801_1_alg».proof.Proof.Reg1
import proofs.«164897_j31104153157801_1_alg».proof.Proof.HostFacts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit contents -/

theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

theorem W13_arr (c : Dev nD) (w : Fin cfg1.W) :
    W13 m ρ c (Proc.devRef .tc (Pipeline.arrRef spec1 w)) = (dat1 (V12 m ρ) c).arrAt w cfg1.N := by
  unfold W13; exact Pipeline.withArrays_arr spec1 launch1.win.arr_inj c _ _ w
theorem W13_of_ne (c : Dev nD) (b : Ref sig .tc) (hb : ∀ w, Pipeline.arrRef spec1 w ≠ b) :
    W13 m ρ c (Proc.devRef .tc b) = W12 m ρ c (Proc.devRef .tc b) := by
  unfold W13; exact Pipeline.withArrays_of_ne spec1 c _ _ b hb
abbrev V13 : (c : Dev nD) → (b : Ref sig .tc) → Buf (Elt F) ((c : Thread nD τ).loc b) := fun c b => W13 m ρ c b
theorem hF1 (c : Dev nD) (w : Fin cfg1.W) : (dat1 (V12 m ρ) c).arrAt w cfg1.N = V13 m ρ c (Pipeline.arrRef spec1 w) :=
  (W13_arr m ρ c w).symm
theorem hrest1 (c : Dev nD) : ∀ b, b ∉ Finset.univ.image (Pipeline.arrRef spec1) → V13 m ρ c b = V12 m ρ c b :=
  fun b hb => W13_of_ne m ρ c b fun w e => hb (Finset.mem_image.mpr ⟨w, Finset.mem_univ _, e⟩)

/-! ## The proof data family and what rides beside the buffers -/

abbrev adm : (p : Fin 2) → (pcfgs (F := F) p).Adm := fun p => (cfgs p).toPCfg_adm
/-- Each pipeline's proof data at its own region's entry contents. -/
def pdats : (p : Fin 2) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V12 m ρ) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W14 m ρ c) ∗ ∃ r, prngReg c r)

/-! ## The two pallas_calls as segments -/

set_option backward.isDefEq.respectTransparency.types false in
/-- Pallas_call 0 as a segment: entered with every unscoped buffer at the contents before it, left with its windows'
    arrays at what the pipeline's write-backs leave and every other buffer untouched. The generator register goes into
    the pipeline's invariant and comes back; the kernel has no semaphore of its own and owes nothing. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at the contents before it, left with its windows'
    arrays at what the pipeline's write-backs leave and every other buffer untouched. The generator register goes into
    the pipeline's invariant and comes back; the kernel has no semaphore of its own and owes nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V12 m ρ) c).loose
  hwaits := Pipeline.hwaits_of_owed_zero _ _ _ _ L lv 1 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec1 c (V12 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V12 m ρ c) (V13 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .host (hseg hostOps1_3 hostOps1_3_sub hostOps1_3_fresh (W11 m ρ)),
    .region (reg1 m ρ),
    .host (hseg hostOps2 hostOps2_sub hostOps2_fresh (W13 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in the final memory every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W14 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.KernelIdeal.Hand

end
-- ==== Proof.Transport.lean ====
/- The transport of each value along @main's boundaries, from where it is produced to where it is read.

   The contents at a boundary are the previous boundary's folded through one item. A host stretch leaves every
   reference it does not write as it was; a region leaves every reference that is none of its windows' arrays as it
   was, and its arrays at what the write-backs leave. So a value written by one item and read some items later is, at
   the reader, what the writer left, provided no item in between writes it: one step per item, chained. -/
import proofs.«164897_j31104153157801_1_alg».proof.Proof.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

/-! ## One step: what an item leaves as it was -/

/-- A reference `hostOps0` does not write is at boundary 1 what it was at boundary 0. -/
theorem W1_of (c : Dev nD) (r : Ref sig .tc) (h : r ∉ hostOps0_W) :
    W1 m ρ c (Proc.devRef .tc r) = W0 m ρ c (Proc.devRef .tc r) :=
  hostOps0_keeps (W0 m ρ c) r h

/-- A reference `hostOps0_1` does not write is at boundary 2 what it was at boundary 1. -/
theorem W2_of (c : Dev nD) (r : Ref sig .tc) (h : r ∉ hostOps0_1_W) :
    W2 m ρ c (Proc.devRef .tc r) = W1 m ρ c (Proc.devRef .tc r) :=
  hostOps0_1_keeps (W1 m ρ c) r h

/-- A reference `hostOps0_2` does not write is at boundary 3 what it was at boundary 2. -/
theorem W3_of (c : Dev nD) (r : Ref sig .tc) (h : r ∉ hostOps0_2_W) :
    W3 m ρ c (Proc.devRef .tc r) = W2 m ρ c (Proc.devRef .tc r) :=
  hostOps0_2_keeps (W2 m ρ c) r h

/-- A reference `hostOps0_3` does not write is at boundary 4 what it was at boundary 3. -/
theorem W4_of (c : Dev nD) (r : Ref sig .tc) (h : r ∉ hostOps0_3_W) :
    W4 m ρ c (Proc.devRef .tc r) = W3 m ρ c (Proc.devRef .tc r) :=
  hostOps0_3_keeps (W3 m ρ c) r h

/-- A reference `hostOps0_4` does not write is at boundary 5 what it was at boundary 4. -/
theorem W5_of (c : Dev nD) (r : Ref sig .tc) (h : r ∉ hostOps0_4_W) :
    W5 m ρ c (Proc.devRef .tc r) = W4 m ρ c (Proc.devRef .tc r) :=
  hostOps0_4_keeps (W4 m ρ c) r h

/-- A reference `hostOps0_5` does not write is at boundary 6 what it was at boundary 5. -/
theorem W6_of (c : Dev nD) (r : Ref sig .tc) (h : r ∉ hostOps0_5_W) :
    W6 m ρ c (Proc.devRef .tc r) = W5 m ρ c (Proc.devRef .tc r) :=
  hostOps0_5_keeps (W5 m ρ c) r h

/-- A reference `hostOps0_6` does not write is at boundary 7 what it was at boundary 6. -/
theorem W7_of (c : Dev nD) (r : Ref sig .tc) (h : r ∉ hostOps0_6_W) :
    W7 m ρ c (Proc.devRef .tc r) = W6 m ρ c (Proc.devRef .tc r) :=
  hostOps0_6_keeps (W6 m ρ c) r h

/-- A reference `hostOps1` does not write is at boundary 9 what it was at boundary 8. -/
theorem W9_of (c : Dev nD) (r : Ref sig .tc) (h : r ∉ hostOps1_W) :
    W9 m ρ c (Proc.devRef .tc r) = W8 m ρ c (Proc.devRef .tc r) :=
  hostOps1_keeps (W8 m ρ c) r h

/-- A reference `hostOps1_1` does not write is at boundary 10 what it was at boundary 9. -/
theorem W10_of (c : Dev nD) (r : Ref sig .tc) (h : r ∉ hostOps1_1_W) :
    W10 m ρ c (Proc.devRef .tc r) = W9 m ρ c (Proc.devRef .tc r) :=
  hostOps1_1_keeps (W9 m ρ c) r h

/-- A reference `hostOps1_2` does not write is at boundary 11 what it was at boundary 10. -/
theorem W11_of (c : Dev nD) (r : Ref sig .tc) (h : r ∉ hostOps1_2_W) :
    W11 m ρ c (Proc.devRef .tc r) = W10 m ρ c (Proc.devRef .tc r) :=
  hostOps1_2_keeps (W10 m ρ c) r h

/-- A reference `hostOps1_3` does not write is at boundary 12 what it was at boundary 11. -/
theorem W12_of (c : Dev nD) (r : Ref sig .tc) (h : r ∉ hostOps1_3_W) :
    W12 m ρ c (Proc.devRef .tc r) = W11 m ρ c (Proc.devRef .tc r) :=
  hostOps1_3_keeps (W11 m ρ c) r h

/-- A reference `hostOps2` does not write is at boundary 14 what it was at boundary 13. -/
theorem W14_of (c : Dev nD) (r : Ref sig .tc) (h : r ∉ hostOps2_W) :
    W14 m ρ c (Proc.devRef .tc r) = W13 m ρ c (Proc.devRef .tc r) :=
  hostOps2_keeps (W13 m ρ c) r h

/-- The arrays of the first region's windows. -/
abbrev arrs0 : List (Ref sig .tc) := [main_v171, main_v172, main_v174, main_v124, main_v127, main_v130, main_v131, main_v175]
/-- The arrays of the second region's windows. -/
abbrev arrs1 : List (Ref sig .tc) := [main_v180, main_v181, main_v126, main_v128, main_v182]
/-- Every window of the first region has its array in the list. -/
theorem arrRef0_mem : ∀ w : Fin cfg0.W, Pipeline.arrRef spec0 w ∈ arrs0 := by decide
/-- Every window of the second region has its array in the list. -/
theorem arrRef1_mem : ∀ w : Fin cfg1.W, Pipeline.arrRef spec1 w ∈ arrs1 := by decide

/-- A reference that is no array of the first region's windows is at its exit what it was at its entry. -/
theorem W8_of (c : Dev nD) (r : Ref sig .tc) (h : r ∉ arrs0) :
    W8 m ρ c (Proc.devRef .tc r) = W7 m ρ c (Proc.devRef .tc r) :=
  W8_of_ne m ρ c r fun w e => h (e ▸ arrRef0_mem w)
/-- A reference that is no array of the second region's windows is at its exit what it was at its entry. -/
theorem W13_of (c : Dev nD) (r : Ref sig .tc) (h : r ∉ arrs1) :
    W13 m ρ c (Proc.devRef .tc r) = W12 m ρ c (Proc.devRef .tc r) :=
  W13_of_ne m ρ c r fun w e => h (e ▸ arrRef1_mem w)

/-! ## The arguments: as launched at every boundary -/

/-- The program's ten arguments. -/
abbrev argList : List (Ref sig .tc) := [main_arg0, main_arg1, main_arg2, main_arg3, main_arg4, main_arg5, main_arg6, main_arg7, main_arg8, main_arg9]
/-- No argument is among the first region's arrays, -/
theorem arrs0_args : ∀ r ∈ (argList : List (Ref sig .tc)), r ∉ arrs0 := by decide
/-- nor among the second's. -/
theorem arrs1_args : ∀ r ∈ (argList : List (Ref sig .tc)), r ∉ arrs1 := by decide

/-- At launch an argument holds the launch memory's contents. -/
theorem W0_arg (c : Dev nD) (r : Ref sig .tc) (hr : r ∈ argList) :
    W0 m ρ c (Proc.devRef .tc r) = m ((c : Thread nD τ).loc r) := rfl
theorem W1_arg (c : Dev nD) (r : Ref sig .tc) (hr : r ∈ argList) :
    W1 m ρ c (Proc.devRef .tc r) = m ((c : Thread nD τ).loc r) :=
  (W1_of m ρ c r (hostOps0_args r hr)).trans (W0_arg m ρ c r hr)
theorem W2_arg (c : Dev nD) (r : Ref sig .tc) (hr : r ∈ argList) :
    W2 m ρ c (Proc.devRef .tc r) = m ((c : Thread nD τ).loc r) :=
  (W2_of m ρ c r (hostOps0_1_args r hr)).trans (W1_arg m ρ c r hr)
theorem W3_arg (c : Dev nD) (r : Ref sig .tc) (hr : r ∈ argList) :
    W3 m ρ c (Proc.devRef .tc r) = m ((c : Thread nD τ).loc r) :=
  (W3_of m ρ c r (hostOps0_2_args r hr)).trans (W2_arg m ρ c r hr)
theorem W4_arg (c : Dev nD) (r : Ref sig .tc) (hr : r ∈ argList) :
    W4 m ρ c (Proc.devRef .tc r) = m ((c : Thread nD τ).loc r) :=
  (W4_of m ρ c r (hostOps0_3_args r hr)).trans (W3_arg m ρ c r hr)
theorem W5_arg (c : Dev nD) (r : Ref sig .tc) (hr : r ∈ argList) :
    W5 m ρ c (Proc.devRef .tc r) = m ((c : Thread nD τ).loc r) :=
  (W5_of m ρ c r (hostOps0_4_args r hr)).trans (W4_arg m ρ c r hr)
theorem W6_arg (c : Dev nD) (r : Ref sig .tc) (hr : r ∈ argList) :
    W6 m ρ c (Proc.devRef .tc r) = m ((c : Thread nD τ).loc r) :=
  (W6_of m ρ c r (hostOps0_5_args r hr)).trans (W5_arg m ρ c r hr)
theorem W7_arg (c : Dev nD) (r : Ref sig .tc) (hr : r ∈ argList) :
    W7 m ρ c (Proc.devRef .tc r) = m ((c : Thread nD τ).loc r) :=
  (W7_of m ρ c r (hostOps0_6_args r hr)).trans (W6_arg m ρ c r hr)
theorem W8_arg (c : Dev nD) (r : Ref sig .tc) (hr : r ∈ argList) :
    W8 m ρ c (Proc.devRef .tc r) = m ((c : Thread nD τ).loc r) :=
  (W8_of m ρ c r (arrs0_args r hr)).trans (W7_arg m ρ c r hr)
theorem W9_arg (c : Dev nD) (r : Ref sig .tc) (hr : r ∈ argList) :
    W9 m ρ c (Proc.devRef .tc r) = m ((c : Thread nD τ).loc r) :=
  (W9_of m ρ c r (hostOps1_args r hr)).trans (W8_arg m ρ c r hr)
theorem W10_arg (c : Dev nD) (r : Ref sig .tc) (hr : r ∈ argList) :
    W10 m ρ c (Proc.devRef .tc r) = m ((c : Thread nD τ).loc r) :=
  (W10_of m ρ c r (hostOps1_1_args r hr)).trans (W9_arg m ρ c r hr)
theorem W11_arg (c : Dev nD) (r : Ref sig .tc) (hr : r ∈ argList) :
    W11 m ρ c (Proc.devRef .tc r) = m ((c : Thread nD τ).loc r) :=
  (W11_of m ρ c r (hostOps1_2_args r hr)).trans (W10_arg m ρ c r hr)
theorem W12_arg (c : Dev nD) (r : Ref sig .tc) (hr : r ∈ argList) :
    W12 m ρ c (Proc.devRef .tc r) = m ((c : Thread nD τ).loc r) :=
  (W12_of m ρ c r (hostOps1_3_args r hr)).trans (W11_arg m ρ c r hr)
theorem W13_arg (c : Dev nD) (r : Ref sig .tc) (hr : r ∈ argList) :
    W13 m ρ c (Proc.devRef .tc r) = m ((c : Thread nD τ).loc r) :=
  (W13_of m ρ c r (arrs1_args r hr)).trans (W12_arg m ρ c r hr)
theorem W14_arg (c : Dev nD) (r : Ref sig .tc) (hr : r ∈ argList) :
    W14 m ρ c (Proc.devRef .tc r) = m ((c : Thread nD τ).loc r) :=
  (W14_of m ρ c r (hostOps2_args r hr)).trans (W13_arg m ρ c r hr)

/-! ## The first region's operands, back to their producers -/

/-- The references the six stretches between `hostOps0` and the first region write. -/
abbrev pads0_W : List (Ref sig .tc) :=
  hostOps0_1_W ++ hostOps0_2_W ++ hostOps0_3_W ++ hostOps0_4_W ++ hostOps0_5_W ++ hostOps0_6_W
/-- A reference none of the six writes is at the first region's entry what `hostOps0` left. -/
theorem W7_of_W1 (c : Dev nD) (r : Ref sig .tc) (h : r ∉ pads0_W) :
    W7 m ρ c (Proc.devRef .tc r) = W1 m ρ c (Proc.devRef .tc r) := by
  have h' : r ∉ hostOps0_1_W ∧ r ∉ hostOps0_2_W ∧ r ∉ hostOps0_3_W ∧ r ∉ hostOps0_4_W ∧ r ∉ hostOps0_5_W ∧ r ∉ hostOps0_6_W := by
    simpa only [pads0_W, List.mem_append, not_or, and_assoc] using h
  obtain ⟨h1, h2, h3, h4, h5, h6⟩ := h'
  exact (W7_of m ρ c r h6).trans <| (W6_of m ρ c r h5).trans <| (W5_of m ρ c r h4).trans <|
    (W4_of m ρ c r h3).trans <| (W3_of m ρ c r h2).trans (W2_of m ρ c r h1)

/-- The first padded operand, written by the first padding call, reaches the region as that call left it. -/
theorem W7_v171 (c : Dev nD) : W7 m ρ c (Proc.devRef .tc main_v171) = W2 m ρ c (Proc.devRef .tc main_v171) :=
  (W7_of m ρ c main_v171 (by decide)).trans <| (W6_of m ρ c main_v171 (by decide)).trans <|
    (W5_of m ρ c main_v171 (by decide)).trans <| (W4_of m ρ c main_v171 (by decide)).trans (W3_of m ρ c main_v171 (by decide))
/-- The second padded operand, written by the second padding call, reaches the region as that call left it. -/
theorem W7_v172 (c : Dev nD) : W7 m ρ c (Proc.devRef .tc main_v172) = W4 m ρ c (Proc.devRef .tc main_v172) :=
  (W7_of m ρ c main_v172 (by decide)).trans <| (W6_of m ρ c main_v172 (by decide)).trans (W5_of m ρ c main_v172 (by decide))
/-- The four operands `hostOps0` computes reach the region as `hostOps0` left them. -/
theorem W7_v124 (c : Dev nD) : W7 m ρ c (Proc.devRef .tc main_v124) = W1 m ρ c (Proc.devRef .tc main_v124) := W7_of_W1 m ρ c main_v124 (by decide)
theorem W7_v127 (c : Dev nD) : W7 m ρ c (Proc.devRef .tc main_v127) = W1 m ρ c (Proc.devRef .tc main_v127) := W7_of_W1 m ρ c main_v127 (by decide)
theorem W7_v130 (c : Dev nD) : W7 m ρ c (Proc.devRef .tc main_v130) = W1 m ρ c (Proc.devRef .tc main_v130) := W7_of_W1 m ρ c main_v130 (by decide)
theorem W7_v131 (c : Dev nD) : W7 m ρ c (Proc.devRef .tc main_v131) = W1 m ρ c (Proc.devRef .tc main_v131) := W7_of_W1 m ρ c main_v131 (by decide)

/-- What the third padding call pads is, when it runs, what `hostOps0` left. -/
theorem W5_v156 (c : Dev nD) : W5 m ρ c (Proc.devRef .tc main_v156) = W1 m ρ c (Proc.devRef .tc main_v156) :=
  (W5_of m ρ c main_v156 (by decide)).trans <| (W4_of m ρ c main_v156 (by decide)).trans <|
    (W3_of m ρ c main_v156 (by decide)).trans (W2_of m ρ c main_v156 (by decide))
/-- What the second padding call pads is, when it runs, what `hostOps0` left. -/
theorem W3_v170 (c : Dev nD) : W3 m ρ c (Proc.devRef .tc main_v170) = W1 m ρ c (Proc.devRef .tc main_v170) :=
  (W3_of m ρ c main_v170 (by decide)).trans (W2_of m ρ c main_v170 (by decide))

/-! ## Between the regions -/

/-- The first region's output array holds at its exit what the write-backs leave. -/
theorem W8_v175 (c : Dev nD) : W8 m ρ c (Proc.devRef .tc main_v175) = (dat0 (V7 m ρ) c).arrAt 7 cfg0.N :=
  W8_arr m ρ c 7
/-- The scatter-add's indices are, when it runs, what `hostOps0` left. -/
theorem W8_v3 (c : Dev nD) : W8 m ρ c (Proc.devRef .tc main_v3) = W1 m ρ c (Proc.devRef .tc main_v3) :=
  (W8_of m ρ c main_v3 (by decide)).trans (W7_of_W1 m ρ c main_v3 (by decide))
/-- What the last padding call pads is, when it runs, what the scatter-add left. -/
theorem W11_v179 (c : Dev nD) : W11 m ρ c (Proc.devRef .tc main_v179) = W9 m ρ c (Proc.devRef .tc main_v179) :=
  (W11_of m ρ c main_v179 (by decide)).trans (W10_of m ρ c main_v179 (by decide))
/-- What the fourth padding call pads is the first argument as launched. -/
theorem W9_arg0 (c : Dev nD) : W9 m ρ c (Proc.devRef .tc main_arg0) = m ((c : Thread nD τ).loc main_arg0) :=
  W9_arg m ρ c main_arg0 (by decide)

/-! ## The second region's operands, back to their producers -/

/-- The first padded operand, written by the fourth padding call, reaches the region as that call left it. -/
theorem W12_v180 (c : Dev nD) : W12 m ρ c (Proc.devRef .tc main_v180) = W10 m ρ c (Proc.devRef .tc main_v180) :=
  (W12_of m ρ c main_v180 (by decide)).trans (W11_of m ρ c main_v180 (by decide))
/-- The references the four stretches between the regions write. -/
abbrev mid_W : List (Ref sig .tc) := hostOps1_W ++ hostOps1_1_W ++ hostOps1_2_W ++ hostOps1_3_W
/-- A reference that no item from the first padding call to the second region's entry writes — none of the six
    stretches, no array of the first region, none of the four stretches — is at that entry what `hostOps0` left. -/
theorem W12_of_W1 (c : Dev nD) (r : Ref sig .tc) (h0 : r ∉ pads0_W) (ha : r ∉ arrs0) (h : r ∉ mid_W) :
    W12 m ρ c (Proc.devRef .tc r) = W1 m ρ c (Proc.devRef .tc r) := by
  have h' : r ∉ hostOps1_W ∧ r ∉ hostOps1_1_W ∧ r ∉ hostOps1_2_W ∧ r ∉ hostOps1_3_W := by
    simpa only [mid_W, List.mem_append, not_or, and_assoc] using h
  obtain ⟨h1, h2, h3, h4⟩ := h'
  exact (W12_of m ρ c r h4).trans <| (W11_of m ρ c r h3).trans <| (W10_of m ρ c r h2).trans <|
    (W9_of m ρ c r h1).trans <| (W8_of m ρ c r ha).trans (W7_of_W1 m ρ c r h0)
/-- The two operands `hostOps0` computes reach the second region as `hostOps0` left them. -/
theorem W12_v126 (c : Dev nD) : W12 m ρ c (Proc.devRef .tc main_v126) = W1 m ρ c (Proc.devRef .tc main_v126) :=
  W12_of_W1 m ρ c main_v126 (by decide) (by decide) (by decide)
theorem W12_v128 (c : Dev nD) : W12 m ρ c (Proc.devRef .tc main_v128) = W1 m ρ c (Proc.devRef .tc main_v128) :=
  W12_of_W1 m ρ c main_v128 (by decide) (by decide) (by decide)

/-! ## The result -/

/-- The second region's output array holds at its exit what the write-backs leave. -/
theorem W13_v182 (c : Dev nD) : W13 m ρ c (Proc.devRef .tc main_v182) = (dat1 (V12 m ρ) c).arrAt 4 cfg1.N :=
  W13_arr m ρ c 4

end Cert.KernelIdeal.Hand

end
-- ==== Proof.DataB.lean ====
/-
  The shared definitions of the kernel program's frame, at any float instance.

  Per pallas_call (a "region" of @main), at the contents `V` the TensorCore's buffers hold when the region is
  entered: a window's block at a grid point read off its array; what the one output window's staging buffer holds
  after the body (its single whole-block store, the body's arithmetic kept as the skeleton's one payload); and the
  pipeline's proof data (inputs stay as fetched, the output takes the stored block, nothing owed, full shares).

  Then the buffer contents at each boundary between two items of @main: the launch memory, folded through each
  stretch of host operations, a region replacing its arrays by what its write-backs leave.
-/
import proofs.«164897_j31104153157801_1_alg».proof.Proof.Gen.Kernel.Launch
import proofs.«164897_j31104153157801_1_alg».proof.Proof.Gen.Kernel.Skeleton
import proofs.«164897_j31104153157801_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! ## The message kernel's region -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the two bodies load and store through. -/
abbrev rA : Rect S2048x256 := Rect.unit (s := S2048x256) ![0, 0] S2048x256.size inb_S2048x256_S2048x256_0_0
abbrev rN : Rect S2048x1 := Rect.unit (s := S2048x1) ![0, 0] S2048x1.size inb_S2048x1_S2048x1_0_0
abbrev rK : Rect S256x256 := Rect.unit (s := S256x256) ![0, 0] S256x256.size inb_S256x256_S256x256_0_0
abbrev rB : Rect S1x256 := Rect.unit (s := S1x256) ![0, 0] S1x256.size inb_S1x256_S1x256_0_0
abbrev rG : Rect S256x1 := Rect.unit (s := S256x1) ![0, 0] S256x1.size inb_S256x1_S256x1_0_0
abbrev rS : Rect S1x1 := Rect.unit (s := S1x1) ![0, 0] S1x1.size inb_S1x1_S1x1_0_0

/-- The output block after the body: one store of the whole block, its value the body's payload of the seven input
    blocks (rows of gathered node features, of gathered relation embeddings, the degree norms, the transposed
    message matrix, its bias row, the gate column, the gate bias). -/
def out0_7 (x0 : Vec F S2048x256 .f32) (x1 : Vec F S2048x256 .f32) (x2 : Vec F S2048x1 .f32) (x3 : Vec F S256x256 .bf16)
    (x4 : Vec F S1x256 .f32) (x5 : Vec F S256x1 .bf16) (x6 : Vec F S1x1 .f32) : Vec F S2048x256 .f32 :=
  View.canon [⟨rA, k0_pay1 (View.ld x0 rA) (View.ld x1 rA) (View.ld x3 rK) (View.ld x4 rB) (View.ld x5 rG) (View.ld x6 rS) (View.ld x2 rN)⟩]

/-- The pipeline's proof data: every input window keeps its block, the output window takes the stored block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-! ## The update kernel's region -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body: one store of the whole block, the payload of the four input blocks (node
    features, aggregated messages, the transposed update matrix, its bias row). -/
def out1_4 (x0 : Vec F S2048x256 .f32) (x1 : Vec F S2048x256 .f32) (x2 : Vec F S256x256 .bf16) (x3 : Vec F S1x256 .f32) : Vec F S2048x256 .f32 :=
  View.canon [⟨rA, k1_pay1 (View.ld x0 rA) (View.ld x1 rA) (View.ld x2 rK) (View.ld x3 rB)⟩]

/-- The pipeline's proof data: every input window keeps its block, the output window takes the stored block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

end Regions

/-! ## The buffer contents at each boundary of @main -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the long first stretch (weights assembled, degrees, gathers). -/
abbrev W1 : Dev nD → Valuation τ sig (Elt F) := fun c => StableHlo.after hostOps0 (W0 m ρ c)
/-- After the gathered node rows are padded. -/
abbrev W2 : Dev nD → Valuation τ sig (Elt F) := fun c => StableHlo.after hostOps0_1 (W1 m ρ c)
abbrev W3 : Dev nD → Valuation τ sig (Elt F) := fun c => StableHlo.after hostOps0_2 (W2 m ρ c)
/-- After the gathered relation rows are padded. -/
abbrev W4 : Dev nD → Valuation τ sig (Elt F) := fun c => StableHlo.after hostOps0_3 (W3 m ρ c)
abbrev W5 : Dev nD → Valuation τ sig (Elt F) := fun c => StableHlo.after hostOps0_4 (W4 m ρ c)
/-- After the norms are padded. -/
abbrev W6 : Dev nD → Valuation τ sig (Elt F) := fun c => StableHlo.after hostOps0_5 (W5 m ρ c)
/-- The message kernel's entry. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
/-- The message kernel's exit: its arrays at what the write-backs leave, every other buffer as entered. -/
def W8 (c : Dev nD) : Valuation τ sig (Elt F) :=
  Pipeline.withArrays spec0 c (W7 m ρ c) fun w => (dat0 (V7 m ρ) c).arrAt w cfg0.N
/-- After the messages are cut to size and summed by destination. -/
abbrev W9 : Dev nD → Valuation τ sig (Elt F) := fun c => StableHlo.after hostOps1 (W8 m ρ c)
abbrev W10 : Dev nD → Valuation τ sig (Elt F) := fun c => StableHlo.after hostOps1_1 (W9 m ρ c)
abbrev W11 : Dev nD → Valuation τ sig (Elt F) := fun c => StableHlo.after hostOps1_2 (W10 m ρ c)
/-- The update kernel's entry. -/
abbrev W12 : Dev nD → Valuation τ sig (Elt F) := fun c => StableHlo.after hostOps1_3 (W11 m ρ c)
abbrev V12 : (c : Dev nD) → (b : Ref sig .tc) → Buf (Elt F) ((c : Thread nD τ).loc b) := fun c b => W12 m ρ c b
/-- The update kernel's exit. -/
def W13 (c : Dev nD) : Valuation τ sig (Elt F) :=
  Pipeline.withArrays spec1 c (W12 m ρ c) fun w => (dat1 (V12 m ρ) c).arrAt w cfg1.N
/-- The end: the result cut to size. -/
abbrev W14 : Dev nD → Valuation τ sig (Elt F) := fun c => StableHlo.after hostOps2 (W13 m ρ c)

end Cert.Kernel.Hand

end
-- ==== Proof.Reg0B.lean ====
/-
  The message kernel's region, at any float instance: the body's triple on whole staging buffers, and the
  pipeline's body obligation at every grid point.

  The body loads its seven input blocks whole (two blocks of 2048 rows of 256 features, the 2048 norms, the
  256 by 256 message matrix, its bias row, the gate column and the gate bias), loads the output block (a value it
  never uses), and stores one value over the whole output block. So after the body the output block reads that
  value at every index, whatever it held before, and every input block is as it was.

  The four weight windows have a constant block index: the pipeline fetches them at the first point only. At a
  later point their staging buffer still holds the block fetched at the first, which is the block of that point
  too, since the index never moves; the three row windows are fetched at every point.
-/
import proofs.«164897_j31104153157801_1_alg».proof.Proof.DataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The one store covers the output block -/

/-- The body's single store is through the whole-block rectangle, so every index of the block lies in it. -/
theorem cover0_7 (p0 : Vec F S2048x256 .f32) (y : S2048x256.Idx) :
    ∃ pc ∈ ([⟨rA, p0⟩] : List (View.Piece (Elt F) S2048x256 .f32)), y ∈ pc.1.set :=
  View.cover_of_tiled [⟨rA, p0⟩] S2048x256.size (by rfl) y

/-! ## The body's triple -/

set_option maxHeartbeats 4000000 in
/-- The body on whole staging buffers, the seven inputs reading `x0 … x6` and the output holding anything, runs to
    a state where the inputs read what they did and the output reads the stored value at every index. -/
theorem sound_kernel0 (c : Dev nD) (E : Set ℕ) (i : grid0.Coords)
    (arg1 : Memref sig .tc .vmem S2048x256 .f32) (harg1 : arg1.IsWhole)
    (arg2 : Memref sig .tc .vmem S2048x256 .f32) (harg2 : arg2.IsWhole)
    (arg3 : Memref sig .tc .vmem S2048x1 .f32) (harg3 : arg3.IsWhole)
    (arg4 : Memref sig .tc .vmem S256x256 .bf16) (harg4 : arg4.IsWhole)
    (arg5 : Memref sig .tc .vmem S1x256 .f32) (harg5 : arg5.IsWhole)
    (arg6 : Memref sig .tc .vmem S256x1 .bf16) (harg6 : arg6.IsWhole)
    (arg7 : Memref sig .tc .vmem S1x1 .f32) (harg7 : arg7.IsWhole)
    (arg8 : Memref sig .tc .vmem S2048x256 .f32) (harg8 : arg8.IsWhole)
    (x0 : Vec F S2048x256 .f32) (x1 : Vec F S2048x256 .f32) (x2 : Vec F S2048x1 .f32) (x3 : Vec F S256x256 .bf16) (x4 : Vec F S1x256 .f32) (x5 : Vec F S256x1 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E (cc0__msg_kernel i arg1 harg1 arg2 harg2 arg3 harg3 arg4 harg4 arg5 harg5 arg6 harg6 arg7 harg7 arg8 harg8) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The proof data, field by field -/

/-- The proof data's arrays are the contents the region is entered with. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not: the body leaves the
    block in place, and where the pipeline does not fetch, the block index has not moved since the last fetch. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.Reg1B.lean ====
/-
  The update kernel's region: the body's half of the frame, at any float instance.

  At the contents V the TensorCore's buffers hold when the region is entered: each input window's staging buffer
  holds that window's block at every grid point (the two row-blocked inputs are fetched at every point; the weight
  matrix and the bias row have a constant block index, are fetched once, and stay in place because the body leaves
  them as found); the body's triple on whole staging buffers (four loads of inputs, one load of the output buffer
  whose value is unused, one whole-block store of the payload); and the body obligation at a generic grid point.
-/
import proofs.«164897_j31104153157801_1_alg».proof.Proof.DataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The input windows' staging buffers hold their blocks -/

/-- An input window's current staging buffer holds its block at every point, fetched there or not: where it was not
    fetched the block index has not moved and the body left the block in place. Stated for any proof data whose
    array is the entry contents and whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The output window's store covers its buffer -/

/-- The one store is of the whole block, so it covers the buffer. -/
theorem cover1_4 (p0 : Vec F S2048x256 .f32) (y : S2048x256.Idx) :
    ∃ pc ∈ ([⟨rA, p0⟩] : List (View.Piece (Elt F) S2048x256 .f32)), y ∈ pc.1.set :=
  View.cover_of_tiled [⟨rA, p0⟩] S2048x256.size (by rfl) y

/-! ## The body's triple -/

set_option maxHeartbeats 1000000 in
/-- The body on whole staging buffers, the four inputs' at read contents x0..x3 and the output's at anything, runs to
    the continuation holding the inputs' as they were and the output's at the stored payload of the inputs. The
    body's load of the output buffer binds a value nothing reads. -/
theorem sound_kernel1 (c : Dev nD) (E : Set ℕ) (i : grid1.Coords)
    (arg1 : Memref sig .tc .vmem S2048x256 .f32) (harg1 : arg1.IsWhole) (arg2 : Memref sig .tc .vmem S2048x256 .f32) (harg2 : arg2.IsWhole)
    (arg3 : Memref sig .tc .vmem S256x256 .bf16) (harg3 : arg3.IsWhole) (arg4 : Memref sig .tc .vmem S1x256 .f32) (harg4 : arg4.IsWhole)
    (arg5 : Memref sig .tc .vmem S2048x256 .f32) (harg5 : arg5.IsWhole)
    (x0 : Vec F S2048x256 .f32) (x1 : Vec F S2048x256 .f32) (x2 : Vec F S256x256 .bf16) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__upd_kernel i arg1 harg1 arg2 harg2 arg3 harg3 arg4 harg4 arg5 harg5) K := by
  simp only [cc1__upd_kernel_eq_skeleton]; unfold cc1__upd_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data, projected -/

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t: the invariant, the core's debts, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.HostFactsB.lean ====
/- What the host stretches of @main write, and what they therefore leave alone.

   @main is a chain of fourteen items: twelve stretches of host operations and, among them, the two kernel regions.
   Every host operation writes exactly one buffer, its result's, and allocates none; so a stretch changes only the
   references its operations' results name, and a value computed by an earlier item is still in place when a later
   item reads it as long as no stretch in between names it as a result. This module lists, per stretch, the
   references written, proves the list complete, and derives that every other reference keeps its contents. -/
import proofs.«164897_j31104153157801_1_alg».proof.Proof.Gen.Kernel.Launch
import Idealize.ShloMosaic.Lib.Pipeline.Frame
import Idealize.ShloMosaic.Lib.Pipeline.Regions

noncomputable section

namespace Cert.Kernel.Hand

open Idealize.ShloMosaic Idealize.ShloMosaic.TcCoe
open Cert.Kernel Cert.Kernel.Gen

variable {F : FTy → Type} [FloatOps F]

-- the longest stretch's list of 206 operations is walked one `::` at a time
set_option maxRecDepth 8000

/-- Operations that write, one by one, exactly the references of a list write only within that list. -/
theorem writes_sub_of_forall₂ {Val : EltTy → Type} {ops : List (HloOp τ sig Val)} {W : List (Ref sig .tc)}
    (h : List.Forall₂ (fun op r => op.writes = {Proc.devRef (τ := τ) .tc r}) ops W) :
    ops.Forall fun op => op.writes ⊆ (W.map (Proc.devRef (τ := τ) .tc)).toFinset := by
  rw [List.forall_iff_forall_mem]
  induction h with
  | nil => intro op hop; cases hop
  | @cons op r ops W hd _ ih =>
    intro o ho
    rcases List.mem_cons.mp ho with rfl | ho'
    · rw [hd, Finset.singleton_subset_iff, List.mem_toFinset]
      exact List.mem_map_of_mem List.mem_cons_self
    · refine (ih o ho').trans fun x hx => ?_
      rw [List.mem_toFinset] at hx ⊢
      rw [List.map_cons]
      exact List.mem_cons_of_mem _ hx

/-! ## What each host stretch writes -/

/-! ### `hostOps0`: the 206 operations up to the first padding call -/

set_option maxHeartbeats 40000000 in
/-- No operation of `hostOps0` allocates a buffer. -/
theorem hostOps0_fresh : (hostOps0 : List (HloOp τ sig (Elt F))).Forall fun op => op.fresh = ∅ := by
  simp only [List.Forall]; repeat' constructor
/-- The references `hostOps0`'s operations write, in the operations' order. -/
abbrev hostOps0_W : List (Ref sig .tc) := [
    main_c, main_c_0, main_c_1, main_c_2, main_c_3, main_v0, main_v1, main_v2, main_v3, main_v4,
    main_v5, main_v6, main_v7, main_cst, main_v8, main_v9, main_v10, main_v11, main_cst_4, main_v12,
    main_v13, main_v14, main_v15, main_cst_5, main_v16, main_v17, main_v18, main_v19, main_v20, main_v21,
    main_v22, main_v23, main_v24, main_cst_6, main_v25, main_v26, main_v27, main_v28, main_cst_7, main_v29,
    main_v30, main_v31, main_v32, main_v33, main_v34, main_v35, main_cst_8, main_v36, main_v37, main_v38,
    main_v39, main_v40, main_v41, main_cst_9, main_v42, main_v43, main_v44, main_v45, main_v46, main_v47,
    main_v48, main_v49, main_v50, main_v51, main_v52, main_v53, main_v54, main_v55, main_v56, main_v57,
    main_v58, main_v59, main_cst_10, main_v60, main_v61, main_v62, main_v63, main_cst_11, main_v64, main_v65,
    main_v66, main_v67, main_cst_12, main_v68, main_v69, main_v70, main_v71, main_v72, main_v73, main_v74,
    main_v75, main_v76, main_cst_13, main_v77, main_v78, main_v79, main_v80, main_cst_14, main_v81, main_v82,
    main_v83, main_v84, main_v85, main_v86, main_v87, main_cst_15, main_v88, main_v89, main_v90, main_v91,
    main_v92, main_v93, main_cst_16, main_v94, main_v95, main_v96, main_v97, main_v98, main_v99, main_v100,
    main_v101, main_v102, main_v103, main_v104, main_v105, main_v106, main_v107, main_c_17, main_v108, main_v109,
    main_v110, main_v111, main_v112, main_c_18, main_v113, main_v114, main_v115, main_v116, main_v117, main_c_19,
    main_v118, main_v119, main_v120, main_v121, main_v122, main_v123, main_v124, main_v125, main_v126, main_v127,
    main_v128, main_v129, main_v130, main_v131, main_cst_20, main_v132, main_cst_21, main_v133, main_v134, main_v135,
    main_cst_22, main_v136, main_v137, main_v138, main_c_23, main_v139, main_v140, main_c_24, main_v141, main_v142,
    main_v143, main_v144, main_v145, main_c_25, main_v146, main_v147, main_c_26, main_v148, main_v149, main_v150,
    main_v151, main_v152, main_v153, main_cst_27, main_v154, main_v155, main_v156, main_c_28, main_v157, main_v158,
    main_c_29, main_v159, main_v160, main_v161, main_v162, main_v163, main_c_30, main_v164, main_v165, main_c_31,
    main_v166, main_v167, main_v168, main_v169, main_v170, main_c_32 ]
set_option maxHeartbeats 40000000 in
/-- Operation by operation, `hostOps0` writes exactly the listed references. -/
theorem hostOps0_writes : (hostOps0 : List (HloOp τ sig (Elt F))).Forall fun op => op.writes ⊆ (hostOps0_W.map (Proc.devRef (τ := τ) .tc)).toFinset := by
  apply writes_sub_of_forall₂
  repeat' constructor
/-- A reference `hostOps0` does not write holds after it what it held before. -/
theorem hostOps0_keeps (W : Valuation τ sig (Elt F)) (r : Ref sig .tc) (h : r ∉ hostOps0_W) :
    StableHlo.after hostOps0 W (Proc.devRef .tc r) = W (Proc.devRef .tc r) :=
  StableHlo.after_of_writes_sub hostOps0 W hostOps0_writes h

/-! ### `hostOps0_1`: the first padding call, `main_v163` padded to `main_v171` -/

/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write, in the operations' order. -/
abbrev hostOps0_1_W : List (Ref sig .tc) := [main_call0_v0, main_v171]
/-- Operation by operation, `hostOps0_1` writes exactly the listed references. -/
theorem hostOps0_1_writes : (hostOps0_1 : List (HloOp τ sig (Elt F))).Forall fun op => op.writes ⊆ (hostOps0_1_W.map (Proc.devRef (τ := τ) .tc)).toFinset := by
  apply writes_sub_of_forall₂
  repeat' constructor
/-- A reference `hostOps0_1` does not write holds after it what it held before. -/
theorem hostOps0_1_keeps (W : Valuation τ sig (Elt F)) (r : Ref sig .tc) (h : r ∉ hostOps0_1_W) :
    StableHlo.after hostOps0_1 W (Proc.devRef .tc r) = W (Proc.devRef .tc r) :=
  StableHlo.after_of_writes_sub hostOps0_1 W hostOps0_1_writes h

/-! ### `hostOps0_2`: the constant `main_c_33` -/

/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write, in the operations' order. -/
abbrev hostOps0_2_W : List (Ref sig .tc) := [main_c_33]
/-- Operation by operation, `hostOps0_2` writes exactly the listed references. -/
theorem hostOps0_2_writes : (hostOps0_2 : List (HloOp τ sig (Elt F))).Forall fun op => op.writes ⊆ (hostOps0_2_W.map (Proc.devRef (τ := τ) .tc)).toFinset := by
  apply writes_sub_of_forall₂
  repeat' constructor
/-- A reference `hostOps0_2` does not write holds after it what it held before. -/
theorem hostOps0_2_keeps (W : Valuation τ sig (Elt F)) (r : Ref sig .tc) (h : r ∉ hostOps0_2_W) :
    StableHlo.after hostOps0_2 W (Proc.devRef .tc r) = W (Proc.devRef .tc r) :=
  StableHlo.after_of_writes_sub hostOps0_2 W hostOps0_2_writes h

/-! ### `hostOps0_3`: the second padding call, `main_v170` padded to `main_v172` -/

/-- No operation of `hostOps0_3` allocates a buffer. -/
theorem hostOps0_3_fresh : (hostOps0_3 : List (HloOp τ sig (Elt F))).Forall fun op => op.fresh = ∅ := by
  simp only [List.Forall]; repeat' constructor
/-- The references `hostOps0_3`'s operations write, in the operations' order. -/
abbrev hostOps0_3_W : List (Ref sig .tc) := [main_call1_v0, main_v172]
/-- Operation by operation, `hostOps0_3` writes exactly the listed references. -/
theorem hostOps0_3_writes : (hostOps0_3 : List (HloOp τ sig (Elt F))).Forall fun op => op.writes ⊆ (hostOps0_3_W.map (Proc.devRef (τ := τ) .tc)).toFinset := by
  apply writes_sub_of_forall₂
  repeat' constructor
/-- A reference `hostOps0_3` does not write holds after it what it held before. -/
theorem hostOps0_3_keeps (W : Valuation τ sig (Elt F)) (r : Ref sig .tc) (h : r ∉ hostOps0_3_W) :
    StableHlo.after hostOps0_3 W (Proc.devRef .tc r) = W (Proc.devRef .tc r) :=
  StableHlo.after_of_writes_sub hostOps0_3 W hostOps0_3_writes h

/-! ### `hostOps0_4`: the constant `main_c_34` -/

/-- No operation of `hostOps0_4` allocates a buffer. -/
theorem hostOps0_4_fresh : (hostOps0_4 : List (HloOp τ sig (Elt F))).Forall fun op => op.fresh = ∅ := by
  simp only [List.Forall]; repeat' constructor
/-- The references `hostOps0_4`'s operations write, in the operations' order. -/
abbrev hostOps0_4_W : List (Ref sig .tc) := [main_c_34]
/-- Operation by operation, `hostOps0_4` writes exactly the listed references. -/
theorem hostOps0_4_writes : (hostOps0_4 : List (HloOp τ sig (Elt F))).Forall fun op => op.writes ⊆ (hostOps0_4_W.map (Proc.devRef (τ := τ) .tc)).toFinset := by
  apply writes_sub_of_forall₂
  repeat' constructor
/-- A reference `hostOps0_4` does not write holds after it what it held before. -/
theorem hostOps0_4_keeps (W : Valuation τ sig (Elt F)) (r : Ref sig .tc) (h : r ∉ hostOps0_4_W) :
    StableHlo.after hostOps0_4 W (Proc.devRef .tc r) = W (Proc.devRef .tc r) :=
  StableHlo.after_of_writes_sub hostOps0_4 W hostOps0_4_writes h

/-! ### `hostOps0_5`: the third padding call, `main_v156` padded to `main_v173` -/

/-- No operation of `hostOps0_5` allocates a buffer. -/
theorem hostOps0_5_fresh : (hostOps0_5 : List (HloOp τ sig (Elt F))).Forall fun op => op.fresh = ∅ := by
  simp only [List.Forall]; repeat' constructor
/-- The references `hostOps0_5`'s operations write, in the operations' order. -/
abbrev hostOps0_5_W : List (Ref sig .tc) := [main_call2_v0, main_v173]
/-- Operation by operation, `hostOps0_5` writes exactly the listed references. -/
theorem hostOps0_5_writes : (hostOps0_5 : List (HloOp τ sig (Elt F))).Forall fun op => op.writes ⊆ (hostOps0_5_W.map (Proc.devRef (τ := τ) .tc)).toFinset := by
  apply writes_sub_of_forall₂
  repeat' constructor
/-- A reference `hostOps0_5` does not write holds after it what it held before. -/
theorem hostOps0_5_keeps (W : Valuation τ sig (Elt F)) (r : Ref sig .tc) (h : r ∉ hostOps0_5_W) :
    StableHlo.after hostOps0_5 W (Proc.devRef .tc r) = W (Proc.devRef .tc r) :=
  StableHlo.after_of_writes_sub hostOps0_5 W hostOps0_5_writes h

/-! ### `hostOps0_6`: the reshape of `main_v173` into the column `main_v174` -/

/-- No operation of `hostOps0_6` allocates a buffer. -/
theorem hostOps0_6_fresh : (hostOps0_6 : List (HloOp τ sig (Elt F))).Forall fun op => op.fresh = ∅ := by
  simp only [List.Forall]; repeat' constructor
/-- The references `hostOps0_6`'s operations write, in the operations' order. -/
abbrev hostOps0_6_W : List (Ref sig .tc) := [main_v174]
/-- Operation by operation, `hostOps0_6` writes exactly the listed references. -/
theorem hostOps0_6_writes : (hostOps0_6 : List (HloOp τ sig (Elt F))).Forall fun op => op.writes ⊆ (hostOps0_6_W.map (Proc.devRef (τ := τ) .tc)).toFinset := by
  apply writes_sub_of_forall₂
  repeat' constructor
/-- A reference `hostOps0_6` does not write holds after it what it held before. -/
theorem hostOps0_6_keeps (W : Valuation τ sig (Elt F)) (r : Ref sig .tc) (h : r ∉ hostOps0_6_W) :
    StableHlo.after hostOps0_6 W (Proc.devRef .tc r) = W (Proc.devRef .tc r) :=
  StableHlo.after_of_writes_sub hostOps0_6 W hostOps0_6_writes h

/-! ### `hostOps1`: the slice `main_v176` of the first region's output `main_v175`, its scatter-add `main_v179` onto a zero array, the constant `main_c_36` -/

/-- No operation of `hostOps1` allocates a buffer. -/
theorem hostOps1_fresh : (hostOps1 : List (HloOp τ sig (Elt F))).Forall fun op => op.fresh = ∅ := by
  simp only [List.Forall]; repeat' constructor
/-- The references `hostOps1`'s operations write, in the operations' order. -/
abbrev hostOps1_W : List (Ref sig .tc) := [main_v176, main_cst_35, main_v177, main_v178, main_v179, main_c_36]
/-- Operation by operation, `hostOps1` writes exactly the listed references. -/
theorem hostOps1_writes : (hostOps1 : List (HloOp τ sig (Elt F))).Forall fun op => op.writes ⊆ (hostOps1_W.map (Proc.devRef (τ := τ) .tc)).toFinset := by
  apply writes_sub_of_forall₂
  repeat' constructor
/-- A reference `hostOps1` does not write holds after it what it held before. -/
theorem hostOps1_keeps (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

/-! ### `hostOps1_1`: the fourth padding call, `main_arg0` padded to `main_v180` -/

/-- No operation of `hostOps1_1` allocates a buffer. -/
theorem hostOps1_1_fresh : (hostOps1_1 : List (HloOp τ sig (Elt F))).Forall fun op => op.fresh = ∅ := by
  simp only [List.Forall]; repeat' constructor
/-- The references `hostOps1_1`'s operations write, in the operations' order. -/
abbrev hostOps1_1_W : List (Ref sig .tc) := [main_call3_v0, main_v180]
/-- Operation by operation, `hostOps1_1` writes exactly the listed references. -/
theorem hostOps1_1_writes : (hostOps1_1 : List (HloOp τ sig (Elt F))).Forall fun op => op.writes ⊆ (hostOps1_1_W.map (Proc.devRef (τ := τ) .tc)).toFinset := by
  apply writes_sub_of_forall₂
  repeat' constructor
/-- A reference `hostOps1_1` does not write holds after it what it held before. -/
theorem hostOps1_1_keeps (W : Valuation τ sig (Elt F)) (r : Ref sig .tc) (h : r ∉ hostOps1_1_W) :
    StableHlo.after hostOps1_1 W (Proc.devRef .tc r) = W (Proc.devRef .tc r) :=
  StableHlo.after_of_writes_sub hostOps1_1 W hostOps1_1_writes h

/-! ### `hostOps1_2`: the constant `main_c_37` -/

/-- No operation of `hostOps1_2` allocates a buffer. -/
theorem hostOps1_2_fresh : (hostOps1_2 : List (HloOp τ sig (Elt F))).Forall fun op => op.fresh = ∅ := by
  simp only [List.Forall]; repeat' constructor
/-- The references `hostOps1_2`'s operations write, in the operations' order. -/
abbrev hostOps1_2_W : List (Ref sig .tc) := [main_c_37]
/-- Operation by operation, `hostOps1_2` writes exactly the listed references. -/
theorem hostOps1_2_writes : (hostOps1_2 : List (HloOp τ sig (Elt F))).Forall fun op => op.writes ⊆ (hostOps1_2_W.map (Proc.devRef (τ := τ) .tc)).toFinset := by
  apply writes_sub_of_forall₂
  repeat' constructor
/-- A reference `hostOps1_2` does not write holds after it what it held before. -/
theorem hostOps1_2_keeps (W : Valuation τ sig (Elt F)) (r : Ref sig .tc) (h : r ∉ hostOps1_2_W) :
    StableHlo.after hostOps1_2 W (Proc.devRef .tc r) = W (Proc.devRef .tc r) :=
  StableHlo.after_of_writes_sub hostOps1_2 W hostOps1_2_writes h

/-! ### `hostOps1_3`: the fifth padding call, `main_v179` padded to `main_v181` -/

/-- No operation of `hostOps1_3` allocates a buffer. -/
theorem hostOps1_3_fresh : (hostOps1_3 : List (HloOp τ sig (Elt F))).Forall fun op => op.fresh = ∅ := by
  simp only [List.Forall]; repeat' constructor
/-- The references `hostOps1_3`'s operations write, in the operations' order. -/
abbrev hostOps1_3_W : List (Ref sig .tc) := [main_call4_v0, main_v181]
/-- Operation by operation, `hostOps1_3` writes exactly the listed references. -/
theorem hostOps1_3_writes : (hostOps1_3 : List (HloOp τ sig (Elt F))).Forall fun op => op.writes ⊆ (hostOps1_3_W.map (Proc.devRef (τ := τ) .tc)).toFinset := by
  apply writes_sub_of_forall₂
  repeat' constructor
/-- A reference `hostOps1_3` does not write holds after it what it held before. -/
theorem hostOps1_3_keeps (W : Valuation τ sig (Elt F)) (r : Ref sig .tc) (h : r ∉ hostOps1_3_W) :
    StableHlo.after hostOps1_3 W (Proc.devRef .tc r) = W (Proc.devRef .tc r) :=
  StableHlo.after_of_writes_sub hostOps1_3 W hostOps1_3_writes h

/-! ### `hostOps2`: the slice `main_v183` of the second region's output `main_v182` -/

/-- No operation of `hostOps2` allocates a buffer. -/
theorem hostOps2_fresh : (hostOps2 : List (HloOp τ sig (Elt F))).Forall fun op => op.fresh = ∅ := by
  simp only [List.Forall]; repeat' constructor
/-- The references `hostOps2`'s operations write, in the operations' order. -/
abbrev hostOps2_W : List (Ref sig .tc) := [main_v183]
/-- Operation by operation, `hostOps2` writes exactly the listed references. -/
theorem hostOps2_writes : (hostOps2 : List (HloOp τ sig (Elt F))).Forall fun op => op.writes ⊆ (hostOps2_W.map (Proc.devRef (τ := τ) .tc)).toFinset := by
  apply writes_sub_of_forall₂
  repeat' constructor
/-- A reference `hostOps2` does not write holds after it what it held before. -/
theorem hostOps2_keeps (W : Valuation τ sig (Elt F)) (r : Ref sig .tc) (h : r ∉ hostOps2_W) :
    StableHlo.after hostOps2 W (Proc.devRef .tc r) = W (Proc.devRef .tc r) :=
  StableHlo.after_of_writes_sub hostOps2 W hostOps2_writes h

/-! ## What each host stretch leaves alone

The arguments are never a result. Of the values computed along the way, those still awaited by a later item when a
stretch runs: the operands of the regions that `hostOps0` computes (`main_v124`, `main_v127`, `main_v130`,
`main_v131` for the first region, `main_v126`, `main_v128` for the second), the operands of the second and third
padding calls (`main_v170`, `main_v156`), the padded operands of the first region (`main_v171`, `main_v172`), the
scatter-add's indices (`main_v3`), and what the last padding call and the second region await (`main_v179`,
`main_v180`). -/

/-- `hostOps0` writes none of the program's arguments. -/
theorem hostOps0_args : ∀ r ∈ ([main_arg0, main_arg1, main_arg2, main_arg3, main_arg4, main_arg5, main_arg6, main_arg7, main_arg8, main_arg9] : List (Ref sig .tc)), r ∉ hostOps0_W := by decide

/-- `hostOps0_1` writes none of the program's arguments. -/
theorem hostOps0_1_args : ∀ r ∈ ([main_arg0, main_arg1, main_arg2, main_arg3, main_arg4, main_arg5, main_arg6, main_arg7, main_arg8, main_arg9] : List (Ref sig .tc)), r ∉ hostOps0_1_W := by decide
/-- `hostOps0_1` writes none of the values computed before it that a later item still reads. -/
theorem hostOps0_1_live : ∀ r ∈ ([main_v124, main_v127, main_v130, main_v131, main_v126, main_v128, main_v170, main_v156, main_v3] : List (Ref sig .tc)), r ∉ hostOps0_1_W := by decide

/-- `hostOps0_2` writes none of the program's arguments. -/
theorem hostOps0_2_args : ∀ r ∈ ([main_arg0, main_arg1, main_arg2, main_arg3, main_arg4, main_arg5, main_arg6, main_arg7, main_arg8, main_arg9] : List (Ref sig .tc)), r ∉ hostOps0_2_W := by decide
/-- `hostOps0_2` writes none of the values computed before it that a later item still reads. -/
theorem hostOps0_2_live : ∀ r ∈ ([main_v171, main_v124, main_v127, main_v130, main_v131, main_v126, main_v128, main_v170, main_v156, main_v3] : List (Ref sig .tc)), r ∉ hostOps0_2_W := by decide

/-- `hostOps0_3` writes none of the program's arguments. -/
theorem hostOps0_3_args : ∀ r ∈ ([main_arg0, main_arg1, main_arg2, main_arg3, main_arg4, main_arg5, main_arg6, main_arg7, main_arg8, main_arg9] : List (Ref sig .tc)), r ∉ hostOps0_3_W := by decide
/-- `hostOps0_3` writes none of the values computed before it that a later item still reads. -/
theorem hostOps0_3_live : ∀ r ∈ ([main_v171, main_v124, main_v127, main_v130, main_v131, main_v126, main_v128, main_v156, main_v3] : List (Ref sig .tc)), r ∉ hostOps0_3_W := by decide

/-- `hostOps0_4` writes none of the program's arguments. -/
theorem hostOps0_4_args : ∀ r ∈ ([main_arg0, main_arg1, main_arg2, main_arg3, main_arg4, main_arg5, main_arg6, main_arg7, main_arg8, main_arg9] : List (Ref sig .tc)), r ∉ hostOps0_4_W := by decide
/-- `hostOps0_4` writes none of the values computed before it that a later item still reads. -/
theorem hostOps0_4_live : ∀ r ∈ ([main_v171, main_v172, main_v124, main_v127, main_v130, main_v131, main_v126, main_v128, main_v156, main_v3] : List (Ref sig .tc)), r ∉ hostOps0_4_W := by decide

/-- `hostOps0_5` writes none of the program's arguments. -/
theorem hostOps0_5_args : ∀ r ∈ ([main_arg0, main_arg1, main_arg2, main_arg3, main_arg4, main_arg5, main_arg6, main_arg7, main_arg8, main_arg9] : List (Ref sig .tc)), r ∉ hostOps0_5_W := by decide
/-- `hostOps0_5` writes none of the values computed before it that a later item still reads. -/
theorem hostOps0_5_live : ∀ r ∈ ([main_v171, main_v172, main_v124, main_v127, main_v130, main_v131, main_v126, main_v128, main_v3] : List (Ref sig .tc)), r ∉ hostOps0_5_W := by decide

/-- `hostOps0_6` writes none of the program's arguments. -/
theorem hostOps0_6_args : ∀ r ∈ ([main_arg0, main_arg1, main_arg2, main_arg3, main_arg4, main_arg5, main_arg6, main_arg7, main_arg8, main_arg9] : List (Ref sig .tc)), r ∉ hostOps0_6_W := by decide
/-- `hostOps0_6` writes none of the values computed before it that a later item still reads. -/
theorem hostOps0_6_live : ∀ r ∈ ([main_v171, main_v172, main_v124, main_v127, main_v130, main_v131, main_v126, main_v128, main_v3] : List (Ref sig .tc)), r ∉ hostOps0_6_W := by decide

/-- `hostOps1` writes none of the program's arguments. -/
theorem hostOps1_args : ∀ r ∈ ([main_arg0, main_arg1, main_arg2, main_arg3, main_arg4, main_arg5, main_arg6, main_arg7, main_arg8, main_arg9] : List (Ref sig .tc)), r ∉ hostOps1_W := by decide
/-- `hostOps1` writes none of the values computed before it that a later item still reads. -/
theorem hostOps1_live : ∀ r ∈ ([main_v126, main_v128] : List (Ref sig .tc)), r ∉ hostOps1_W := by decide

/-- `hostOps1_1` writes none of the program's arguments. -/
theorem hostOps1_1_args : ∀ r ∈ ([main_arg0, main_arg1, main_arg2, main_arg3, main_arg4, main_arg5, main_arg6, main_arg7, main_arg8, main_arg9] : List (Ref sig .tc)), r ∉ hostOps1_1_W := by decide
/-- `hostOps1_1` writes none of the values computed before it that a later item still reads. -/
theorem hostOps1_1_live : ∀ r ∈ ([main_v126, main_v128, main_v179] : List (Ref sig .tc)), r ∉ hostOps1_1_W := by decide

/-- `hostOps1_2` writes none of the program's arguments. -/
theorem hostOps1_2_args : ∀ r ∈ ([main_arg0, main_arg1, main_arg2, main_arg3, main_arg4, main_arg5, main_arg6, main_arg7, main_arg8, main_arg9] : List (Ref sig .tc)), r ∉ hostOps1_2_W := by decide
/-- `hostOps1_2` writes none of the values computed before it that a later item still reads. -/
theorem hostOps1_2_live : ∀ r ∈ ([main_v126, main_v128, main_v179, main_v180] : List (Ref sig .tc)), r ∉ hostOps1_2_W := by decide

/-- `hostOps1_3` writes none of the program's arguments. -/
theorem hostOps1_3_args : ∀ r ∈ ([main_arg0, main_arg1, main_arg2, main_arg3, main_arg4, main_arg5, main_arg6, main_arg7, main_arg8, main_arg9] : List (Ref sig .tc)), r ∉ hostOps1_3_W := by decide
/-- `hostOps1_3` writes none of the values computed before it that a later item still reads. -/
theorem hostOps1_3_live : ∀ r ∈ ([main_v126, main_v128, main_v180] : List (Ref sig .tc)), r ∉ hostOps1_3_W := by decide

/-- `hostOps2` writes none of the program's arguments. -/
theorem hostOps2_args : ∀ r ∈ ([main_arg0, main_arg1, main_arg2, main_arg3, main_arg4, main_arg5, main_arg6, main_arg7, main_arg8, main_arg9] : List (Ref sig .tc)), r ∉ hostOps2_W := by decide

end Cert.Kernel.Hand

end
-- ==== Proof.RunB.lean ====
/-
  The kernel program's run, at any float instance: @main's fourteen items — twelve stretches of host operations and
  the two pallas_calls — composed from the launch to the return. Between two items a core holds every unscoped buffer
  at that boundary's contents (the launch memory folded through the items so far), beside the generator register and
  nothing owed. A region takes its windows' arrays out of the unscoped buffers, runs its pipeline, and puts them back at
  what the write-backs leave; a host stretch maps the contents through its operations. At the end every unscoped buffer
  is read back at the last boundary's contents: the arguments are among them, unchanged, and so is the result.
-/
import proofs.«164897_j31104153157801_1_alg».proof.Proof.DataB
import proofs.«164897_j31104153157801_1_alg».proof.Proof.Reg0B
import proofs.«164897_j31104153157801_1_alg».proof.Proof.Reg1B
import proofs.«164897_j31104153157801_1_alg».proof.Proof.HostFactsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit contents -/

theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

theorem W13_arr (c : Dev nD) (w : Fin cfg1.W) :
    W13 m ρ c (Proc.devRef .tc (Pipeline.arrRef spec1 w)) = (dat1 (V12 m ρ) c).arrAt w cfg1.N := by
  unfold W13; exact Pipeline.withArrays_arr spec1 launch1.win.arr_inj c _ _ w
theorem W13_of_ne (c : Dev nD) (b : Ref sig .tc) (hb : ∀ w, Pipeline.arrRef spec1 w ≠ b) :
    W13 m ρ c (Proc.devRef .tc b) = W12 m ρ c (Proc.devRef .tc b) := by
  unfold W13; exact Pipeline.withArrays_of_ne spec1 c _ _ b hb
abbrev V13 : (c : Dev nD) → (b : Ref sig .tc) → Buf (Elt F) ((c : Thread nD τ).loc b) := fun c b => W13 m ρ c b
theorem hF1 (c : Dev nD) (w : Fin cfg1.W) : (dat1 (V12 m ρ) c).arrAt w cfg1.N = V13 m ρ c (Pipeline.arrRef spec1 w) :=
  (W13_arr m ρ c w).symm
theorem hrest1 (c : Dev nD) : ∀ b, b ∉ Finset.univ.image (Pipeline.arrRef spec1) → V13 m ρ c b = V12 m ρ c b :=
  fun b hb => W13_of_ne m ρ c b fun w e => hb (Finset.mem_image.mpr ⟨w, Finset.mem_univ _, e⟩)

/-! ## The proof data family and what rides beside the buffers -/

abbrev adm : (p : Fin 2) → (pcfgs (F := F) p).Adm := fun p => (cfgs p).toPCfg_adm
/-- Each pipeline's proof data at its own region's entry contents. -/
def pdats : (p : Fin 2) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V12 m ρ) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W14 m ρ c) ∗ ∃ r, prngReg c r)

/-! ## The two pallas_calls as segments -/

set_option backward.isDefEq.respectTransparency.types false in
/-- Pallas_call 0 as a segment: entered with every unscoped buffer at the contents before it, left with its windows'
    arrays at what the pipeline's write-backs leave and every other buffer untouched. The generator register goes into
    the pipeline's invariant and comes back; the kernel has no semaphore of its own and owes nothing. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at the contents before it, left with its windows'
    arrays at what the pipeline's write-backs leave and every other buffer untouched. The generator register goes into
    the pipeline's invariant and comes back; the kernel has no semaphore of its own and owes nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V12 m ρ) c).loose
  hwaits := Pipeline.hwaits_of_owed_zero _ _ _ _ L lv 1 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec1 c (V12 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V12 m ρ c) (V13 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .host (hseg hostOps1_3 hostOps1_3_sub hostOps1_3_fresh (W11 m ρ)),
    .region (reg1 m ρ),
    .host (hseg hostOps2 hostOps2_sub hostOps2_fresh (W13 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in the final memory every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W14 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.Kernel.Hand

end
-- ==== Proof.TransportB.lean ====
/- The transport of each value along @main's boundaries, from where it is produced to where it is read.

   The contents at a boundary are the previous boundary's folded through one item. A host stretch leaves every
   reference it does not write as it was; a region leaves every reference that is none of its windows' arrays as it
   was, and its arrays at what the write-backs leave. So a value written by one item and read some items later is, at
   the reader, what the writer left, provided no item in between writes it: one step per item, chained. -/
import proofs.«164897_j31104153157801_1_alg».proof.Proof.RunB

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (ρ : Dev nD → PrngReg)

/-! ## One step: what an item leaves as it was -/

/-- A reference `hostOps0` does not write is at boundary 1 what it was at boundary 0. -/
theorem W1_of (c : Dev nD) (r : Ref sig .tc) (h : r ∉ hostOps0_W) :
    W1 m ρ c (Proc.devRef .tc r) = W0 m ρ c (Proc.devRef .tc r) :=
  hostOps0_keeps (W0 m ρ c) r h

/-- A reference `hostOps0_1` does not write is at boundary 2 what it was at boundary 1. -/
theorem W2_of (c : Dev nD) (r : Ref sig .tc) (h : r ∉ hostOps0_1_W) :
    W2 m ρ c (Proc.devRef .tc r) = W1 m ρ c (Proc.devRef .tc r) :=
  hostOps0_1_keeps (W1 m ρ c) r h

/-- A reference `hostOps0_2` does not write is at boundary 3 what it was at boundary 2. -/
theorem W3_of (c : Dev nD) (r : Ref sig .tc) (h : r ∉ hostOps0_2_W) :
    W3 m ρ c (Proc.devRef .tc r) = W2 m ρ c (Proc.devRef .tc r) :=
  hostOps0_2_keeps (W2 m ρ c) r h

/-- A reference `hostOps0_3` does not write is at boundary 4 what it was at boundary 3. -/
theorem W4_of (c : Dev nD) (r : Ref sig .tc) (h : r ∉ hostOps0_3_W) :
    W4 m ρ c (Proc.devRef .tc r) = W3 m ρ c (Proc.devRef .tc r) :=
  hostOps0_3_keeps (W3 m ρ c) r h

/-- A reference `hostOps0_4` does not write is at boundary 5 what it was at boundary 4. -/
theorem W5_of (c : Dev nD) (r : Ref sig .tc) (h : r ∉ hostOps0_4_W) :
    W5 m ρ c (Proc.devRef .tc r) = W4 m ρ c (Proc.devRef .tc r) :=
  hostOps0_4_keeps (W4 m ρ c) r h

/-- A reference `hostOps0_5` does not write is at boundary 6 what it was at boundary 5. -/
theorem W6_of (c : Dev nD) (r : Ref sig .tc) (h : r ∉ hostOps0_5_W) :
    W6 m ρ c (Proc.devRef .tc r) = W5 m ρ c (Proc.devRef .tc r) :=
  hostOps0_5_keeps (W5 m ρ c) r h

/-- A reference `hostOps0_6` does not write is at boundary 7 what it was at boundary 6. -/
theorem W7_of (c : Dev nD) (r : Ref sig .tc) (h : r ∉ hostOps0_6_W) :
    W7 m ρ c (Proc.devRef .tc r) = W6 m ρ c (Proc.devRef .tc r) :=
  hostOps0_6_keeps (W6 m ρ c) r h

/-- A reference `hostOps1` does not write is at boundary 9 what it was at boundary 8. -/
theorem W9_of (c : Dev nD) (r : Ref sig .tc) (h : r ∉ hostOps1_W) :
    W9 m ρ c (Proc.devRef .tc r) = W8 m ρ c (Proc.devRef .tc r) :=
  hostOps1_keeps (W8 m ρ c) r h

/-- A reference `hostOps1_1` does not write is at boundary 10 what it was at boundary 9. -/
theorem W10_of (c : Dev nD) (r : Ref sig .tc) (h : r ∉ hostOps1_1_W) :
    W10 m ρ c (Proc.devRef .tc r) = W9 m ρ c (Proc.devRef .tc r) :=
  hostOps1_1_keeps (W9 m ρ c) r h

/-- A reference `hostOps1_2` does not write is at boundary 11 what it was at boundary 10. -/
theorem W11_of (c : Dev nD) (r : Ref sig .tc) (h : r ∉ hostOps1_2_W) :
    W11 m ρ c (Proc.devRef .tc r) = W10 m ρ c (Proc.devRef .tc r) :=
  hostOps1_2_keeps (W10 m ρ c) r h

/-- A reference `hostOps1_3` does not write is at boundary 12 what it was at boundary 11. -/
theorem W12_of (c : Dev nD) (r : Ref sig .tc) (h : r ∉ hostOps1_3_W) :
    W12 m ρ c (Proc.devRef .tc r) = W11 m ρ c (Proc.devRef .tc r) :=
  hostOps1_3_keeps (W11 m ρ c) r h

/-- A reference `hostOps2` does not write is at boundary 14 what it was at boundary 13. -/
theorem W14_of (c : Dev nD) (r : Ref sig .tc) (h : r ∉ hostOps2_W) :
    W14 m ρ c (Proc.devRef .tc r) = W13 m ρ c (Proc.devRef .tc r) :=
  hostOps2_keeps (W13 m ρ c) r h

/-- The arrays of the first region's windows. -/
abbrev arrs0 : List (Ref sig .tc) := [main_v171, main_v172, main_v174, main_v124, main_v127, main_v130, main_v131, main_v175]
/-- The arrays of the second region's windows. -/
abbrev arrs1 : List (Ref sig .tc) := [main_v180, main_v181, main_v126, main_v128, main_v182]
/-- Every window of the first region has its array in the list. -/
theorem arrRef0_mem : ∀ w : Fin cfg0.W, Pipeline.arrRef spec0 w ∈ arrs0 := by decide
/-- Every window of the second region has its array in the list. -/
theorem arrRef1_mem : ∀ w : Fin cfg1.W, Pipeline.arrRef spec1 w ∈ arrs1 := by decide

/-- A reference that is no array of the first region's windows is at its exit what it was at its entry. -/
theorem W8_of (c : Dev nD) (r : Ref sig .tc) (h : r ∉ arrs0) :
    W8 m ρ c (Proc.devRef .tc r) = W7 m ρ c (Proc.devRef .tc r) :=
  W8_of_ne m ρ c r fun w e => h (e ▸ arrRef0_mem w)
/-- A reference that is no array of the second region's windows is at its exit what it was at its entry. -/
theorem W13_of (c : Dev nD) (r : Ref sig .tc) (h : r ∉ arrs1) :
    W13 m ρ c (Proc.devRef .tc r) = W12 m ρ c (Proc.devRef .tc r) :=
  W13_of_ne m ρ c r fun w e => h (e ▸ arrRef1_mem w)

/-! ## The arguments: as launched at every boundary -/

/-- The program's ten arguments. -/
abbrev argList : List (Ref sig .tc) := [main_arg0, main_arg1, main_arg2, main_arg3, main_arg4, main_arg5, main_arg6, main_arg7, main_arg8, main_arg9]
/-- No argument is among the first region's arrays, -/
theorem arrs0_args : ∀ r ∈ (argList : List (Ref sig .tc)), r ∉ arrs0 := by decide
/-- nor among the second's. -/
theorem arrs1_args : ∀ r ∈ (argList : List (Ref sig .tc)), r ∉ arrs1 := by decide

/-- At launch an argument holds the launch memory's contents. -/
theorem W0_arg (c : Dev nD) (r : Ref sig .tc) (hr : r ∈ argList) :
    W0 m ρ c (Proc.devRef .tc r) = m ((c : Thread nD τ).loc r) := rfl
theorem W1_arg (c : Dev nD) (r : Ref sig .tc) (hr : r ∈ argList) :
    W1 m ρ c (Proc.devRef .tc r) = m ((c : Thread nD τ).loc r) :=
  (W1_of m ρ c r (hostOps0_args r hr)).trans (W0_arg m ρ c r hr)
theorem W2_arg (c : Dev nD) (r : Ref sig .tc) (hr : r ∈ argList) :
    W2 m ρ c (Proc.devRef .tc r) = m ((c : Thread nD τ).loc r) :=
  (W2_of m ρ c r (hostOps0_1_args r hr)).trans (W1_arg m ρ c r hr)
theorem W3_arg (c : Dev nD) (r : Ref sig .tc) (hr : r ∈ argList) :
    W3 m ρ c (Proc.devRef .tc r) = m ((c : Thread nD τ).loc r) :=
  (W3_of m ρ c r (hostOps0_2_args r hr)).trans (W2_arg m ρ c r hr)
theorem W4_arg (c : Dev nD) (r : Ref sig .tc) (hr : r ∈ argList) :
    W4 m ρ c (Proc.devRef .tc r) = m ((c : Thread nD τ).loc r) :=
  (W4_of m ρ c r (hostOps0_3_args r hr)).trans (W3_arg m ρ c r hr)
theorem W5_arg (c : Dev nD) (r : Ref sig .tc) (hr : r ∈ argList) :
    W5 m ρ c (Proc.devRef .tc r) = m ((c : Thread nD τ).loc r) :=
  (W5_of m ρ c r (hostOps0_4_args r hr)).trans (W4_arg m ρ c r hr)
theorem W6_arg (c : Dev nD) (r : Ref sig .tc) (hr : r ∈ argList) :
    W6 m ρ c (Proc.devRef .tc r) = m ((c : Thread nD τ).loc r) :=
  (W6_of m ρ c r (hostOps0_5_args r hr)).trans (W5_arg m ρ c r hr)
theorem W7_arg (c : Dev nD) (r : Ref sig .tc) (hr : r ∈ argList) :
    W7 m ρ c (Proc.devRef .tc r) = m ((c : Thread nD τ).loc r) :=
  (W7_of m ρ c r (hostOps0_6_args r hr)).trans (W6_arg m ρ c r hr)
theorem W8_arg (c : Dev nD) (r : Ref sig .tc) (hr : r ∈ argList) :
    W8 m ρ c (Proc.devRef .tc r) = m ((c : Thread nD τ).loc r) :=
  (W8_of m ρ c r (arrs0_args r hr)).trans (W7_arg m ρ c r hr)
theorem W9_arg (c : Dev nD) (r : Ref sig .tc) (hr : r ∈ argList) :
    W9 m ρ c (Proc.devRef .tc r) = m ((c : Thread nD τ).loc r) :=
  (W9_of m ρ c r (hostOps1_args r hr)).trans (W8_arg m ρ c r hr)
theorem W10_arg (c : Dev nD) (r : Ref sig .tc) (hr : r ∈ argList) :
    W10 m ρ c (Proc.devRef .tc r) = m ((c : Thread nD τ).loc r) :=
  (W10_of m ρ c r (hostOps1_1_args r hr)).trans (W9_arg m ρ c r hr)
theorem W11_arg (c : Dev nD) (r : Ref sig .tc) (hr : r ∈ argList) :
    W11 m ρ c (Proc.devRef .tc r) = m ((c : Thread nD τ).loc r) :=
  (W11_of m ρ c r (hostOps1_2_args r hr)).trans (W10_arg m ρ c r hr)
theorem W12_arg (c : Dev nD) (r : Ref sig .tc) (hr : r ∈ argList) :
    W12 m ρ c (Proc.devRef .tc r) = m ((c : Thread nD τ).loc r) :=
  (W12_of m ρ c r (hostOps1_3_args r hr)).trans (W11_arg m ρ c r hr)
theorem W13_arg (c : Dev nD) (r : Ref sig .tc) (hr : r ∈ argList) :
    W13 m ρ c (Proc.devRef .tc r) = m ((c : Thread nD τ).loc r) :=
  (W13_of m ρ c r (arrs1_args r hr)).trans (W12_arg m ρ c r hr)
theorem W14_arg (c : Dev nD) (r : Ref sig .tc) (hr : r ∈ argList) :
    W14 m ρ c (Proc.devRef .tc r) = m ((c : Thread nD τ).loc r) :=
  (W14_of m ρ c r (hostOps2_args r hr)).trans (W13_arg m ρ c r hr)

/-! ## The first region's operands, back to their producers -/

/-- The references the six stretches between `hostOps0` and the first region write. -/
abbrev pads0_W : List (Ref sig .tc) :=
  hostOps0_1_W ++ hostOps0_2_W ++ hostOps0_3_W ++ hostOps0_4_W ++ hostOps0_5_W ++ hostOps0_6_W
/-- A reference none of the six writes is at the first region's entry what `hostOps0` left. -/
theorem W7_of_W1 (c : Dev nD) (r : Ref sig .tc) (h : r ∉ pads0_W) :
    W7 m ρ c (Proc.devRef .tc r) = W1 m ρ c (Proc.devRef .tc r) := by
  have h' : r ∉ hostOps0_1_W ∧ r ∉ hostOps0_2_W ∧ r ∉ hostOps0_3_W ∧ r ∉ hostOps0_4_W ∧ r ∉ hostOps0_5_W ∧ r ∉ hostOps0_6_W := by
    simpa only [pads0_W, List.mem_append, not_or, and_assoc] using h
  obtain ⟨h1, h2, h3, h4, h5, h6⟩ := h'
  exact (W7_of m ρ c r h6).trans <| (W6_of m ρ c r h5).trans <| (W5_of m ρ c r h4).trans <|
    (W4_of m ρ c r h3).trans <| (W3_of m ρ c r h2).trans (W2_of m ρ c r h1)

/-- The first padded operand, written by the first padding call, reaches the region as that call left it. -/
theorem W7_v171 (c : Dev nD) : W7 m ρ c (Proc.devRef .tc main_v171) = W2 m ρ c (Proc.devRef .tc main_v171) :=
  (W7_of m ρ c main_v171 (by decide)).trans <| (W6_of m ρ c main_v171 (by decide)).trans <|
    (W5_of m ρ c main_v171 (by decide)).trans <| (W4_of m ρ c main_v171 (by decide)).trans (W3_of m ρ c main_v171 (by decide))
/-- The second padded operand, written by the second padding call, reaches the region as that call left it. -/
theorem W7_v172 (c : Dev nD) : W7 m ρ c (Proc.devRef .tc main_v172) = W4 m ρ c (Proc.devRef .tc main_v172) :=
  (W7_of m ρ c main_v172 (by decide)).trans <| (W6_of m ρ c main_v172 (by decide)).trans (W5_of m ρ c main_v172 (by decide))
/-- The four operands `hostOps0` computes reach the region as `hostOps0` left them. -/
theorem W7_v124 (c : Dev nD) : W7 m ρ c (Proc.devRef .tc main_v124) = W1 m ρ c (Proc.devRef .tc main_v124) := W7_of_W1 m ρ c main_v124 (by decide)
theorem W7_v127 (c : Dev nD) : W7 m ρ c (Proc.devRef .tc main_v127) = W1 m ρ c (Proc.devRef .tc main_v127) := W7_of_W1 m ρ c main_v127 (by decide)
theorem W7_v130 (c : Dev nD) : W7 m ρ c (Proc.devRef .tc main_v130) = W1 m ρ c (Proc.devRef .tc main_v130) := W7_of_W1 m ρ c main_v130 (by decide)
theorem W7_v131 (c : Dev nD) : W7 m ρ c (Proc.devRef .tc main_v131) = W1 m ρ c (Proc.devRef .tc main_v131) := W7_of_W1 m ρ c main_v131 (by decide)

/-- What the third padding call pads is, when it runs, what `hostOps0` left. -/
theorem W5_v156 (c : Dev nD) : W5 m ρ c (Proc.devRef .tc main_v156) = W1 m ρ c (Proc.devRef .tc main_v156) :=
  (W5_of m ρ c main_v156 (by decide)).trans <| (W4_of m ρ c main_v156 (by decide)).trans <|
    (W3_of m ρ c main_v156 (by decide)).trans (W2_of m ρ c main_v156 (by decide))
/-- What the second padding call pads is, when it runs, what `hostOps0` left. -/
theorem W3_v170 (c : Dev nD) : W3 m ρ c (Proc.devRef .tc main_v170) = W1 m ρ c (Proc.devRef .tc main_v170) :=
  (W3_of m ρ c main_v170 (by decide)).trans (W2_of m ρ c main_v170 (by decide))

/-! ## Between the regions -/

/-- The first region's output array holds at its exit what the write-backs leave. -/
theorem W8_v175 (c : Dev nD) : W8 m ρ c (Proc.devRef .tc main_v175) = (dat0 (V7 m ρ) c).arrAt 7 cfg0.N :=
  W8_arr m ρ c 7
/-- The scatter-add's indices are, when it runs, what `hostOps0` left. -/
theorem W8_v3 (c : Dev nD) : W8 m ρ c (Proc.devRef .tc main_v3) = W1 m ρ c (Proc.devRef .tc main_v3) :=
  (W8_of m ρ c main_v3 (by decide)).trans (W7_of_W1 m ρ c main_v3 (by decide))
/-- What the last padding call pads is, when it runs, what the scatter-add left. -/
theorem W11_v179 (c : Dev nD) : W11 m ρ c (Proc.devRef .tc main_v179) = W9 m ρ c (Proc.devRef .tc main_v179) :=
  (W11_of m ρ c main_v179 (by decide)).trans (W10_of m ρ c main_v179 (by decide))
/-- What the fourth padding call pads is the first argument as launched. -/
theorem W9_arg0 (c : Dev nD) : W9 m ρ c (Proc.devRef .tc main_arg0) = m ((c : Thread nD τ).loc main_arg0) :=
  W9_arg m ρ c main_arg0 (by decide)

/-! ## The second region's operands, back to their producers -/

/-- The first padded operand, written by the fourth padding call, reaches the region as that call left it. -/
theorem W12_v180 (c : Dev nD) : W12 m ρ c (Proc.devRef .tc main_v180) = W10 m ρ c (Proc.devRef .tc main_v180) :=
  (W12_of m ρ c main_v180 (by decide)).trans (W11_of m ρ c main_v180 (by decide))
/-- The references the four stretches between the regions write. -/
abbrev mid_W : List (Ref sig .tc) := hostOps1_W ++ hostOps1_1_W ++ hostOps1_2_W ++ hostOps1_3_W
/-- A reference that no item from the first padding call to the second region's entry writes — none of the six
    stretches, no array of the first region, none of the four stretches — is at that entry what `hostOps0` left. -/
theorem W12_of_W1 (c : Dev nD) (r : Ref sig .tc) (h0 : r ∉ pads0_W) (ha : r ∉ arrs0) (h : r ∉ mid_W) :
    W12 m ρ c (Proc.devRef .tc r) = W1 m ρ c (Proc.devRef .tc r) := by
  have h' : r ∉ hostOps1_W ∧ r ∉ hostOps1_1_W ∧ r ∉ hostOps1_2_W ∧ r ∉ hostOps1_3_W := by
    simpa only [mid_W, List.mem_append, not_or, and_assoc] using h
  obtain ⟨h1, h2, h3, h4⟩ := h'
  exact (W12_of m ρ c r h4).trans <| (W11_of m ρ c r h3).trans <| (W10_of m ρ c r h2).trans <|
    (W9_of m ρ c r h1).trans <| (W8_of m ρ c r ha).trans (W7_of_W1 m ρ c r h0)
/-- The two operands `hostOps0` computes reach the second region as `hostOps0` left them. -/
theorem W12_v126 (c : Dev nD) : W12 m ρ c (Proc.devRef .tc main_v126) = W1 m ρ c (Proc.devRef .tc main_v126) :=
  W12_of_W1 m ρ c main_v126 (by decide) (by decide) (by decide)
theorem W12_v128 (c : Dev nD) : W12 m ρ c (Proc.devRef .tc main_v128) = W1 m ρ c (Proc.devRef .tc main_v128) :=
  W12_of_W1 m ρ c main_v128 (by decide) (by decide) (by decide)

/-! ## The result -/

/-- The second region's output array holds at its exit what the write-backs leave. -/
theorem W13_v182 (c : Dev nD) : W13 m ρ c (Proc.devRef .tc main_v182) = (dat1 (V12 m ρ) c).arrAt 4 cfg1.N :=
  W13_arr m ρ c 4

end Cert.Kernel.Hand

end
-- ==== Proof.RVal0.lean ====
/-
  The reference layer as named stages of its ten argument arrays.

  A message-passing layer over hypercomplex features: node features h : [N, 256] and relation embeddings rel : [R, 256]
  are read as [.., 64, 4] (channel c, blade b, from flat position 64 b + c); each edge e multiplies the source node's
  features with its relation's, applies a Clifford-linear map (a 256 x 256 matrix assembled from four 64 x 64 slices
  with signs), scales by a sigmoid gate of the relation and by a degree normalisation, and the messages are summed
  into their destination nodes; a second Clifford-linear map of h + aggregate gives the result.
  Each stage below is one mathematical object; the composed term of the stages is the run's result term.
-/
import proofs.«164897_j31104153157801_1_alg».proof.Proof.Gen.ReferenceIdeal.Run
import Idealize.ShloMosaic.Lib.ValueIdx

noncomputable section

namespace Cert.ReferenceIdeal.HandVal

open Cert.ReferenceIdeal Cert.ReferenceIdeal.Gen Idealize.ShloMosaic Idealize.ShloMosaic.TcCoe Idealize.SL.Sem Idealize.ShloMosaic.StableHlo

/-! ## The Clifford kernel matrix of a weight [4, 64, 64] -/

/-- Slice k of the weight as a 64 x 64 matrix. -/
def wsl0 (w : FVec Ideal S4x64x64 .f32) : FVec Ideal S64x64 .f32 :=
  shapeCast _ (extractStridedSlice S1x64x64 ![0, 0, 0] w slices_S4x64x64_S1x64x64_0_0_0) shapeCasts_S1x64x64_S64x64
def wsl1 (w : FVec Ideal S4x64x64 .f32) : FVec Ideal S64x64 .f32 :=
  shapeCast _ (extractStridedSlice S1x64x64 ![1, 0, 0] w slices_S4x64x64_S1x64x64_1_0_0) shapeCasts_S1x64x64_S64x64
def wsl2 (w : FVec Ideal S4x64x64 .f32) : FVec Ideal S64x64 .f32 :=
  shapeCast _ (extractStridedSlice S1x64x64 ![2, 0, 0] w slices_S4x64x64_S1x64x64_2_0_0) shapeCasts_S1x64x64_S64x64
def wsl3 (w : FVec Ideal S4x64x64 .f32) : FVec Ideal S64x64 .f32 :=
  shapeCast _ (extractStridedSlice S1x64x64 ![3, 0, 0] w slices_S4x64x64_S1x64x64_3_0_0) shapeCasts_S1x64x64_S64x64

/-- A 64 x 64 block times the metric sign +1. -/
def posB (x : FVec Ideal S64x64 .f32) : FVec Ideal S64x64 .f32 :=
  mulf (broadcastInDim S64x64 ![] bcast_S_S64x64 (constant (F := Ideal) S_ .f32 0x3F800000#32)) x
/-- A 64 x 64 block times the sign -1. -/
def negB (x : FVec Ideal S64x64 .f32) : FVec Ideal S64x64 .f32 :=
  mulf (broadcastInDim S64x64 ![] bcast_S_S64x64 (constant (F := Ideal) S_ .f32 0xBF800000#32)) x

/-- Four 64 x 64 blocks side by side. -/
def catRow (a b c d : FVec Ideal S64x64 .f32) : FVec Ideal S64x256 .f32 :=
  concatenate S64x256 1 [⟨S64x64, a⟩, ⟨S64x64, b⟩, ⟨S64x64, c⟩, ⟨S64x64, d⟩] concatenates_S64x64_S64x64_S64x64_S64x64_S64x256_d1

/-- The 256 x 256 Clifford kernel matrix of signature (1, 1): block row p, block column q holds ± slice (p xor q). -/
def cliffordOf (w : FVec Ideal S4x64x64 .f32) : FVec Ideal S256x256 .f32 :=
  concatenate S256x256 0
    [⟨S64x256, catRow (wsl0 w) (posB (wsl1 w)) (posB (wsl2 w)) (negB (wsl3 w))⟩,
     ⟨S64x256, catRow (wsl1 w) (wsl0 w) (negB (wsl3 w)) (posB (wsl2 w))⟩,
     ⟨S64x256, catRow (wsl2 w) (posB (wsl3 w)) (wsl0 w) (negB (wsl1 w))⟩,
     ⟨S64x256, catRow (wsl3 w) (wsl2 w) (wsl1 w) (wsl0 w)⟩]
    concatenates_S64x256_S64x256_S64x256_S64x256_S256x256_d0

/-! ## Re-layouts, index lists and gathers -/

/-- Node features as [N, channel, blade]. -/
def hcN (h : FVec Ideal S100000x256 .f32) : FVec Ideal S100000x64x4 .f32 :=
  transpose S100000x64x4 [0, 2, 1] (shapeCast _ h shapeCasts_S100000x256_S100000x4x64) transposes_S100000x4x64_S100000x64x4_0_2_1
/-- Relation embeddings as [R, channel, blade]. -/
def hcR (rel : FVec Ideal S500x256 .f32) : FVec Ideal S500x64x4 .f32 :=
  transpose S500x64x4 [0, 2, 1] (shapeCast _ rel shapeCasts_S500x256_S500x4x64) transposes_S500x4x64_S500x64x4_0_2_1
/-- The source node of each edge. -/
def srcOf (ei : IVec S2x600000 32) : IVec S600000 32 :=
  shapeCast _ (extractStridedSlice S1x600000 ![0, 0] ei slices_S2x600000_S1x600000_0_0) shapeCasts_S1x600000_S600000
/-- The destination node of each edge. -/
def dstOf (ei : IVec S2x600000 32) : IVec S600000 32 :=
  shapeCast _ (extractStridedSlice S1x600000 ![1, 0] ei slices_S2x600000_S1x600000_1_0) shapeCasts_S1x600000_S600000
/-- A node index with a negative one counted from the end. -/
def fixN (x : IVec S600000 32) : IVec S600000 32 :=
  select (cmpi .slt x (broadcastInDim S600000 ![] bcast_S_S600000 (constantI S_ 32 0#32)))
    (addi x (broadcastInDim S600000 ![] bcast_S_S600000 (constantI S_ 32 100000#32))) x
/-- A relation index with a negative one counted from the end. -/
def fixR (x : IVec S600000 32) : IVec S600000 32 :=
  select (cmpi .slt x (broadcastInDim S600000 ![] bcast_S_S600000 (constantI S_ 32 0#32)))
    (addi x (broadcastInDim S600000 ![] bcast_S_S600000 (constantI S_ 32 500#32))) x
/-- An index list as a one-column array. -/
def colOf (x : IVec S600000 32) : IVec S600000x1 32 := broadcastInDim S600000x1 ![0] bcast_S600000_S600000x1_0 x

/-- The source node's features of each edge. -/
def hsrcOf (h : FVec Ideal S100000x256 .f32) (ei : IVec S2x600000 32) : FVec Ideal S600000x64x4 .f32 :=
  Host.gather gather_S100000x64x4_S600000x1_S600000x64x4_12_0_n_n_0_1_1644 (hcN h) (colOf (fixN (srcOf ei)))
/-- The relation's embedding of each edge. -/
def ruvOf (rel : FVec Ideal S500x256 .f32) (et : IVec S600000 32) : FVec Ideal S600000x64x4 .f32 :=
  Host.gather gather_S500x64x4_S600000x1_S600000x64x4_12_0_n_n_0_1_1644 (hcR rel) (colOf (fixR et))

/-! ## The message -/

/-- The first Clifford-linear map's product, rows of 256 blade-major numbers. -/
def lin1Of (h : FVec Ideal S100000x256 .f32) (ei : IVec S2x600000 32) (et : IVec S600000 32) (rel : FVec Ideal S500x256 .f32)
    (mw : FVec Ideal S4x64x64 .f32) : FVec Ideal S600000x256 .f32 :=
  Host.dotGeneral dot_S600000x256_S256x256_S600000x256_1_0_0_1_n_n none
    (shapeCast _ (transpose S600000x4x64 [0, 2, 1] (mulf (hsrcOf h ei) (ruvOf rel et)) transposes_S600000x64x4_S600000x4x64_0_2_1) shapeCasts_S600000x4x64_S600000x256)
    (transpose S256x256 [1, 0] (cliffordOf mw) transposes_S256x256_S256x256_1_0)

/-- The linear map plus its bias, back as [E, channel, blade]. -/
def msg0Of (h : FVec Ideal S100000x256 .f32) (ei : IVec S2x600000 32) (et : IVec S600000 32) (rel : FVec Ideal S500x256 .f32)
    (mw : FVec Ideal S4x64x64 .f32) (mb : FVec Ideal S4x64 .f32) : FVec Ideal S600000x64x4 .f32 :=
  transpose S600000x64x4 [0, 2, 1]
    (shapeCast _ (addf (lin1Of h ei et rel mw)
      (broadcastInDim S600000x256 ![0, 1] bcast_S1x256_S600000x256_0_1 (broadcastInDim S1x256 ![1] bcast_S256_S1x256_1 (shapeCast _ mb shapeCasts_S4x64_S256))))
      shapeCasts_S600000x256_S600000x4x64) transposes_S600000x4x64_S600000x64x4_0_2_1

/-- The gate of each edge: the logistic function of its relation's embedding against the gate weights, plus the gate bias. -/
def gateOf (et : IVec S600000 32) (rel : FVec Ideal S500x256 .f32) (gw : FVec Ideal S1x256 .f32) (gb : FVec Ideal S1 .f32) :
    FVec Ideal S600000x1 .f32 :=
  Host.divf (broadcastInDim S600000x1 ![] bcast_S_S600000x1 (constant (F := Ideal) S_ .f32 0x3F800000#32))
    (addf (broadcastInDim S600000x1 ![] bcast_S_S600000x1 (constant (F := Ideal) S_ .f32 0x3F800000#32))
      (Host.exp (Host.negf (addf
        (Host.dotGeneral dot_S600000x256_S256x1_S600000x1_1_0_0_1_n_n none (shapeCast _ (ruvOf rel et) shapeCasts_S600000x64x4_S600000x256)
          (transpose S256x1 [1, 0] gw transposes_S1x256_S256x1_1_0))
        (broadcastInDim S600000x1 ![0, 1] bcast_S1x1_S600000x1_0_1 (broadcastInDim S1x1 ![1] bcast_S1_S1x1_1 gb))))))

/-- The all-ones edge weights. -/
def onesE : FVec Ideal S600000 .f32 := broadcastInDim S600000 ![] bcast_S_S600000 (constant (F := Ideal) S_ .f32 0x3F800000#32)
/-- How many edges name each node in an index list. -/
def degOf (idx : IVec S600000 32) : FVec Ideal S100000 .f32 :=
  Host.scatterAdd scatter_S100000_S600000x1_S600000_n_0_0_1
    (broadcastInDim S100000 ![] bcast_S_S100000 (constant (F := Ideal) S_ .f32 0x00000000#32)) (colOf idx) onesE
/-- A degree list read at each edge's node. -/
def gdegOf (d : FVec Ideal S100000 .f32) (idx : IVec S600000 32) : FVec Ideal S600000 .f32 :=
  Host.gather gather_S100000_S600000x1_S600000_n_0_n_n_0_1_1 d (colOf (fixN idx))
/-- The degree normalisation of each edge: (max (deg_src[src] deg_dst[dst]) 1) to the power -1/2. -/
def normOf (ei : IVec S2x600000 32) : FVec Ideal S600000 .f32 :=
  Host.powf
    (maximumf (mulf (gdegOf (degOf (srcOf ei)) (srcOf ei)) (gdegOf (degOf (dstOf ei)) (dstOf ei)))
      (broadcastInDim S600000 ![] bcast_S_S600000 (constant (F := Ideal) S_ .f32 0x3F800000#32)))
    (broadcastInDim S600000 ![] bcast_S_S600000 (constant (F := Ideal) S_ .f32 0xBF000000#32))

/-- The message of each edge: the linear map's value, gated and normalised. -/
def msgOf (h : FVec Ideal S100000x256 .f32) (ei : IVec S2x600000 32) (et : IVec S600000 32) (rel : FVec Ideal S500x256 .f32)
    (mw : FVec Ideal S4x64x64 .f32) (mb : FVec Ideal S4x64 .f32) (gw : FVec Ideal S1x256 .f32) (gb : FVec Ideal S1 .f32) :
    FVec Ideal S600000x64x4 .f32 :=
  mulf (mulf (msg0Of h ei et rel mw mb)
      (broadcastInDim S600000x64x4 ![0, 1, 2] bcast_S600000x1x1_S600000x64x4_0_1_2
        (broadcastInDim S600000x1x1 ![0, 1] bcast_S600000x1_S600000x1x1_0_1 (gateOf et rel gw gb))))
    (broadcastInDim S600000x64x4 ![0, 1, 2] bcast_S600000x1x1_S600000x64x4_0_1_2
      (broadcastInDim S600000x1x1 ![0] bcast_S600000_S600000x1x1_0 (normOf ei)))

/-! ## Aggregation and update -/

/-- The messages summed into their destination nodes. -/
def aggOf (h : FVec Ideal S100000x256 .f32) (ei : IVec S2x600000 32) (et : IVec S600000 32) (rel : FVec Ideal S500x256 .f32)
    (mw : FVec Ideal S4x64x64 .f32) (mb : FVec Ideal S4x64 .f32) (gw : FVec Ideal S1x256 .f32) (gb : FVec Ideal S1 .f32) :
    FVec Ideal S100000x64x4 .f32 :=
  Host.scatterAdd scatter_S100000x64x4_S600000x1_S600000x64x4_12_0_0_1
    (broadcastInDim S100000x64x4 ![] bcast_S_S100000x64x4 (constant (F := Ideal) S_ .f32 0x00000000#32)) (colOf (dstOf ei))
    (msgOf h ei et rel mw mb gw gb)

/-- The second Clifford-linear map's product. -/
def lin2Of (h : FVec Ideal S100000x256 .f32) (agg : FVec Ideal S100000x64x4 .f32) (uw : FVec Ideal S4x64x64 .f32) :
    FVec Ideal S100000x256 .f32 :=
  Host.dotGeneral dot_S100000x256_S256x256_S100000x256_1_0_0_1_n_n none
    (shapeCast _ (transpose S100000x4x64 [0, 2, 1] (addf (hcN h) agg) transposes_S100000x64x4_S100000x4x64_0_2_1) shapeCasts_S100000x4x64_S100000x256)
    (transpose S256x256 [1, 0] (cliffordOf uw) transposes_S256x256_S256x256_1_0)

/-- The update: the second map plus its bias as [N, channel, blade], flattened channel-major. -/
def outOf (h : FVec Ideal S100000x256 .f32) (agg : FVec Ideal S100000x64x4 .f32) (uw : FVec Ideal S4x64x64 .f32)
    (ub : FVec Ideal S4x64 .f32) : FVec Ideal S100000x256 .f32 :=
  shapeCast _ (transpose S100000x64x4 [0, 2, 1]
    (shapeCast _ (addf (lin2Of h agg uw)
      (broadcastInDim S100000x256 ![0, 1] bcast_S1x256_S100000x256_0_1 (broadcastInDim S1x256 ![1] bcast_S256_S1x256_1 (shapeCast _ ub shapeCasts_S4x64_S256))))
      shapeCasts_S100000x256_S100000x4x64) transposes_S100000x4x64_S100000x64x4_0_2_1) shapeCasts_S100000x64x4_S100000x256

/-- The reference's result as a function of its ten argument arrays. -/
def rvalOf (h : FVec Ideal S100000x256 .f32) (ei : IVec S2x600000 32) (et : IVec S600000 32) (rel : FVec Ideal S500x256 .f32)
    (mw : FVec Ideal S4x64x64 .f32) (mb : FVec Ideal S4x64 .f32) (uw : FVec Ideal S4x64x64 .f32) (ub : FVec Ideal S4x64 .f32)
    (gw : FVec Ideal S1x256 .f32) (gb : FVec Ideal S1 .f32) : FVec Ideal S100000x256 .f32 :=
  outOf h (aggOf h ei et rel mw mb gw gb) uw ub

/-- The result term of the reference's run, over the launch contents. -/
def refTerm (V0 : Valuation τ sig (Elt Ideal)) : (Proc.devRef .tc main_v193 : DevRef τ sig).ty.Contents (Elt Ideal) :=
  shapeCast _ (transpose S100000x64x4 [0, 2, 1] (shapeCast _ (addf (Value.res_main_v186 V0) (broadcastInDim S100000x256 ![0, 1] bcast_S1x256_S100000x256_0_1 (broadcastInDim S1x256 ![1] bcast_S256_S1x256_1 (shapeCast _ (V0 (Proc.devRef .tc main_arg7)) shapeCasts_S4x64_S256)))) shapeCasts_S100000x256_S100000x4x64) transposes_S100000x4x64_S100000x64x4_0_2_1) shapeCasts_S100000x64x4_S100000x256

set_option maxRecDepth 8192 in
/-- The run's result term is the stages' composition at the launch contents of the arguments. -/
theorem ref_value (V0 : Valuation τ sig (Elt Ideal)) :
    refTerm V0 = rvalOf (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8))
      (V0 (Proc.devRef .tc main_arg9)) := by
  rfl

end Cert.ReferenceIdeal.HandVal

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«164897_j31104153157801_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.Reg0Pay.lean ====
/-
  The message kernel's arithmetic at one entry of a block.

  On a block of 2048 edges the body forms, per edge `p` and output feature `q`, the message
  `Σ n, (hs (p, n) * ru (p, n)) * k (n, q) + b (0, q)` — the product of the gathered node features and the gathered
  relation embeddings through the transposed message matrix, plus its bias — and scales it by the edge's gate times its
  norm, `logistic (Σ n, ru (p, n) * g (n, 0) + gb (0, 0)) * nm (p, 0)`. Over the extended reals the two roundings to
  bf16 on the way into the matrix products are the identity, so the entry is exactly that expression.
-/
import proofs.«164897_j31104153157801_1_alg».proof.Proof.Gen.KernelIdeal.Skeleton
import proofs.«164897_j31104153157801_1_alg».proof.Proof.LibDenseLayer
import Idealize.ShloMosaic.Lib.Pipeline.Value

noncomputable section

namespace Cert.KernelIdeal.HandVal

open Cert.KernelIdeal Cert.KernelIdeal.Gen
open Idealize.ShloMosaic Idealize.ShloMosaic.ValueIdx Idealize.ShloMosaic.DenseBlock Idealize.ShloMosaic.DenseLayer

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The gate's squashing function, entry by entry. -/
theorem logistic_apply {s : Shape} {φ : FTy} (x : FVec Ideal s φ) (i : s.Idx) : logistic x i = Ideal.logistic (x i) := rfl

/-- The two products' dimension numbers are the plain `[K, N] · [N, Q]` ones. -/
theorem dims_msg : dot_S2048x256_S256x256_S2048x256_1_0_0_1_n_n
    = mmDims 2048 256 256 dot_S2048x256_S256x256_S2048x256_1_0_0_1_n_n_wf := rfl
theorem dims_gate : dot_S2048x256_S256x1_S2048x1_1_0_0_1_n_n
    = mmDims 2048 256 1 dot_S2048x256_S256x1_S2048x1_1_0_0_1_n_n_wf := rfl

/-- The body's stored value at edge `p` of the block and feature `q`. -/
theorem pay_apply (hs ru : Vec Ideal S2048x256 .f32) (k : Vec Ideal S256x256 .bf16) (b : Vec Ideal S1x256 .f32)
    (g : Vec Ideal S256x1 .bf16) (gb : Vec Ideal S1x1 .f32) (nm : Vec Ideal S2048x1 .f32) (p : Fin 2048) (q : Fin 256) :
    k0_pay1 hs ru k b g gb nm (ix2 p q)
      = ((∑ n : Fin 256, (hs (ix2 p n) * ru (ix2 p n)) * k (ix2 n q)) + b (ix2 (0 : Fin 1) q))
        * (Ideal.logistic ((∑ n : Fin 256, ru (ix2 p n) * g (ix2 n (0 : Fin 1))) + gb (ix2 (0 : Fin 1) (0 : Fin 1)))
            * nm (ix2 p (0 : Fin 1))) := by
  unfold k0_pay1
  simp only [shapeCast_self, dims_msg, dims_gate]
  rw [mulf_apply, affine_apply, broadcastTo_a1_ab_apply, mulf_apply, logistic_apply, affine_apply]
  rfl

end Cert.KernelIdeal.HandVal

end
-- ==== Proof.Reg0Blk.lean ====
/-
  The message kernel's blocks inside its arrays.

  The kernel walks 293 blocks of 2048 edges: at point `t` the three edge windows and the output sit on rows
  `t * 2048 … t * 2048 + 2047` of their arrays, the four weight windows on the whole of theirs. Hence an index of a
  block is an index of its array, edge `e` of the output is in the block of point `e / 2048`, and the blocks cover
  the output array. Also here: the message of an edge at a feature, and the array of all messages.
-/
import proofs.«164897_j31104153157801_1_alg».proof.Proof.Reg0
import proofs.«164897_j31104153157801_1_alg».proof.Proof.Reg0Pay

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The messages -/

/-- The message of edge `e` at feature `q`. -/
def msgAt (hs ru : S600064x256.Idx → EReal) (nm : S600064x1.Idx → EReal) (k1t : S256x256.Idx → EReal)
    (b1 : S1x256.Idx → EReal) (gw : S256x1.Idx → EReal) (gb : S1x1.Idx → EReal) (e : Fin 600064) (q : Fin 256) : EReal :=
  ((∑ n : Fin 256, (hs (ix2 e n) * ru (ix2 e n)) * k1t (ix2 n q)) + b1 (ix2 (0 : Fin 1) q))
    * (Ideal.logistic ((∑ n : Fin 256, ru (ix2 e n) * gw (ix2 n (0 : Fin 1))) + gb (ix2 (0 : Fin 1) (0 : Fin 1)))
        * nm (ix2 e (0 : Fin 1)))

/-- The array of all messages. -/
def msgs (hs ru : S600064x256.Idx → EReal) (nm : S600064x1.Idx → EReal) (k1t : S256x256.Idx → EReal)
    (b1 : S1x256.Idx → EReal) (gw : S256x1.Idx → EReal) (gb : S1x1.Idx → EReal) : S600064x256.Idx → EReal :=
  fun i => msgAt hs ru nm k1t b1 gw gb (i 0) (i 1)

/-! ## Where each block sits in its array -/

theorem hz : (![0, 0] : Fin 2 → Nat) = fun _ => 0 := funext fun a => by fin_cases a <;> rfl

/-- The block index of each window at each grid point: the three edge windows and the output walk the blocks in
    order, the four weight windows stay on their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Edge `p` of block `t`. -/
def edgeOf (t : Fin cfg0.N) (p : Fin 2048) : Fin 600064 :=
  ⟨t.val * 2048 + p.val, by have ht : t.val < 293 := t.isLt; have hp := p.isLt; omega⟩

theorem emb0_0 (t : Fin cfg0.N) (p : Fin 2048) (n : Fin 256) :
    ((cfg0.win 0).blk t).view.emb (ix2 p n) = ix2 (edgeOf t p) n := by
  obtain ⟨e0, e1, -⟩ := idx_facts0 t
  funext a; apply Fin.ext
  match a with
  | ⟨0, _⟩ => show win0_0.index t (0 : Fin 2) * 2048 + 1 * p.val = t.val * 2048 + p.val; omega
  | ⟨1, _⟩ => show win0_0.index t (1 : Fin 2) * 256 + 1 * n.val = n.val; omega

theorem emb0_1 (t : Fin cfg0.N) (p : Fin 2048) (n : Fin 256) :
    ((cfg0.win 1).blk t).view.emb (ix2 p n) = ix2 (edgeOf t p) n := by
  obtain ⟨-, -, e0, e1, -⟩ := idx_facts0 t
  funext a; apply Fin.ext
  match a with
  | ⟨0, _⟩ => show win0_1.index t (0 : Fin 2) * 2048 + 1 * p.val = t.val * 2048 + p.val; omega
  | ⟨1, _⟩ => show win0_1.index t (1 : Fin 2) * 256 + 1 * n.val = n.val; omega

theorem emb0_2 (t : Fin cfg0.N) (p : Fin 2048) (z : Fin 1) :
    ((cfg0.win 2).blk t).view.emb (ix2 p z) = ix2 (edgeOf t p) z := by
  obtain ⟨-, -, -, -, e0, e1, -⟩ := idx_facts0 t
  funext a; apply Fin.ext
  match a with
  | ⟨0, _⟩ => show win0_2.index t (0 : Fin 2) * 2048 + 1 * p.val = t.val * 2048 + p.val; omega
  | ⟨1, _⟩ => show win0_2.index t (1 : Fin 2) * 1 + 1 * z.val = z.val; omega

theorem emb0_3 (t : Fin cfg0.N) (n : Fin 256) (q : Fin 256) :
    ((cfg0.win 3).blk t).view.emb (ix2 n q) = ix2 n q := by
  obtain ⟨-, -, -, -, -, -, e0, e1, -⟩ := idx_facts0 t
  funext a; apply Fin.ext
  match a with
  | ⟨0, _⟩ => show win0_3.index t (0 : Fin 2) * 256 + 1 * n.val = n.val; omega
  | ⟨1, _⟩ => show win0_3.index t (1 : Fin 2) * 256 + 1 * q.val = q.val; omega

theorem emb0_4 (t : Fin cfg0.N) (z : Fin 1) (q : Fin 256) :
    ((cfg0.win 4).blk t).view.emb (ix2 z q) = ix2 z q := by
  obtain ⟨-, -, -, -, -, -, -, -, e0, e1, -⟩ := idx_facts0 t
  funext a; apply Fin.ext
  match a with
  | ⟨0, _⟩ => show win0_4.index t (0 : Fin 2) * 1 + 1 * z.val = z.val; omega
  | ⟨1, _⟩ => show win0_4.index t (1 : Fin 2) * 256 + 1 * q.val = q.val; omega

theorem emb0_5 (t : Fin cfg0.N) (n : Fin 256) (z : Fin 1) :
    ((cfg0.win 5).blk t).view.emb (ix2 n z) = ix2 n z := by
  obtain ⟨-, -, -, -, -, -, -, -, -, -, e0, e1, -⟩ := idx_facts0 t
  funext a; apply Fin.ext
  match a with
  | ⟨0, _⟩ => show win0_5.index t (0 : Fin 2) * 256 + 1 * n.val = n.val; omega
  | ⟨1, _⟩ => show win0_5.index t (1 : Fin 2) * 1 + 1 * z.val = z.val; omega

theorem emb0_6 (t : Fin cfg0.N) (z z' : Fin 1) :
    ((cfg0.win 6).blk t).view.emb (ix2 z z') = ix2 z z' := by
  obtain ⟨-, -, -, -, -, -, -, -, -, -, -, -, e0, e1, -⟩ := idx_facts0 t
  funext a; apply Fin.ext
  match a with
  | ⟨0, _⟩ => show win0_6.index t (0 : Fin 2) * 1 + 1 * z.val = z.val; omega
  | ⟨1, _⟩ => show win0_6.index t (1 : Fin 2) * 1 + 1 * z'.val = z'.val; omega

theorem emb0_7 (t : Fin cfg0.N) (p : Fin 2048) (q : Fin 256) :
    ((cfg0.win 7).blk t).view.emb (ix2 p q) = ix2 (edgeOf t p) q := by
  obtain ⟨-, -, -, -, -, -, -, -, -, -, -, -, -, -, e0, e1⟩ := idx_facts0 t
  funext a; apply Fin.ext
  match a with
  | ⟨0, _⟩ => show win0_7.index t (0 : Fin 2) * 2048 + 1 * p.val = t.val * 2048 + p.val; omega
  | ⟨1, _⟩ => show win0_7.index t (1 : Fin 2) * 256 + 1 * q.val = q.val; omega

section Regions

variable (V : (c : Dev nD) → (b : Ref sig .tc) → Buf (Elt Ideal) ((c : Thread nD τ).loc b))

/-! ## A block read at an index is its array read at the edge -/

theorem iblk0_0_apply (c : Dev nD) (t : Fin cfg0.N) (p : Fin 2048) (n : Fin 256) :
    iblk0 V c 0 t (ix2 p n) = V c (Pipeline.arrRef spec0 0) (ix2 (edgeOf t p) n) := by
  show V c (Pipeline.arrRef spec0 0) (((cfg0.win 0).blk t).view.emb (ix2 p n)) = _
  rw [emb0_0]
theorem iblk0_1_apply (c : Dev nD) (t : Fin cfg0.N) (p : Fin 2048) (n : Fin 256) :
    iblk0 V c 1 t (ix2 p n) = V c (Pipeline.arrRef spec0 1) (ix2 (edgeOf t p) n) := by
  show V c (Pipeline.arrRef spec0 1) (((cfg0.win 1).blk t).view.emb (ix2 p n)) = _
  rw [emb0_1]
theorem iblk0_2_apply (c : Dev nD) (t : Fin cfg0.N) (p : Fin 2048) (z : Fin 1) :
    iblk0 V c 2 t (ix2 p z) = V c (Pipeline.arrRef spec0 2) (ix2 (edgeOf t p) z) := by
  show V c (Pipeline.arrRef spec0 2) (((cfg0.win 2).blk t).view.emb (ix2 p z)) = _
  rw [emb0_2]
theorem iblk0_3_apply (c : Dev nD) (t : Fin cfg0.N) (n : Fin 256) (q : Fin 256) :
    iblk0 V c 3 t (ix2 n q) = V c (Pipeline.arrRef spec0 3) (ix2 n q) := by
  show V c (Pipeline.arrRef spec0 3) (((cfg0.win 3).blk t).view.emb (ix2 n q)) = _
  rw [emb0_3]
theorem iblk0_4_apply (c : Dev nD) (t : Fin cfg0.N) (z : Fin 1) (q : Fin 256) :
    iblk0 V c 4 t (ix2 z q) = V c (Pipeline.arrRef spec0 4) (ix2 z q) := by
  show V c (Pipeline.arrRef spec0 4) (((cfg0.win 4).blk t).view.emb (ix2 z q)) = _
  rw [emb0_4]
theorem iblk0_5_apply (c : Dev nD) (t : Fin cfg0.N) (n : Fin 256) (z : Fin 1) :
    iblk0 V c 5 t (ix2 n z) = V c (Pipeline.arrRef spec0 5) (ix2 n z) := by
  show V c (Pipeline.arrRef spec0 5) (((cfg0.win 5).blk t).view.emb (ix2 n z)) = _
  rw [emb0_5]
theorem iblk0_6_apply (c : Dev nD) (t : Fin cfg0.N) (z z' : Fin 1) :
    iblk0 V c 6 t (ix2 z z') = V c (Pipeline.arrRef spec0 6) (ix2 z z') := by
  show V c (Pipeline.arrRef spec0 6) (((cfg0.win 6).blk t).view.emb (ix2 z z')) = _
  rw [emb0_6]

/-! ## The blocks cover the array -/

/-- An index of the output array is in point `t`'s block iff each coordinate is in the block's range on its axis. -/
theorem mem_blk0_7 (t : Fin cfg0.N) (i : S600064x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v175).slice (win0_7.rect t)).set ↔ _
  rw [View.set_slice_whole, Rect.mem_set_unit]
  exact Iff.rfl

/-- Edge `e` is written by point `e / 2048`. -/
theorem cover0 (i : S600064x256.Idx) :
    ∃ t : Fin cfg0.N, (cfg0.win 7).flush t = true ∧ i ∈ ((cfg0.win 7).blk t).view.set := by
  have hi0 : (i 0).val < 600064 := (i 0).isLt
  have hi1 : (i 1).val < 256 := (i 1).isLt
  have hlt : (i 0).val / 2048 < cfg0.N := by show _ < 293; omega
  obtain ⟨-, -, -, -, -, -, -, -, -, -, -, -, -, -, e0, e1⟩ := idx_facts0 ⟨(i 0).val / 2048, hlt⟩
  refine ⟨⟨(i 0).val / 2048, hlt⟩, flush0_7 _, ?_⟩
  rw [mem_blk0_7]
  intro a
  match a with
  | ⟨0, _⟩ =>
    show win0_7.index ⟨(i 0).val / 2048, hlt⟩ (0 : Fin 2) * 2048 ≤ (i 0).val
      ∧ (i 0).val < win0_7.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, hlt⟩ (1 : Fin 2) * 256 ≤ (i 1).val
      ∧ (i 1).val < win0_7.index ⟨(i 0).val / 2048, hlt⟩ (1 : Fin 2) * 256 + 256
    rw [e1]; omega

end Regions

end Cert.KernelIdeal.HandVal

end
-- ==== Proof.Reg0Val.lean ====
/-
  The message kernel's whole output array, as one function of the arrays it reads.

  Block `t` of the output is written from block `t` of the gathered node features, of the gathered relation
  embeddings and of the norms, and from the whole of the four weight arrays. So edge `e = t * 2048 + p` of the
  output holds, at feature `q`, the message of edge `e`; the blocks cover the array, so after the region the
  array is the array of messages everywhere.
-/
import proofs.«164897_j31104153157801_1_alg».proof.Proof.Reg0Blk

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Regions

variable (V : (c : Dev nD) → (b : Ref sig .tc) → Buf (Elt Ideal) ((c : Thread nD τ).loc b))

/-! ## What a point writes back -/

/-- The output window is never cut short: what is written back is the whole staging block. -/
theorem cut0_7 {α : Type} (t : Fin cfg0.N) (X : S2048x256.Idx → α) : (cfg0.win 7).cut (grid0.coords t) X = X := rfl

/-- Point `t` writes back the body's stored value of the seven blocks at `t`. -/
theorem flushed0_7_pay (c : Dev nD) (t : Fin cfg0.N) :
    (dat0 V c).flushed 7 t = k0_pay1 (iblk0 V c 0 t) (iblk0 V c 1 t) (iblk0 V c 3 t) (iblk0 V c 4 t) (iblk0 V c 5 t) (iblk0 V c 6 t) (iblk0 V c 2 t) := by
  show (cfg0.win 7).cut (grid0.coords t) ((dat0 V c).after 7 t) = _
  rw [after0_7, cut0_7]
  unfold out0_7
  rw [View.canon_unit_zero hz]
  simp only [View.ld_unit_zero (S := S2048x256) hz, View.ld_unit_zero (S := S2048x1) hz, View.ld_unit_zero (S := S256x256) hz,
    View.ld_unit_zero (S := S1x256) hz, View.ld_unit_zero (S := S256x1) hz, View.ld_unit_zero (S := S1x1) hz]

/-- The stored value at edge `p` of a block whose rows are rows `e` of the arrays is the message of edge `e`. -/
theorem msg_block (hs ru : Vec Ideal S2048x256 .f32) (k : Vec Ideal S256x256 .bf16) (b : Vec Ideal S1x256 .f32)
    (g : Vec Ideal S256x1 .bf16) (gb : Vec Ideal S1x1 .f32) (nm : Vec Ideal S2048x1 .f32)
    (Hs Ru : S600064x256.Idx → EReal) (Nm : S600064x1.Idx → EReal) (K : S256x256.Idx → EReal)
    (B : S1x256.Idx → EReal) (G : S256x1.Idx → EReal) (Gb : S1x1.Idx → EReal) (e : Fin 600064) (p : Fin 2048) (q : Fin 256)
    (h0 : ∀ n : Fin 256, hs (ix2 p n) = Hs (ix2 e n)) (h1 : ∀ n : Fin 256, ru (ix2 p n) = Ru (ix2 e n))
    (h2 : nm (ix2 p (0 : Fin 1)) = Nm (ix2 e (0 : Fin 1))) (h3 : ∀ n : Fin 256, k (ix2 n q) = K (ix2 n q))
    (h4 : b (ix2 (0 : Fin 1) q) = B (ix2 (0 : Fin 1) q)) (h5 : ∀ n : Fin 256, g (ix2 n (0 : Fin 1)) = G (ix2 n (0 : Fin 1)))
    (h6 : gb (ix2 (0 : Fin 1) (0 : Fin 1)) = Gb (ix2 (0 : Fin 1) (0 : Fin 1))) :
    k0_pay1 hs ru k b g gb nm (ix2 p q) = msgAt Hs Ru Nm K B G Gb e q := by
  rw [pay_apply]
  unfold msgAt
  simp only [h0, h1, h2, h3, h4, h5, h6]

/-- Point `t` writes back block `t` of the messages of the arrays the region is entered with. -/
theorem flushed0_7_eq (c : Dev nD) (t : Fin cfg0.N) :
    (dat0 V c).flushed 7 t = ((cfg0.win 7).blk t).view.read (Elt Ideal)
      (msgs (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  rw [flushed0_7_pay]
  refine funext fun (j : S2048x256.Idx) => ?_
  obtain ⟨p, q, rfl⟩ : ∃ (p : Fin 2048) (q : Fin 256), j = ix2 p q := ⟨j 0, j 1, eq_ix2 j⟩
  refine (msg_block (iblk0 V c 0 t) (iblk0 V c 1 t) (iblk0 V c 3 t) (iblk0 V c 4 t) (iblk0 V c 5 t) (iblk0 V c 6 t) (iblk0 V c 2 t)
    (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
    (edgeOf t p) p q (fun n => iblk0_0_apply V c t p n) (fun n => iblk0_1_apply V c t p n) (iblk0_2_apply V c t p 0)
    (fun n => iblk0_3_apply V c t n q) (iblk0_4_apply V c t 0 q) (fun n => iblk0_5_apply V c t n 0) (iblk0_6_apply V c t 0 0)).trans ?_
  show _ = msgs (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (((cfg0.win 7).blk t).view.emb (ix2 p q))
  rw [emb0_7]
  rfl

/-! ## The array after the region -/

/-- The output array after the region is the array of messages of the arrays the region is entered with. -/
theorem arr0_7 (c : Dev nD) :
    (dat0 V c).arrAt 7 cfg0.N = msgs (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 7 _ (fun t _ => flushed0_7_eq V c t) cover0

end Regions

end Cert.KernelIdeal.HandVal

end
-- ==== Proof.Reg1Pay.lean ====
/-
  The update kernel's arithmetic at an index, over the extended reals.

  The body adds the block of node features to the block of aggregated messages, multiplies the sum by the transposed
  update matrix into a zero accumulator and adds the bias row along every row. Rounding to the narrow float is the
  identity over the extended reals, and the layout casts are between equal shapes, so entry (p, q) of the stored
  block is  Σ n, (h (p, n) + a (p, n)) * Wt (n, q) + bias (0, q).
-/
import proofs.«164897_j31104153157801_1_alg».proof.Proof.Gen.KernelIdeal.Skeleton
import proofs.«164897_j31104153157801_1_alg».proof.Proof.LibDenseLayer
import Idealize.ShloMosaic.Lib.Pipeline.Value

noncomputable section

namespace Cert.KernelIdeal.HandVal

open Cert.KernelIdeal Cert.KernelIdeal.Gen
open Idealize.ShloMosaic Idealize.ShloMosaic.ValueIdx

/-- Entry (p, q) of the block the update kernel stores, from the four blocks it loads. -/
theorem k1_pay1_apply (x0 x1 : Vec Ideal S2048x256 .f32) (x2 : Vec Ideal S256x256 .bf16) (x3 : Vec Ideal S1x256 .f32)
    (p : Fin 2048) (q : Fin 256) :
    k1_pay1 (F := Ideal) x0 x1 x2 x3 (ix2 p q)
      = (∑ n : Fin 256, (x0 (ix2 p n) + x1 (ix2 p n)) * x2 (ix2 n q)) + x3 (ix2 (0 : Fin 1) q) := by
  unfold k1_pay1
  simp only [shapeCast_self]
  exact DenseLayer.affine_apply dot_S2048x256_S256x256_S2048x256_1_0_0_1_n_n_wf
    (truncf .bf16 (addf x0 x1) bitsLt_bf16_f32) x2 x3 broadcasts_S1x256_S2048x256 p q

end Cert.KernelIdeal.HandVal

end
-- ==== Proof.Reg1Val.lean ====
/-
  The update kernel's output array as one function of the arrays it reads, over the extended reals.

  The kernel walks 49 blocks of 2048 rows. At block t it reads rows 2048 t .. 2048 t + 2047 of the node features and of
  the aggregated messages, the whole transposed update matrix and the whole bias row, and writes the same rows of the
  output. So row r of the output is written by block r / 2048, and every entry of the output array is
    Σ n, (h (r, n) + a (r, n)) * Wt (n, q) + bias (0, q).
-/
import proofs.«164897_j31104153157801_1_alg».proof.Proof.Reg1
import proofs.«164897_j31104153157801_1_alg».proof.Proof.Reg1Pay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The update layer on whole arrays: entry (r, q) is the r-th row of h + a against the q-th column of the transposed
    matrix, plus the bias. -/
def updArr (hp ha : S100352x256.Idx → EReal) (k2t : S256x256.Idx → EReal) (b2 : S1x256.Idx → EReal) :
    S100352x256.Idx → EReal :=
  fun i => (∑ n : Fin 256, (hp (ix2 (n0 := 100352) (i 0) n) + ha (ix2 (n0 := 100352) (i 0) n)) * k2t (ix2 n (i 1)))
    + b2 (ix2 (0 : Fin 1) (i 1))

theorem hz1 : (![0, 0] : Fin 2 → Nat) = fun _ => 0 := funext fun a => by fin_cases a <;> rfl

/-- The block index maps over the grid: the three row-blocked windows are at block (t, 0), the matrix and the bias
    row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- What grid point t writes back is block t of the update layer of the arrays as the region finds them. -/
theorem flushed1_4_eq (c : Dev nD) (t : Fin cfg1.N) :
    (dat1 V c).flushed 4 t = ((cfg1.win 4).blk t).view.read (Elt Ideal)
      (updArr (V c main_v180) (V c main_v181) (V c main_v126) (V c main_v128)) := by
  show (cfg1.win 4).cut (grid1.coords t) ((dat1 V c).after 4 t) = _
  rw [after1_4]
  unfold out1_4
  rw [View.canon_unit_zero hz1]
  simp only [View.ld_unit_zero (S := S2048x256) hz1, View.ld_unit_zero (S := S256x256) hz1, View.ld_unit_zero (S := S1x256) hz1]
  obtain ⟨e00, e01, e10, e11, e20, e21, e30, e31, e40, e41⟩ := idx_facts1 t
  funext j
  obtain ⟨p, q, rfl⟩ : ∃ (p : Fin 2048) (q : Fin 256), j = ix2 p q := ⟨j 0, j 1, eq_ix2 j⟩
  refine (k1_pay1_apply _ _ _ _ p q).trans ?_
  show _ = updArr (V c main_v180) (V c main_v181) (V c main_v126) (V c main_v128) (((cfg1.win 4).blk t).view.emb (ix2 p q))
  unfold updArr
  have r0 : ∀ n : Fin 256, iblk1 V c 0 t (ix2 p n)
      = V c main_v180 (ix2 (n0 := 100352) ((((cfg1.win 4).blk t).view.emb (ix2 p q)) 0) n) := fun n => by
    show V c main_v180 (((cfg1.win 0).blk t).view.emb (ix2 p n)) = _
    refine congrArg _ ?_
    funext a; apply Fin.ext
    match a with
    | ⟨0, _⟩ => show win1_0.index t (0 : Fin 2) * 2048 + 1 * p.val = win1_4.index t (0 : Fin 2) * 2048 + 1 * p.val; omega
    | ⟨1, _⟩ => show win1_0.index t (1 : Fin 2) * 256 + 1 * n.val = n.val; omega
  have r1 : ∀ n : Fin 256, iblk1 V c 1 t (ix2 p n)
      = V c main_v181 (ix2 (n0 := 100352) ((((cfg1.win 4).blk t).view.emb (ix2 p q)) 0) n) := fun n => by
    show V c main_v181 (((cfg1.win 1).blk t).view.emb (ix2 p n)) = _
    refine congrArg _ ?_
    funext a; apply Fin.ext
    match a with
    | ⟨0, _⟩ => show win1_1.index t (0 : Fin 2) * 2048 + 1 * p.val = win1_4.index t (0 : Fin 2) * 2048 + 1 * p.val; omega
    | ⟨1, _⟩ => show win1_1.index t (1 : Fin 2) * 256 + 1 * n.val = n.val; omega
  have r2 : ∀ n : Fin 256, iblk1 V c 2 t (ix2 n q)
      = V c main_v126 (ix2 n ((((cfg1.win 4).blk t).view.emb (ix2 p q)) 1)) := fun n => by
    show V c main_v126 (((cfg1.win 2).blk t).view.emb (ix2 n q)) = _
    refine congrArg _ ?_
    funext a; apply Fin.ext
    match a with
    | ⟨0, _⟩ => show win1_2.index t (0 : Fin 2) * 256 + 1 * n.val = n.val; omega
    | ⟨1, _⟩ => show win1_2.index t (1 : Fin 2) * 256 + 1 * q.val = win1_4.index t (1 : Fin 2) * 256 + 1 * q.val; omega
  have r3 : iblk1 V c 3 t (ix2 (0 : Fin 1) q)
      = V c main_v128 (ix2 (0 : Fin 1) ((((cfg1.win 4).blk t).view.emb (ix2 p q)) 1)) := by
    show V c main_v128 (((cfg1.win 3).blk t).view.emb (ix2 (0 : Fin 1) q)) = _
    refine congrArg _ ?_
    funext a; apply Fin.ext
    match a with
    | ⟨0, _⟩ => show win1_3.index t (0 : Fin 2) * 1 + 1 * 0 = 0; omega
    | ⟨1, _⟩ => show win1_3.index t (1 : Fin 2) * 256 + 1 * q.val = win1_4.index t (1 : Fin 2) * 256 + 1 * q.val; omega
  refine congrArg₂ (· + ·) (Finset.sum_congr rfl fun n _ => ?_) r3
  exact congrArg₂ (· * ·) (congrArg₂ (· + ·) (r0 n) (r1 n)) (r2 n)

/-- An index of the output array is in point t's block iff each coordinate is in the block's range on its axis. -/
theorem mem_blk1_4 (t : Fin cfg1.N) (i : S100352x256.Idx) :
    i ∈ ((cfg1.win 4).blk t).view.set ↔ ∀ a : Fin 2, win1_4.index t a * S2048x256.size a ≤ (i a).val
      ∧ (i a).val < win1_4.index t a * S2048x256.size a + S2048x256.size a := by
  show i ∈ ((View.whole main_v182).slice (win1_4.rect t)).set ↔ _
  rw [View.set_slice_whole, Rect.mem_set_unit]
  exact Iff.rfl

/-- Every index of the output array is in some point's block: row r is in block r / 2048. -/
theorem cover1_4_arr (i : S100352x256.Idx) :
    ∃ t : Fin cfg1.N, (cfg1.win 4).flush t = true ∧ i ∈ ((cfg1.win 4).blk t).view.set := by
  have hi0 : (i 0).val < 100352 := (i 0).isLt
  have hi1 : (i 1).val < 256 := (i 1).isLt
  let t : Fin cfg1.N := ⟨(i 0).val / 2048, by show (i 0).val / 2048 < 49; omega⟩
  obtain ⟨e00, e01, e10, e11, e20, e21, e30, e31, e40, e41⟩ := idx_facts1 t
  have ht : t.val = (i 0).val / 2048 := rfl
  refine ⟨t, flush1_4 t, ?_⟩
  rw [mem_blk1_4]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 256 ≤ (i 1).val ∧ (i 1).val < win1_4.index t (1 : Fin 2) * 256 + 256; omega

/-- The output array after the region: the update layer of the arrays as the region finds them, at every index. -/
theorem arrAt1_4 (c : Dev nD) :
    (dat1 V c).arrAt 4 cfg1.N = updArr (V c main_v180) (V c main_v181) (V c main_v126) (V c main_v128) :=
  (dat1 V c).arrAt_eq_of_cover 4 (updArr (V c main_v180) (V c main_v181) (V c main_v126) (V c main_v128))
    (fun t _ => flushed1_4_eq V c t) cover1_4_arr

end

end Cert.KernelIdeal.HandVal

end
-- ==== Proof.KHostDefs.lean ====
import proofs.«164897_j31104153157801_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 3196
noncomputable section

namespace Cert.KernelIdeal.HandVal
open Cert.KernelIdeal Cert.KernelIdeal.Gen
open Idealize.ShloMosaic Idealize.ShloMosaic.TcCoe Idealize.SL.Sem Idealize.ShloMosaic.StableHlo

/-! # The host-side stages of the message-passing layer, as functions of the argument arrays

Every array a host stretch hands to one of the two kernels is a fixed function of the program's arguments
(node features, edge list, edge types, relation embeddings, the two Clifford weight stacks and biases, the
gate's weights).  Each stage is named here once, at the extended reals. -/

/-! ## The Clifford kernel matrix of a weight stack -/

/-- Slice `b` of a weight stack `[4, 64, 64]`, as a 64×64 matrix. -/
def wSl0 (w : FVec Ideal S4x64x64 .f32) : FVec Ideal S64x64 .f32 :=
  shapeCast S64x64 (extractStridedSlice S1x64x64 ![0, 0, 0] w slices_S4x64x64_S1x64x64_0_0_0) shapeCasts_S1x64x64_S64x64
@[inherit_doc wSl0] def wSl1 (w : FVec Ideal S4x64x64 .f32) : FVec Ideal S64x64 .f32 :=
  shapeCast S64x64 (extractStridedSlice S1x64x64 ![1, 0, 0] w slices_S4x64x64_S1x64x64_1_0_0) shapeCasts_S1x64x64_S64x64
@[inherit_doc wSl0] def wSl2 (w : FVec Ideal S4x64x64 .f32) : FVec Ideal S64x64 .f32 :=
  shapeCast S64x64 (extractStridedSlice S1x64x64 ![2, 0, 0] w slices_S4x64x64_S1x64x64_2_0_0) shapeCasts_S1x64x64_S64x64
@[inherit_doc wSl0] def wSl3 (w : FVec Ideal S4x64x64 .f32) : FVec Ideal S64x64 .f32 :=
  shapeCast S64x64 (extractStridedSlice S1x64x64 ![3, 0, 0] w slices_S4x64x64_S1x64x64_3_0_0) shapeCasts_S1x64x64_S64x64

/-- The constant matrix of ones (the metric's sign +1), and of minus ones. -/
def one64 : FVec Ideal S64x64 .f32 := broadcastInDim S64x64 ![] bcast_S_S64x64 (constant (F := Ideal) S_ .f32 0x3F800000#32)
@[inherit_doc one64] def negOne64 : FVec Ideal S64x64 .f32 := broadcastInDim S64x64 ![] bcast_S_S64x64 (constant (F := Ideal) S_ .f32 0xBF800000#32)

/-- Four 64×64 blocks side by side. -/
def row4 (a b c d : FVec Ideal S64x64 .f32) : FVec Ideal S64x256 .f32 :=
  concatenate S64x256 1 [⟨S64x64, a⟩, ⟨S64x64, b⟩, ⟨S64x64, c⟩, ⟨S64x64, d⟩] concatenates_S64x64_S64x64_S64x64_S64x64_S64x256_d1
/-- Four 64×256 bands one above the other. -/
def col4 (a b c d : FVec Ideal S64x256 .f32) : FVec Ideal S256x256 .f32 :=
  concatenate S256x256 0 [⟨S64x256, a⟩, ⟨S64x256, b⟩, ⟨S64x256, c⟩, ⟨S64x256, d⟩] concatenates_S64x256_S64x256_S64x256_S64x256_S256x256_d0

/-- The 256×256 matrix of the Clifford-linear map of signature (+1, +1) with weight stack `w`: block row `i`,
    block column `j` is ± the slice the geometric product's table names. -/
def cliffordOf (w : FVec Ideal S4x64x64 .f32) : FVec Ideal S256x256 .f32 :=
  col4 (row4 (wSl0 w) (mulf one64 (wSl1 w)) (mulf one64 (wSl2 w)) (mulf negOne64 (wSl3 w)))
       (row4 (wSl1 w) (wSl0 w) (mulf negOne64 (wSl3 w)) (mulf one64 (wSl2 w)))
       (row4 (wSl2 w) (mulf one64 (wSl3 w)) (wSl0 w) (mulf negOne64 (wSl1 w)))
       (row4 (wSl3 w) (wSl2 w) (wSl1 w) (wSl0 w))

/-! ## The constant index tables -/

/-- The table sending a channel-major position `4c + b` to the blade-major position `64b + c`. -/
def tblPerm : IVec S256 32 := fun i => lit0 (S256.rowMajor i)
/-- The table sending a blade-major position `64b + c` to the channel-major position `4c + b`. -/
def tblInv : IVec S256 32 := fun i => lit1 (S256.rowMajor i)
/-- "is the table's entry negative": false everywhere. -/
def tblNeg : IVec S256 1 := constantI S256 1 0#1
/-- A table as the index column a gather reads, after the wrap-around of negative entries (there are none). -/
def tblCol (t : IVec S256 32) : IVec S256x1 32 :=
  broadcastInDim S256x1 ![0] bcast_S256_S256x1_0
    (select tblNeg (addi t (broadcastInDim S256 ![] bcast_S_S256 (constantI S_ 32 256#32))) t)

/-! ## The small operands of the two kernels -/

/-- The message kernel's matrix: the transpose of the Clifford matrix of the message weights. -/
def k1tOf (w : FVec Ideal S4x64x64 .f32) : FVec Ideal S256x256 .bf16 :=
  truncf .bf16 (transpose S256x256 [1, 0] (cliffordOf w) transposes_S256x256_S256x256_1_0) bitsLt_bf16_f32
/-- The update kernel's matrix: the Clifford matrix of the update weights, its rows taken in channel-major order,
    transposed. -/
def k2ptOf (w : FVec Ideal S4x64x64 .f32) : FVec Ideal S256x256 .bf16 :=
  truncf .bf16 (transpose S256x256 [1, 0]
    (Host.gather gather_S256x256_S256x1_S256x256_1_0_n_n_0_1_1256 (cliffordOf w) (tblCol tblPerm))
    transposes_S256x256_S256x256_1_0) bitsLt_bf16_f32
/-- A bias `[4, 64]` flattened blade-major. -/
def flat256 (b : FVec Ideal S4x64 .f32) : FVec Ideal S256 .f32 := shapeCast S256 b shapeCasts_S4x64_S256
/-- The message bias as one row. -/
def b1Of (b : FVec Ideal S4x64 .f32) : FVec Ideal S1x256 .f32 := shapeCast S1x256 (flat256 b) shapeCasts_S256_S1x256
/-- The update bias in channel-major order, as one row. -/
def b2pOf (b : FVec Ideal S4x64 .f32) : FVec Ideal S1x256 .f32 :=
  shapeCast S1x256 (Host.gather gather_S256_S256x1_S256_n_0_n_n_0_1_1 (flat256 b) (tblCol tblPerm)) shapeCasts_S256_S1x256
/-- The gate's weights in blade-major order, as one column. -/
def gwOf (g : FVec Ideal S1x256 .f32) : FVec Ideal S256x1 .bf16 :=
  truncf .bf16 (shapeCast S256x1 (Host.gather gather_S1x256_S256x1_S1x256_0_1_n_n_1_1_11 g (tblCol tblInv)) shapeCasts_S1x256_S256x1)
    bitsLt_bf16_f32
/-- The gate's bias as a 1×1 array. -/
def gbOf (g : FVec Ideal S1 .f32) : FVec Ideal S1x1 .f32 := shapeCast S1x1 g shapeCasts_S1_S1x1

/-! ## The edge list, the degrees and the normalisation -/

/-- The sources (row 0 of the edge list) and the destinations (row 1). -/
def srcOf (ei : IVec S2x600000 32) : IVec S600000 32 :=
  shapeCast S600000 (extractStridedSlice S1x600000 ![0, 0] ei slices_S2x600000_S1x600000_0_0) shapeCasts_S1x600000_S600000
@[inherit_doc srcOf] def dstOf (ei : IVec S2x600000 32) : IVec S600000 32 :=
  shapeCast S600000 (extractStridedSlice S1x600000 ![1, 0] ei slices_S2x600000_S1x600000_1_0) shapeCasts_S1x600000_S600000
/-- An index list as the index column a gather or scatter reads. -/
def colOf (x : IVec S600000 32) : IVec S600000x1 32 := broadcastInDim S600000x1 ![0] bcast_S600000_S600000x1_0 x
/-- Negative indices wrapped around an axis of `n` entries: `x < 0 ? x + n : x`. -/
def wrapOf (n : BitVec 32) (x : IVec S600000 32) : IVec S600000 32 :=
  select (cmpi .slt x (broadcastInDim S600000 ![] bcast_S_S600000 (constantI S_ 32 0#32)))
    (addi x (broadcastInDim S600000 ![] bcast_S_S600000 (constantI S_ 32 n))) x
/-- One per edge. -/
def onesE : FVec Ideal S600000 .f32 := broadcastInDim S600000 ![] bcast_S_S600000 (constant (F := Ideal) S_ .f32 0x3F800000#32)
/-- The number of edges naming each node in the list `x`: ones added into zeros at the positions `x` names. -/
def degOf (x : IVec S600000 32) : FVec Ideal S100000 .f32 :=
  Host.scatterAdd scatter_S100000_S600000x1_S600000_n_0_0_1
    (broadcastInDim S100000 ![] bcast_S_S100000 (constant (F := Ideal) S_ .f32 0x00000000#32)) (colOf x) onesE
/-- A per-node array read at each edge's node in the list `x`. -/
def atEdges (d : FVec Ideal S100000 .f32) (x : IVec S600000 32) : FVec Ideal S600000 .f32 :=
  Host.gather gather_S100000_S600000x1_S600000_n_0_n_n_0_1_1 d (colOf (wrapOf 100000#32 x))
/-- The symmetric degree normalisation of each edge: `1 / sqrt (max (deg_src[src] * deg_dst[dst]) 1)`. -/
def normOf (ei : IVec S2x600000 32) : FVec Ideal S600000 .f32 :=
  Host.rsqrt (maximumf (mulf (atEdges (degOf (srcOf ei)) (srcOf ei)) (atEdges (degOf (dstOf ei)) (dstOf ei))) onesE)

/-! ## The per-edge rows -/

/-- The node features at each edge's source. -/
def hsrcOf (h : FVec Ideal S100000x256 .f32) (ei : IVec S2x600000 32) : FVec Ideal S600000x256 .f32 :=
  Host.gather gather_S100000x256_S600000x1_S600000x256_1_0_n_n_0_1_1256 h (colOf (wrapOf 100000#32 (srcOf ei)))
/-- The relation embedding of each edge's type. -/
def ruvOf (r : FVec Ideal S500x256 .f32) (et : IVec S600000 32) : FVec Ideal S600000x256 .f32 :=
  Host.gather gather_S500x256_S600000x1_S600000x256_1_0_n_n_0_1_1256 r (colOf (wrapOf 500#32 et))

/-! ## Padding to whole blocks, and cutting back -/

/-- The padding value: the integer zero as a float. -/
def padZero : FVec Ideal S_ .f32 := sitofp .f32 (constantI S_ 32 0#32)
/-- 64 zero rows appended to the 600000 per-edge rows. -/
def padE (x : FVec Ideal S600000x256 .f32) : FVec Ideal S600064x256 .f32 :=
  pad S600064x256 ![0, 0] ![64, 0] ![0, 0] x padZero pads_S600000x256_S600064x256_0640_000 h_S_
/-- 64 zeros appended to a per-edge vector, as one column. -/
def padCol (x : FVec Ideal S600000 .f32) : FVec Ideal S600064x1 .f32 :=
  shapeCast S600064x1 (pad S600064 ![0] ![64] ![0] x padZero pads_S600000_S600064_0640 h_S_) shapeCasts_S600064_S600064x1
/-- 352 zero rows appended to the 100000 per-node rows. -/
def padN (x : FVec Ideal S100000x256 .f32) : FVec Ideal S100352x256 .f32 :=
  pad S100352x256 ![0, 0] ![352, 0] ![0, 0] x padZero pads_S100000x256_S100352x256_03520_000 h_S_
/-- The first 600000 rows of the message kernel's result. -/
def cutE (o : FVec Ideal S600064x256 .f32) : FVec Ideal S600000x256 .f32 :=
  extractStridedSlice S600000x256 ![0, 0] o slices_S600064x256_S600000x256_0_0
/-- The first 100000 rows of the update kernel's result. -/
def cutN (o : FVec Ideal S100352x256 .f32) : FVec Ideal S100000x256 .f32 :=
  extractStridedSlice S100000x256 ![0, 0] o slices_S100352x256_S100000x256_0_0
/-- The messages summed into their destination nodes. -/
def aggOf (dst : IVec S600000 32) (m : FVec Ideal S600000x256 .f32) : FVec Ideal S100000x256 .f32 :=
  Host.scatterAdd scatter_S100000x256_S600000x1_S600000x256_1_0_0_1
    (broadcastInDim S100000x256 ![] bcast_S_S100000x256 (constant (F := Ideal) S_ .f32 0x00000000#32)) (colOf dst) m

end Cert.KernelIdeal.HandVal
-- ==== Proof.KHostA.lean ====
import proofs.«164897_j31104153157801_1_alg».proof.Proof.KHostDefs

set_option maxRecDepth 3196
noncomputable section

namespace Cert.KernelIdeal.HandVal
open Cert.KernelIdeal Cert.KernelIdeal.Gen
open Idealize.ShloMosaic Idealize.ShloMosaic.TcCoe Idealize.SL.Sem Idealize.ShloMosaic.StableHlo

/-! # What the first host stretch leaves in the small operands of the two kernels -/

set_option maxHeartbeats 40000000 in
theorem h0_v124 (W : Valuation τ sig (Elt Ideal)) :
    (StableHlo.after hostOps0 W (Proc.devRef .tc main_v124) : S256x256.Idx → EReal) = k1tOf (W (Proc.devRef .tc main_arg4)) := by
  dsimp only [hostOps0]
  after_results_simp
  rfl

set_option maxHeartbeats 40000000 in
theorem h0_v126 (W : Valuation τ sig (Elt Ideal)) :
    (StableHlo.after hostOps0 W (Proc.devRef .tc main_v126) : S256x256.Idx → EReal) = k2ptOf (W (Proc.devRef .tc main_arg6)) := by
  dsimp only [hostOps0]
  after_results_simp
  rfl

set_option maxHeartbeats 40000000 in
theorem h0_v127 (W : Valuation τ sig (Elt Ideal)) :
    (StableHlo.after hostOps0 W (Proc.devRef .tc main_v127) : S1x256.Idx → EReal) = b1Of (W (Proc.devRef .tc main_arg5)) := by
  dsimp only [hostOps0]
  after_results_simp
  rfl

set_option maxHeartbeats 40000000 in
theorem h0_v128 (W : Valuation τ sig (Elt Ideal)) :
    (StableHlo.after hostOps0 W (Proc.devRef .tc main_v128) : S1x256.Idx → EReal) = b2pOf (W (Proc.devRef .tc main_arg7)) := by
  dsimp only [hostOps0]
  after_results_simp
  rfl

set_option maxHeartbeats 40000000 in
theorem h0_v130 (W : Valuation τ sig (Elt Ideal)) :
    (StableHlo.after hostOps0 W (Proc.devRef .tc main_v130) : S256x1.Idx → EReal) = gwOf (W (Proc.devRef .tc main_arg8)) := by
  dsimp only [hostOps0]
  after_results_simp
  rfl

set_option maxHeartbeats 40000000 in
theorem h0_v131 (W : Valuation τ sig (Elt Ideal)) :
    (StableHlo.after hostOps0 W (Proc.devRef .tc main_v131) : S1x1.Idx → EReal) = gbOf (W (Proc.devRef .tc main_arg9)) := by
  dsimp only [hostOps0]
  after_results_simp
  rfl

end Cert.KernelIdeal.HandVal
-- ==== Proof.KHostB.lean ====
import proofs.«164897_j31104153157801_1_alg».proof.Proof.KHostDefs

set_option maxRecDepth 3196
noncomputable section

namespace Cert.KernelIdeal.HandVal
open Cert.KernelIdeal Cert.KernelIdeal.Gen
open Idealize.ShloMosaic Idealize.ShloMosaic.TcCoe Idealize.SL.Sem Idealize.ShloMosaic.StableHlo

/-! # What the first host stretch leaves in the per-edge arrays, and what it leaves alone -/

set_option maxHeartbeats 40000000 in
theorem h0_v156 (W : Valuation τ sig (Elt Ideal)) :
    (StableHlo.after hostOps0 W (Proc.devRef .tc main_v156) : S600000.Idx → EReal) = normOf (W (Proc.devRef .tc main_arg1)) := by
  dsimp only [hostOps0]
  after_results_simp
  rfl

set_option maxHeartbeats 40000000 in
theorem h0_v163 (W : Valuation τ sig (Elt Ideal)) :
    (StableHlo.after hostOps0 W (Proc.devRef .tc main_v163) : S600000x256.Idx → EReal) = hsrcOf (W (Proc.devRef .tc main_arg0)) (W (Proc.devRef .tc main_arg1)) := by
  dsimp only [hostOps0]
  after_results_simp
  rfl

set_option maxHeartbeats 40000000 in
theorem h0_v170 (W : Valuation τ sig (Elt Ideal)) :
    (StableHlo.after hostOps0 W (Proc.devRef .tc main_v170) : S600000x256.Idx → EReal) = ruvOf (W (Proc.devRef .tc main_arg3)) (W (Proc.devRef .tc main_arg2)) := by
  dsimp only [hostOps0]
  after_results_simp
  rfl

set_option maxHeartbeats 40000000 in
theorem h0_v3 (W : Valuation τ sig (Elt Ideal)) :
    (StableHlo.after hostOps0 W (Proc.devRef .tc main_v3) : S600000.Idx → BitVec 32) = dstOf (W (Proc.devRef .tc main_arg1)) := by
  dsimp only [hostOps0]
  after_results_simp
  rfl

set_option maxHeartbeats 40000000 in
theorem h0_c32 (W : Valuation τ sig (Elt Ideal)) :
    (StableHlo.after hostOps0 W (Proc.devRef .tc main_c_32) : S_.Idx → BitVec 32) = constantI S_ 32 0#32 := by
  dsimp only [hostOps0]
  after_results_simp

set_option maxHeartbeats 40000000 in
theorem h0_arg0 (W : Valuation τ sig (Elt Ideal)) :
    StableHlo.after hostOps0 W (Proc.devRef .tc main_arg0) = W (Proc.devRef .tc main_arg0) := by
  dsimp only [hostOps0]
  after_results_simp

end Cert.KernelIdeal.HandVal
-- ==== Proof.KHostC.lean ====
import proofs.«164897_j31104153157801_1_alg».proof.Proof.KHostDefs

set_option maxRecDepth 3196
noncomputable section

namespace Cert.KernelIdeal.HandVal
open Cert.KernelIdeal Cert.KernelIdeal.Gen
open Idealize.ShloMosaic Idealize.ShloMosaic.TcCoe Idealize.SL.Sem Idealize.ShloMosaic.StableHlo

/-! # The short host stretches: the pads before each kernel, the cut and the scatter-add between them, the final cut

Stated for ANY buffer contents `W` before the stretches, so that they compose with what the long first stretch and the
two kernels leave. -/

/-- The six short stretches between the long first stretch and the message kernel (the three pads), in order. -/
def tail0 (W : Valuation τ sig (Elt Ideal)) : Valuation τ sig (Elt Ideal) :=
  StableHlo.after hostOps0_6 (StableHlo.after hostOps0_5 (StableHlo.after hostOps0_4 (StableHlo.after hostOps0_3
    (StableHlo.after hostOps0_2 (StableHlo.after hostOps0_1 W)))))

/-- The four stretches between the two kernels (the cut, the scatter-add, the two pads), in order. -/
def mid1 (W : Valuation τ sig (Elt Ideal)) : Valuation τ sig (Elt Ideal) :=
  StableHlo.after hostOps1_3 (StableHlo.after hostOps1_2 (StableHlo.after hostOps1_1 (StableHlo.after hostOps1 W)))

/-- The padded source rows: the rows before the pad with 64 rows of the padding value appended. -/
theorem tail0_v171 (W : Valuation τ sig (Elt Ideal)) :
    (tail0 W (Proc.devRef .tc main_v171) : S600064x256.Idx → EReal) = pad S600064x256 ![0, 0] ![64, 0] ![0, 0] (W (Proc.devRef .tc main_v163) : S600000x256.Idx → EReal) (sitofp .f32 (W (Proc.devRef .tc main_c_32) : S_.Idx → BitVec 32) : FVec Ideal S_ .f32) pads_S600000x256_S600064x256_0640_000 h_S_ := by
  dsimp only [tail0, hostOps0_1, hostOps0_2, hostOps0_3, hostOps0_4, hostOps0_5, hostOps0_6]
  after_results
  rfl

/-- The padded relation rows. -/
theorem tail0_v172 (W : Valuation τ sig (Elt Ideal)) :
    (tail0 W (Proc.devRef .tc main_v172) : S600064x256.Idx → EReal) = padE (W (Proc.devRef .tc main_v170)) := by
  dsimp only [tail0, hostOps0_1, hostOps0_2, hostOps0_3, hostOps0_4, hostOps0_5, hostOps0_6]
  after_results
  rfl

/-- The padded normalisation column. -/
theorem tail0_v174 (W : Valuation τ sig (Elt Ideal)) :
    (tail0 W (Proc.devRef .tc main_v174) : S600064x1.Idx → EReal) = padCol (W (Proc.devRef .tc main_v156)) := by
  dsimp only [tail0, hostOps0_1, hostOps0_2, hostOps0_3, hostOps0_4, hostOps0_5, hostOps0_6]
  after_results
  rfl

/-! The pads write nothing else the kernels or the later stretches read. -/
theorem tail0_keep_v124 (W : Valuation τ sig (Elt Ideal)) :
    tail0 W (Proc.devRef .tc main_v124) = W (Proc.devRef .tc main_v124) := by
  dsimp only [tail0, hostOps0_1, hostOps0_2, hostOps0_3, hostOps0_4, hostOps0_5, hostOps0_6]
  after_results
theorem tail0_keep_v126 (W : Valuation τ sig (Elt Ideal)) :
    tail0 W (Proc.devRef .tc main_v126) = W (Proc.devRef .tc main_v126) := by
  dsimp only [tail0, hostOps0_1, hostOps0_2, hostOps0_3, hostOps0_4, hostOps0_5, hostOps0_6]
  after_results
theorem tail0_keep_v127 (W : Valuation τ sig (Elt Ideal)) :
    tail0 W (Proc.devRef .tc main_v127) = W (Proc.devRef .tc main_v127) := by
  dsimp only [tail0, hostOps0_1, hostOps0_2, hostOps0_3, hostOps0_4, hostOps0_5, hostOps0_6]
  after_results
theorem tail0_keep_v128 (W : Valuation τ sig (Elt Ideal)) :
    tail0 W (Proc.devRef .tc main_v128) = W (Proc.devRef .tc main_v128) := by
  dsimp only [tail0, hostOps0_1, hostOps0_2, hostOps0_3, hostOps0_4, hostOps0_5, hostOps0_6]
  after_results
theorem tail0_keep_v130 (W : Valuation τ sig (Elt Ideal)) :
    tail0 W (Proc.devRef .tc main_v130) = W (Proc.devRef .tc main_v130) := by
  dsimp only [tail0, hostOps0_1, hostOps0_2, hostOps0_3, hostOps0_4, hostOps0_5, hostOps0_6]
  after_results
theorem tail0_keep_v131 (W : Valuation τ sig (Elt Ideal)) :
    tail0 W (Proc.devRef .tc main_v131) = W (Proc.devRef .tc main_v131) := by
  dsimp only [tail0, hostOps0_1, hostOps0_2, hostOps0_3, hostOps0_4, hostOps0_5, hostOps0_6]
  after_results
theorem tail0_keep_v3 (W : Valuation τ sig (Elt Ideal)) :
    tail0 W (Proc.devRef .tc main_v3) = W (Proc.devRef .tc main_v3) := by
  dsimp only [tail0, hostOps0_1, hostOps0_2, hostOps0_3, hostOps0_4, hostOps0_5, hostOps0_6]
  after_results
theorem tail0_keep_arg0 (W : Valuation τ sig (Elt Ideal)) :
    tail0 W (Proc.devRef .tc main_arg0) = W (Proc.devRef .tc main_arg0) := by
  dsimp only [tail0, hostOps0_1, hostOps0_2, hostOps0_3, hostOps0_4, hostOps0_5, hostOps0_6]
  after_results

/-- The padded node features. -/
theorem mid1_v180 (W : Valuation τ sig (Elt Ideal)) :
    (mid1 W (Proc.devRef .tc main_v180) : S100352x256.Idx → EReal) = padN (W (Proc.devRef .tc main_arg0)) := by
  dsimp only [mid1, hostOps1, hostOps1_1, hostOps1_2, hostOps1_3]
  after_results
  rfl

/-- The padded aggregate: the message kernel's result cut to 600000 rows, summed into the destination nodes, padded. -/
theorem mid1_v181 (W : Valuation τ sig (Elt Ideal)) :
    (mid1 W (Proc.devRef .tc main_v181) : S100352x256.Idx → EReal) = padN (aggOf (W (Proc.devRef .tc main_v3)) (cutE (W (Proc.devRef .tc main_v175)))) := by
  dsimp only [mid1, hostOps1, hostOps1_1, hostOps1_2, hostOps1_3]
  after_results
  rfl

theorem mid1_keep_v126 (W : Valuation τ sig (Elt Ideal)) :
    mid1 W (Proc.devRef .tc main_v126) = W (Proc.devRef .tc main_v126) := by
  dsimp only [mid1, hostOps1, hostOps1_1, hostOps1_2, hostOps1_3]
  after_results
theorem mid1_keep_v128 (W : Valuation τ sig (Elt Ideal)) :
    mid1 W (Proc.devRef .tc main_v128) = W (Proc.devRef .tc main_v128) := by
  dsimp only [mid1, hostOps1, hostOps1_1, hostOps1_2, hostOps1_3]
  after_results

/-- The program's result: the update kernel's result cut to 100000 rows. -/
theorem last_v183 (W : Valuation τ sig (Elt Ideal)) :
    (StableHlo.after hostOps2 W (Proc.devRef .tc main_v183) : S100000x256.Idx → EReal) = cutN (W (Proc.devRef .tc main_v182)) := by
  dsimp only [hostOps2]
  after_results
  rfl

end Cert.KernelIdeal.HandVal
-- ==== Proof.KVal.lean ====
/-
  The kernel program's result as one function of its ten arguments, over the extended reals.

  Reading the program backwards from its result: the result is the first 100000 rows of the update kernel's output; that
  output is the update layer of the padded node features, the padded aggregate, the update matrix and the update bias;
  the aggregate is the messages, cut to the 600000 edges, summed into their destination nodes; the messages are the
  message kernel's output on the padded per-edge source rows, relation rows and normalisation column, with the message
  matrix, its bias and the gate's weights; and each of those is a fixed host-side function of the arguments.
-/
import proofs.«164897_j31104153157801_1_alg».proof.Proof.Reg0Val
import proofs.«164897_j31104153157801_1_alg».proof.Proof.Reg1Val
import proofs.«164897_j31104153157801_1_alg».proof.Proof.Transport
import proofs.«164897_j31104153157801_1_alg».proof.Proof.KHostA
import proofs.«164897_j31104153157801_1_alg».proof.Proof.KHostB
import proofs.«164897_j31104153157801_1_alg».proof.Proof.KHostC

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo

/-- The messages of all (padded) edges, from the arguments: node features h, edge list ei, edge types et, relation
    embeddings rel, message weights mw and bias mb, gate weights gw and bias gb. -/
def msgsOf (h : FVec Ideal S100000x256 .f32) (ei : IVec S2x600000 32) (et : IVec S600000 32) (rel : FVec Ideal S500x256 .f32)
    (mw : FVec Ideal S4x64x64 .f32) (mb : FVec Ideal S4x64 .f32) (gw : FVec Ideal S1x256 .f32) (gb : FVec Ideal S1 .f32) :
    S600064x256.Idx → EReal :=
  msgs (padE (hsrcOf h ei)) (padE (ruvOf rel et)) (padCol (normOf ei)) (k1tOf mw) (b1Of mb) (gwOf gw) (gbOf gb)

/-- The program's result from its arguments: the update layer of the node features and of the messages summed by
    destination, with the update weights uw and bias ub, cut to the 100000 nodes. -/
def kvalOf (h : FVec Ideal S100000x256 .f32) (ei : IVec S2x600000 32) (et : IVec S600000 32) (rel : FVec Ideal S500x256 .f32)
    (mw : FVec Ideal S4x64x64 .f32) (mb : FVec Ideal S4x64 .f32) (uw : FVec Ideal S4x64x64 .f32) (ub : FVec Ideal S4x64 .f32)
    (gw : FVec Ideal S1x256 .f32) (gb : FVec Ideal S1 .f32) : S100000x256.Idx → EReal :=
  cutN (updArr (padN h) (padN (aggOf (dstOf ei) (cutE (msgsOf h ei et rel mw mb gw gb)))) (k2ptOf uw) (b2pOf ub))

section
variable (m : (ℓ : Loc nD τ sig) → Buf (Elt Ideal) ℓ) (ρ : Dev nD → PrngReg)

/-! ## The message kernel's operands when it is entered -/

theorem W7_v171_val (c : Dev nD) :
    (W7 m ρ c (Proc.devRef .tc main_v171) : S600064x256.Idx → EReal)
      = padE (hsrcOf (m ((c : Thread nD τ).loc main_arg0)) (m ((c : Thread nD τ).loc main_arg1))) := by
  refine (tail0_v171 (W1 m ρ c)).trans ?_
  have e1 := h0_v163 (W0 m ρ c)
  have e2 := h0_c32 (W0 m ρ c)
  unfold padE padZero
  exact congrArg₂ (fun x z => pad S600064x256 ![0, 0] ![64, 0] ![0, 0] x (sitofp .f32 z : FVec Ideal S_ .f32)
    pads_S600000x256_S600064x256_0640_000 h_S_) e1 e2

theorem W7_v172_val (c : Dev nD) :
    (W7 m ρ c (Proc.devRef .tc main_v172) : S600064x256.Idx → EReal)
      = padE (ruvOf (m ((c : Thread nD τ).loc main_arg3)) (m ((c : Thread nD τ).loc main_arg2))) :=
  (tail0_v172 (W1 m ρ c)).trans (congrArg padE (h0_v170 (W0 m ρ c)))

theorem W7_v174_val (c : Dev nD) :
    (W7 m ρ c (Proc.devRef .tc main_v174) : S600064x1.Idx → EReal)
      = padCol (normOf (m ((c : Thread nD τ).loc main_arg1))) :=
  (tail0_v174 (W1 m ρ c)).trans (congrArg padCol (h0_v156 (W0 m ρ c)))

theorem W7_v124_val (c : Dev nD) :
    (W7 m ρ c (Proc.devRef .tc main_v124) : S256x256.Idx → EReal) = k1tOf (m ((c : Thread nD τ).loc main_arg4)) :=
  (tail0_keep_v124 (W1 m ρ c)).trans (h0_v124 (W0 m ρ c))

theorem W7_v127_val (c : Dev nD) :
    (W7 m ρ c (Proc.devRef .tc main_v127) : S1x256.Idx → EReal) = b1Of (m ((c : Thread nD τ).loc main_arg5)) :=
  (tail0_keep_v127 (W1 m ρ c)).trans (h0_v127 (W0 m ρ c))

theorem W7_v130_val (c : Dev nD) :
    (W7 m ρ c (Proc.devRef .tc main_v130) : S256x1.Idx → EReal) = gwOf (m ((c : Thread nD τ).loc main_arg8)) :=
  (tail0_keep_v130 (W1 m ρ c)).trans (h0_v130 (W0 m ρ c))

theorem W7_v131_val (c : Dev nD) :
    (W7 m ρ c (Proc.devRef .tc main_v131) : S1x1.Idx → EReal) = gbOf (m ((c : Thread nD τ).loc main_arg9)) :=
  (tail0_keep_v131 (W1 m ρ c)).trans (h0_v131 (W0 m ρ c))

/-! ## The message kernel's output when it is left -/

theorem W8_v175_val (c : Dev nD) :
    (W8 m ρ c (Proc.devRef .tc main_v175) : S600064x256.Idx → EReal)
      = msgsOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg8)) (m ((c : Thread nD τ).loc main_arg9)) := by
  refine ((W8_v175 m ρ c).trans (arr0_7 (V7 m ρ) c)).trans ?_
  show msgs (W7 m ρ c (Proc.devRef .tc main_v171)) (W7 m ρ c (Proc.devRef .tc main_v172)) (W7 m ρ c (Proc.devRef .tc main_v174))
      (W7 m ρ c (Proc.devRef .tc main_v124)) (W7 m ρ c (Proc.devRef .tc main_v127)) (W7 m ρ c (Proc.devRef .tc main_v130))
      (W7 m ρ c (Proc.devRef .tc main_v131)) = _
  unfold msgsOf
  rw [W7_v171_val m ρ c, W7_v172_val m ρ c, W7_v174_val m ρ c, W7_v124_val m ρ c, W7_v127_val m ρ c, W7_v130_val m ρ c,
    W7_v131_val m ρ c]

/-! ## The update kernel's operands when it is entered -/

theorem W12_v180_val (c : Dev nD) :
    (W12 m ρ c (Proc.devRef .tc main_v180) : S100352x256.Idx → EReal) = padN (m ((c : Thread nD τ).loc main_arg0)) :=
  (mid1_v180 (W8 m ρ c)).trans (congrArg padN (W8_arg m ρ c main_arg0 (by decide)))

theorem W12_v181_val (c : Dev nD) :
    (W12 m ρ c (Proc.devRef .tc main_v181) : S100352x256.Idx → EReal)
      = padN (aggOf (dstOf (m ((c : Thread nD τ).loc main_arg1)))
          (cutE (msgsOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg8)) (m ((c : Thread nD τ).loc main_arg9))))) := by
  refine (mid1_v181 (W8 m ρ c)).trans ?_
  have e3 : (W8 m ρ c (Proc.devRef .tc main_v3) : S600000.Idx → BitVec 32) = dstOf (m ((c : Thread nD τ).loc main_arg1)) :=
    (W8_v3 m ρ c).trans (h0_v3 (W0 m ρ c))
  exact congrArg padN (congrArg₂ (fun d x => aggOf d (cutE x)) e3 (W8_v175_val m ρ c))

theorem W12_v126_val (c : Dev nD) :
    (W12 m ρ c (Proc.devRef .tc main_v126) : S256x256.Idx → EReal) = k2ptOf (m ((c : Thread nD τ).loc main_arg6)) :=
  (W12_v126 m ρ c).trans (h0_v126 (W0 m ρ c))

theorem W12_v128_val (c : Dev nD) :
    (W12 m ρ c (Proc.devRef .tc main_v128) : S1x256.Idx → EReal) = b2pOf (m ((c : Thread nD τ).loc main_arg7)) :=
  (W12_v128 m ρ c).trans (h0_v128 (W0 m ρ c))

/-! ## The result -/

/-- The program's result is the composed function of its ten arguments as launched. -/
theorem kernel_value (c : Dev nD) :
    (W14 m ρ c (Proc.devRef .tc main_v183) : S100000x256.Idx → EReal)
      = kvalOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (last_v183 (W13 m ρ c)).trans ?_
  unfold kvalOf
  refine congrArg cutN ?_
  refine ((W13_v182 m ρ c).trans (arrAt1_4 (V12 m ρ) c)).trans ?_
  show updArr (W12 m ρ c (Proc.devRef .tc main_v180)) (W12 m ρ c (Proc.devRef .tc main_v181))
      (W12 m ρ c (Proc.devRef .tc main_v126)) (W12 m ρ c (Proc.devRef .tc main_v128)) = _
  rw [W12_v180_val m ρ c, W12_v181_val m ρ c, W12_v126_val m ρ c, W12_v128_val m ρ c]

end

end Cert.KernelIdeal.HandVal

end
-- ==== Proof.KHostGather.lean ====
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.HandVal
open Idealize.ShloMosaic Idealize.ShloMosaic.ValueIdx

/-! # Row gathers read at an index

`x[idx]` for a matrix `x : [N, D]` and an index column `idx : [E, 1]` takes whole rows: result row `e` is
the operand's row `idx[e, 0]`, read as a signed integer and clamped into `[0, N − 1]`. -/

section RowGather
variable {α : Type}

/-- THE ROW GATHER READ AT `(e, k)`. -/
theorem gather_rows_apply {N E D w : Nat} (hN : 0 < N) (d : GatherDims ⟨2, ![N, D]⟩ ⟨2, ![E, 1]⟩ ⟨2, ![E, D]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, D])
    (x : (⟨2, ![N, D]⟩ : Shape).Idx → α) (idx : IVec ⟨2, ![E, 1]⟩ w) (e : Fin E) (k : Fin D) :
    Host.gather d x idx (ix2 e k)
      = x (ix2 (⟨min (idx (ix2 e (0 : Fin 1))).toInt.toNat (N - 1), by omega⟩ : Fin N) k) := by
  obtain ⟨od, cd, ob, sb, sm, iv, ss, wf⟩ := d
  simp only at ho hc hb hsb hm hv hs
  subst ho hc hb hsb hm hv hs
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, D], wf⟩ : GatherDims ⟨2, ![N, D]⟩ ⟨2, ![E, 1]⟩ ⟨2, ![E, D]⟩) (ix2 e k)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨show (1 : Fin 2) ∉ [(0 : Fin 2)] by decide, List.not_mem_nil⟩)]
    simp only [Nat.add_zero, Nat.zero_add]
    rfl

/-- THE VECTOR GATHER READ AT `e`: `x[idx]` for a vector `x : [N]` and an index column `idx : [E, 1]`. -/
theorem gather_vec_apply {N E w : Nat} (hN : 0 < N) (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (hs : d.sliceSizes = ![1])
    (x : (⟨1, ![N]⟩ : Shape).Idx → α) (idx : IVec ⟨2, ![E, 1]⟩ w) (e : Fin E) :
    Host.gather d x idx (ix1 e)
      = x (ix1 (⟨min (idx (ix2 e (0 : Fin 1))).toInt.toNat (N - 1), by omega⟩ : Fin N)) := by
  obtain ⟨od, cd, ob, sb, sm, iv, ss, wf⟩ := d
  simp only at ho hc hb hsb hm hv hs
  subst ho hc hb hsb hm hv hs
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx (⟨[], [0], [], [], [0], 1, ![1], wf⟩ : GatherDims ⟨1, ![N]⟩ ⟨2, ![E, 1]⟩ ⟨1, ![E]⟩) (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE COLUMN GATHER READ AT `(0, e)`: `x[:, idx]` for one row `x : [1, N]` and an index column `idx : [E, 1]`. -/
theorem gather_cols_apply {N E w : Nat} (hN : 0 < N) (d : GatherDims ⟨2, ![1, N]⟩ ⟨2, ![E, 1]⟩ ⟨2, ![1, E]⟩)
    (ho : d.offsetDims = [0]) (hc : d.collapsedSliceDims = [1]) (hb : d.operandBatchingDims = [])
    (hsb : d.startIndicesBatchingDims = []) (hm : d.startIndexMap = [1]) (hv : d.indexVectorDim = 1)
    (hs : d.sliceSizes = ![1, 1])
    (x : (⟨2, ![1, N]⟩ : Shape).Idx → α) (idx : IVec ⟨2, ![E, 1]⟩ w) (e : Fin E) :
    Host.gather d x idx (ix2 (0 : Fin 1) e)
      = x (ix2 (0 : Fin 1) (⟨min (idx (ix2 e (0 : Fin 1))).toInt.toNat (N - 1), by omega⟩ : Fin N)) := by
  obtain ⟨od, cd, ob, sb, sm, iv, ss, wf⟩ := d
  simp only at ho hc hb hsb hm hv hs
  subst ho hc hb hsb hm hv hs
  unfold Host.gather
  congr 1
  funext a
  refine Fin.ext ?_
  match a with
  | ⟨0, _⟩ =>
    show GatherDims.start _ (ix2 (0 : Fin 1) e) idx 0 + GatherDims.batchCoord _ (ix2 (0 : Fin 1) e) 0 + GatherDims.offCoord _ (ix2 (0 : Fin 1) e) 0 = _
    rw [GatherDims.batchCoord_eq_zero _ _ _ List.not_mem_nil]
    unfold GatherDims.start
    rw [dif_neg (show (0 : Fin 2) ∉ [(1 : Fin 2)] by decide)]
    unfold GatherDims.offCoord
    rw [dif_pos ((GatherDims.mem_sKept _ _).mpr ⟨show (0 : Fin 2) ∉ [(1 : Fin 2)] by decide, List.not_mem_nil⟩)]
    simp only [Nat.add_zero, Nat.zero_add]
    rfl
  | ⟨1, _⟩ =>
    show GatherDims.start _ (ix2 (0 : Fin 1) e) idx 1 + GatherDims.batchCoord _ (ix2 (0 : Fin 1) e) 1 + GatherDims.offCoord _ (ix2 (0 : Fin 1) e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[0], [1], [], [], [1], 1, ![1, 1], wf⟩ : GatherDims ⟨2, ![1, N]⟩ ⟨2, ![E, 1]⟩ ⟨2, ![1, E]⟩) (ix2 (0 : Fin 1) e)
        ⟨List.idxOf (1 : Fin 2) [1], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end RowGather

end Cert.KernelIdeal.HandVal
-- ==== Proof.KHostRead.lean ====
import proofs.«164897_j31104153157801_1_alg».proof.Proof.KHostDefs
import proofs.«164897_j31104153157801_1_alg».proof.Proof.KHostGather

set_option maxRecDepth 3196
noncomputable section

namespace Cert.KernelIdeal.HandVal
open Cert.KernelIdeal Cert.KernelIdeal.Gen
open Idealize.ShloMosaic Idealize.ShloMosaic.TcCoe Idealize.SL.Sem Idealize.ShloMosaic.StableHlo
open Idealize.ShloMosaic.ValueIdx

/-! # The small operands of the two kernels read at an index -/

/-- Channel-major position `4c + b` to blade-major position `64b + c`. -/
def permF (j : Fin 256) : Fin 256 := ⟨64 * (j.val % 4) + j.val / 4, by omega⟩
/-- Blade-major position `64b + c` to channel-major position `4c + b`. -/
def invF (i : Fin 256) : Fin 256 := ⟨4 * (i.val % 64) + i.val / 64, by omega⟩

/-- The first literal table is `permF`, entry by entry (each entry read signed and clamped into the axis, as a gather does). -/
theorem lit0_clamped : ∀ j : Fin 256, min (lit0 j).toInt.toNat (256 - 1) = (permF j).val := by decide
/-- The second literal table is `invF`, entry by entry. -/
theorem lit1_clamped : ∀ i : Fin 256, min (lit1 i).toInt.toNat (256 - 1) = (invF i).val := by decide

/-- The index column of a table holds the table: no entry is negative, so the wrap-around selects the entry itself. -/
theorem tblCol_apply (t : IVec S256 32) (j : Fin 256) : tblCol t (ix2 j (0 : Fin 1)) = t (ix1 j) := by
  unfold tblCol
  rw [broadcastInDim_apply (s := S256) (t := S256x1) ![0] bcast_S256_S256x1_0 _ (ix2 j (0 : Fin 1)) (ix1 j)
    (fun a => match a with | ⟨0, _⟩ => rfl)]
  rw [select_apply]
  unfold tblNeg
  rw [constantI_apply, select_zero]

theorem tblPerm_apply (j : Fin 256) : tblPerm (ix1 j) = lit0 j := by
  unfold tblPerm
  exact congrArg lit0 (Fin.ext (Shape.rowMajor_val_one (ix1 j)))

theorem tblInv_apply (i : Fin 256) : tblInv (ix1 i) = lit1 i := by
  unfold tblInv
  exact congrArg lit1 (Fin.ext (Shape.rowMajor_val_one (ix1 i)))

/-- The message kernel's matrix at `(r, c)` is the Clifford matrix at `(c, r)`. -/
theorem k1tOf_apply (w : FVec Ideal S4x64x64 .f32) (r c : Fin 256) : k1tOf w (ix2 r c) = cliffordOf w (ix2 c r) := by
  unfold k1tOf
  rw [truncf_apply]
  exact transpose_ix2_apply (cliffordOf w) transposes_S256x256_S256x256_1_0 r c

/-- The update kernel's matrix at `(r, c)` is the Clifford matrix at `(permF c, r)`. -/
theorem k2ptOf_apply (w : FVec Ideal S4x64x64 .f32) (r c : Fin 256) :
    k2ptOf w (ix2 r c) = cliffordOf w (ix2 (permF c) r) := by
  unfold k2ptOf
  rw [truncf_apply]
  refine (transpose_ix2_apply (Host.gather gather_S256x256_S256x1_S256x256_1_0_n_n_0_1_1256 (cliffordOf w) (tblCol tblPerm))
    transposes_S256x256_S256x256_1_0 r c).trans ?_
  refine (gather_rows_apply (N := 256) (E := 256) (D := 256) (by decide) gather_S256x256_S256x1_S256x256_1_0_n_n_0_1_1256
    rfl rfl rfl rfl rfl rfl rfl (cliffordOf w) (tblCol tblPerm) c r).trans ?_
  refine congrArg (fun i => cliffordOf w (ix2 i r)) (Fin.ext ?_)
  show min (tblCol tblPerm (ix2 c (0 : Fin 1))).toInt.toNat (256 - 1) = (permF c).val
  rw [tblCol_apply, tblPerm_apply]
  exact lit0_clamped c

/-- A bias `[4, 64]` flattened: position `k` is blade `k / 64`, channel `k % 64`. -/
theorem flat256_apply (b : FVec Ideal S4x64 .f32) (k : Fin 256) :
    flat256 b (ix1 k) = b (ix2 (⟨k.val / 64, by omega⟩ : Fin 4) (⟨k.val % 64, by omega⟩ : Fin 64)) := by
  unfold flat256
  refine shapeCast_apply b shapeCasts_S4x64_S256 (ix1 k) _ ?_
  rw [Shape.rowMajor_val_two, Shape.rowMajor_val_one]
  show k.val / 64 * 64 + k.val % 64 = k.val
  omega

/-- The message bias at column `c`. -/
theorem b1Of_apply (b : FVec Ideal S4x64 .f32) (u : Fin 1) (c : Fin 256) :
    b1Of b (ix2 u c) = b (ix2 (⟨c.val / 64, by omega⟩ : Fin 4) (⟨c.val % 64, by omega⟩ : Fin 64)) := by
  unfold b1Of
  rw [shapeCast_a_1a_apply (flat256 b) shapeCasts_S256_S1x256 u c]
  exact flat256_apply b c

/-- The update bias at column `c` (channel-major): the flattened bias at `permF c`. -/
theorem b2pOf_apply (b : FVec Ideal S4x64 .f32) (u : Fin 1) (c : Fin 256) :
    b2pOf b (ix2 u c) = flat256 b (ix1 (permF c)) := by
  unfold b2pOf
  rw [shapeCast_a_1a_apply _ shapeCasts_S256_S1x256 u c]
  refine (gather_vec_apply (N := 256) (E := 256) (by decide) gather_S256_S256x1_S256_n_0_n_n_0_1_1
    rfl rfl rfl rfl rfl rfl rfl (flat256 b) (tblCol tblPerm) c).trans ?_
  refine congrArg (fun i => flat256 b (ix1 i)) (Fin.ext ?_)
  show min (tblCol tblPerm (ix2 c (0 : Fin 1))).toInt.toNat (256 - 1) = (permF c).val
  rw [tblCol_apply, tblPerm_apply]
  exact lit0_clamped c

/-- The gate's weight column at row `r` (blade-major): the gate's weights at `invF r`. -/
theorem gwOf_apply (g : FVec Ideal S1x256 .f32) (r : Fin 256) (u : Fin 1) :
    gwOf g (ix2 r u) = g (ix2 (0 : Fin 1) (invF r)) := by
  show shapeCast S256x1 (Host.gather gather_S1x256_S256x1_S1x256_0_1_n_n_1_1_11 g (tblCol tblInv)) shapeCasts_S1x256_S256x1 (ix2 r u) = _
  have hu : u.val = 0 := by omega
  rw [shapeCast_apply _ shapeCasts_S1x256_S256x1 (ix2 r u) (ix2 (0 : Fin 1) r) (by
    rw [Shape.rowMajor_val_two, Shape.rowMajor_val_two]
    show 0 * 256 + r.val = r.val * 1 + u.val
    omega)]
  refine (gather_cols_apply (N := 256) (E := 256) (by decide) gather_S1x256_S256x1_S1x256_0_1_n_n_1_1_11
    rfl rfl rfl rfl rfl rfl rfl g (tblCol tblInv) r).trans ?_
  refine congrArg (fun i => g (ix2 (0 : Fin 1) i)) (Fin.ext ?_)
  show min (tblCol tblInv (ix2 r (0 : Fin 1))).toInt.toNat (256 - 1) = (invF r).val
  rw [tblCol_apply, tblInv_apply]
  exact lit1_clamped r

/-- The gate's bias. -/
theorem gbOf_apply (g : FVec Ideal S1 .f32) (u v : Fin 1) : gbOf g (ix2 u v) = g (ix1 v) := by
  unfold gbOf
  exact shapeCast_a_1a_apply g shapeCasts_S1_S1x1 u v

end Cert.KernelIdeal.HandVal
-- ==== Proof.LibRowGather.lean ====
/-
  A gather of whole rows, read at an index.

  `x[idx]` for an operand x : [N, A, B] and an index list idx : [E, 1] lowers to a gather whose slices are whole [1, A, B]
  rows: result entry (e, a, b) is x at (r, a, b), r the start index idx[e, 0] read as a signed integer and clamped
  into [0, N - 1].  The same for a vector x : [N] and the result [E].
-/
import Idealize.ShloMosaic.Lib.ValueIdx
import Idealize.ShloMosaic.PureOps.ShapeOps

noncomputable section

namespace Idealize.ShloMosaic.RowGather

open Idealize.ShloMosaic Idealize.ShloMosaic.ValueIdx

variable {α : Type}

/-- The dimension numbers of a gather of whole rows of a rank-3 operand. -/
abbrev rows3 (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The row a start index names: read signed, clamped into the operand. -/
def rowOf {N w : Nat} (hN : 0 < N) (v : BitVec w) : Fin N := ⟨min v.toInt.toNat (N - 1), by omega⟩

section Rows3
variable {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B)

theorem rows3_coord0 (hN : 0 < N) :
    (rows3 N E A B wf).start (ix3 e a b) idx (0 : Fin 3) + (rows3 N E A B wf).offCoord (ix3 e a b) (0 : Fin 3)
      = (rowOf hN (idx (ix2 e (0 : Fin 1)))).val := by
  rw [GatherDims.offCoord_eq_zero _ _ _ (fun h => ((GatherDims.mem_sKept _ _).mp h).1 (List.mem_singleton.mpr rfl)),
    Nat.add_zero]
  unfold GatherDims.start
  rw [dif_pos (show (0 : Fin 3) ∈ (rows3 N E A B wf).startIndexMap from List.mem_singleton.mpr rfl)]
  have hsi : (rows3 N E A B wf).siIdx (ix3 e a b) ⟨List.idxOf (0 : Fin 3) (rows3 N E A B wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

theorem rows3_coord1 :
    (rows3 N E A B wf).start (ix3 e a b) idx (1 : Fin 3) + (rows3 N E A B wf).offCoord (ix3 e a b) (1 : Fin 3) = a.val := by
  have h0 : (rows3 N E A B wf).start (ix3 e a b) idx (1 : Fin 3) = 0 := by
    unfold GatherDims.start
    rw [dif_neg (show ¬ (1 : Fin 3) ∈ ([0] : List (Fin 3)) by decide)]
  rw [h0, Nat.zero_add]
  rfl

theorem rows3_coord2 :
    (rows3 N E A B wf).start (ix3 e a b) idx (2 : Fin 3) + (rows3 N E A B wf).offCoord (ix3 e a b) (2 : Fin 3) = b.val := by
  have h0 : (rows3 N E A B wf).start (ix3 e a b) idx (2 : Fin 3) = 0 := by
    unfold GatherDims.start
    rw [dif_neg (show ¬ (2 : Fin 3) ∈ ([0] : List (Fin 3)) by decide)]
  rw [h0, Nat.zero_add]
  rfl

theorem rows3_apply (hN : 0 < N) (x : (⟨3, ![N, A, B]⟩ : Shape).Idx → α) :
    Host.gather (rows3 N E A B wf) x idx (ix3 e a b) = x (ix3 (rowOf hN (idx (ix2 e (0 : Fin 1)))) a b) := by
  unfold Host.gather
  congr 1
  funext ax
  refine Fin.ext ?_
  show (rows3 N E A B wf).start (ix3 e a b) idx ax + (rows3 N E A B wf).batchCoord (ix3 e a b) ax
      + (rows3 N E A B wf).offCoord (ix3 e a b) ax = _
  rw [GatherDims.batchCoord_eq_zero _ _ _ List.not_mem_nil, Nat.add_zero]
  match ax with
  | ⟨0, _⟩ => exact rows3_coord0 wf idx e a b hN
  | ⟨1, _⟩ => exact rows3_coord1 wf idx e a b
  | ⟨2, _⟩ => exact rows3_coord2 wf idx e a b

end Rows3

/-- The dimension numbers of a gather of entries of a vector. -/
abbrev rows1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (rows1 N E wf) x idx (ix1 e) = x (ix1 (rowOf hN (idx (ix2 e (0 : Fin 1))))) := by
  unfold Host.gather
  congr 1
  funext ax
  obtain rfl : ax = 0 := Subsingleton.elim _ _
  refine Fin.ext ?_
  show (rows1 N E wf).start (ix1 e) idx 0 + (rows1 N E wf).batchCoord (ix1 e) 0 + (rows1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rows1 N E wf).startIndexMap from List.mem_singleton.mpr rfl)]
  have hsi : (rows1 N E wf).siIdx (ix1 e) ⟨List.idxOf (0 : Fin 1) (rows1 N E wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

end Idealize.ShloMosaic.RowGather

end
-- ==== Proof.KHostRead2.lean ====
import proofs.«164897_j31104153157801_1_alg».proof.Proof.KHostDefs
import proofs.«164897_j31104153157801_1_alg».proof.Proof.KHostGather
import proofs.«164897_j31104153157801_1_alg».proof.Proof.LibRowGather
import Idealize.ShloMosaic.Lib.IdealHost

set_option maxRecDepth 3196
noncomputable section

namespace Cert.KernelIdeal.HandVal
open Cert.KernelIdeal Cert.KernelIdeal.Gen
open Idealize.ShloMosaic Idealize.ShloMosaic.TcCoe Idealize.SL.Sem Idealize.ShloMosaic.StableHlo
open Idealize.ShloMosaic.ValueIdx Idealize.ShloMosaic.RowGather

/-! # The per-edge and per-node arrays read at an index: the pads, the cuts, the row gathers, the normalisation -/

/-- The padding value is zero. -/
theorem padZero_apply (i : S_.Idx) : padZero i = 0 := by
  unfold padZero
  rw [sitofp_apply, constantI_apply]
  show (((0#32 : BitVec 32).toInt : ℝ) : EReal) = 0
  rw [show (0#32 : BitVec 32).toInt = 0 from rfl, Int.cast_zero, EReal.coe_zero]

/-- A padded per-edge row below row 600000 is the row itself. -/
theorem padE_apply_lt (x : FVec Ideal S600000x256 .f32) (e : Fin 600064) (k : Fin 256) (h : e.val < 600000) :
    padE x (ix2 e k) = x (ix2 (⟨e.val, h⟩ : Fin 600000) k) := by
  unfold padE
  refine pad_apply_of_inside _ _ _ x padZero pads_S600000x256_S600064x256_0640_000 h_S_ (ix2 e k) (ix2 (⟨e.val, h⟩ : Fin 600000) k) fun a => ?_
  match a with
  | ⟨0, _⟩ => show e.val = 0 + e.val * (0 + 1); omega
  | ⟨1, _⟩ => show k.val = 0 + k.val * (0 + 1); omega

/-- A padded per-edge row from row 600000 on is zero. -/
theorem padE_apply_ge (x : FVec Ideal S600000x256 .f32) (e : Fin 600064) (k : Fin 256) (h : 600000 ≤ e.val) :
    padE x (ix2 e k) = 0 := by
  unfold padE
  rw [pad_apply_of_not_inside _ _ _ x padZero pads_S600000x256_S600064x256_0640_000 h_S_ (ix2 e k) (0 : Fin 2) (by
    show ¬(0 ≤ e.val ∧ (e.val - 0) % (0 + 1) = 0 ∧ (e.val - 0) / (0 + 1) < 600000)
    omega)]
  exact padZero_apply _

/-- The padded normalisation column below row 600000 is the normalisation. -/
theorem padCol_apply_lt (x : FVec Ideal S600000 .f32) (e : Fin 600064) (u : Fin 1) (h : e.val < 600000) :
    padCol x (ix2 e u) = x (ix1 (⟨e.val, h⟩ : Fin 600000)) := by
  unfold padCol
  have hu : u.val = 0 := by omega
  rw [shapeCast_apply _ shapeCasts_S600064_S600064x1 (ix2 e u) (ix1 e) (by
    rw [Shape.rowMajor_val_two, Shape.rowMajor_val_one]
    show e.val = e.val * 1 + u.val
    omega)]
  refine pad_apply_of_inside _ _ _ x padZero pads_S600000_S600064_0640 h_S_ (ix1 e) (ix1 (⟨e.val, h⟩ : Fin 600000)) fun a => ?_
  match a with
  | ⟨0, _⟩ => show e.val = 0 + e.val * (0 + 1); omega

/-- The padded normalisation column from row 600000 on is zero. -/
theorem padCol_apply_ge (x : FVec Ideal S600000 .f32) (e : Fin 600064) (u : Fin 1) (h : 600000 ≤ e.val) :
    padCol x (ix2 e u) = 0 := by
  unfold padCol
  have hu : u.val = 0 := by omega
  rw [shapeCast_apply _ shapeCasts_S600064_S600064x1 (ix2 e u) (ix1 e) (by
    rw [Shape.rowMajor_val_two, Shape.rowMajor_val_one]
    show e.val = e.val * 1 + u.val
    omega)]
  rw [pad_apply_of_not_inside _ _ _ x padZero pads_S600000_S600064_0640 h_S_ (ix1 e) (0 : Fin 1) (by
    show ¬(0 ≤ e.val ∧ (e.val - 0) % (0 + 1) = 0 ∧ (e.val - 0) / (0 + 1) < 600000)
    omega)]
  exact padZero_apply _

/-- A padded per-node row below row 100000 is the row itself. -/
theorem padN_apply_lt (x : FVec Ideal S100000x256 .f32) (n : Fin 100352) (k : Fin 256) (h : n.val < 100000) :
    padN x (ix2 n k) = x (ix2 (⟨n.val, h⟩ : Fin 100000) k) := by
  unfold padN
  refine pad_apply_of_inside _ _ _ x padZero pads_S100000x256_S100352x256_03520_000 h_S_ (ix2 n k) (ix2 (⟨n.val, h⟩ : Fin 100000) k) fun a => ?_
  match a with
  | ⟨0, _⟩ => show n.val = 0 + n.val * (0 + 1); omega
  | ⟨1, _⟩ => show k.val = 0 + k.val * (0 + 1); omega

/-- A padded per-node row from row 100000 on is zero. -/
theorem padN_apply_ge (x : FVec Ideal S100000x256 .f32) (n : Fin 100352) (k : Fin 256) (h : 100000 ≤ n.val) :
    padN x (ix2 n k) = 0 := by
  unfold padN
  rw [pad_apply_of_not_inside _ _ _ x padZero pads_S100000x256_S100352x256_03520_000 h_S_ (ix2 n k) (0 : Fin 2) (by
    show ¬(0 ≤ n.val ∧ (n.val - 0) % (0 + 1) = 0 ∧ (n.val - 0) / (0 + 1) < 100000)
    omega)]
  exact padZero_apply _

/-- The message kernel's result cut to the edges: row `e` is row `e`. -/
theorem cutE_apply (o : FVec Ideal S600064x256 .f32) (e : Fin 600000) (k : Fin 256) :
    cutE o (ix2 e k) = o (ix2 (⟨e.val, by omega⟩ : Fin 600064) k) := by
  unfold cutE
  refine extractStridedSlice_apply _ o slices_S600064x256_S600000x256_0_0 (ix2 e k) (ix2 (⟨e.val, by omega⟩ : Fin 600064) k) fun a => ?_
  match a with
  | ⟨0, _⟩ => show e.val = 0 + e.val; omega
  | ⟨1, _⟩ => show k.val = 0 + k.val; omega

/-- The update kernel's result cut to the nodes: row `n` is row `n`. -/
theorem cutN_apply (o : FVec Ideal S100352x256 .f32) (n : Fin 100000) (k : Fin 256) :
    cutN o (ix2 n k) = o (ix2 (⟨n.val, by omega⟩ : Fin 100352) k) := by
  unfold cutN
  refine extractStridedSlice_apply _ o slices_S100352x256_S100000x256_0_0 (ix2 n k) (ix2 (⟨n.val, by omega⟩ : Fin 100352) k) fun a => ?_
  match a with
  | ⟨0, _⟩ => show n.val = 0 + n.val; omega
  | ⟨1, _⟩ => show k.val = 0 + k.val; omega

/-- An index list as a column holds the list. -/
theorem colOf_apply (x : IVec S600000 32) (e : Fin 600000) (u : Fin 1) : colOf x (ix2 e u) = x (ix1 e) := by
  unfold colOf
  exact broadcastInDim_apply (s := S600000) (t := S600000x1) ![0] bcast_S600000_S600000x1_0 x (ix2 e u) (ix1 e)
    (fun a => match a with | ⟨0, _⟩ => rfl)

/-- The source rows: row `e` is the features' row the wrapped source index names. -/
theorem hsrcOf_apply (h : FVec Ideal S100000x256 .f32) (ei : IVec S2x600000 32) (e : Fin 600000) (k : Fin 256) :
    hsrcOf h ei (ix2 e k) = h (ix2 (rowOf (N := 100000) (by decide) (wrapOf 100000#32 (srcOf ei) (ix1 e))) k) := by
  unfold hsrcOf
  refine (gather_rows_apply (N := 100000) (E := 600000) (D := 256) (by decide) gather_S100000x256_S600000x1_S600000x256_1_0_n_n_0_1_1256
    rfl rfl rfl rfl rfl rfl rfl h _ e k).trans ?_
  refine congrArg (fun i => h (ix2 i k)) (Fin.ext ?_)
  show min (colOf (wrapOf 100000#32 (srcOf ei)) (ix2 e (0 : Fin 1))).toInt.toNat (100000 - 1) = _
  rw [colOf_apply]
  rfl

/-- The relation rows: row `e` is the embedding the wrapped edge type names. -/
theorem ruvOf_apply (r : FVec Ideal S500x256 .f32) (et : IVec S600000 32) (e : Fin 600000) (k : Fin 256) :
    ruvOf r et (ix2 e k) = r (ix2 (rowOf (N := 500) (by decide) (wrapOf 500#32 et (ix1 e))) k) := by
  unfold ruvOf
  refine (gather_rows_apply (N := 500) (E := 600000) (D := 256) (by decide) gather_S500x256_S600000x1_S600000x256_1_0_n_n_0_1_1256
    rfl rfl rfl rfl rfl rfl rfl r _ e k).trans ?_
  refine congrArg (fun i => r (ix2 i k)) (Fin.ext ?_)
  show min (colOf (wrapOf 500#32 et) (ix2 e (0 : Fin 1))).toInt.toNat (500 - 1) = _
  rw [colOf_apply]
  rfl

/-- A per-node array read at each edge's node. -/
theorem atEdges_apply (d : FVec Ideal S100000 .f32) (x : IVec S600000 32) (e : Fin 600000) :
    atEdges d x (ix1 e) = d (ix1 (rowOf (N := 100000) (by decide) (wrapOf 100000#32 x (ix1 e)))) := by
  unfold atEdges
  refine (gather_vec_apply (N := 100000) (E := 600000) (by decide) gather_S100000_S600000x1_S600000_n_0_n_n_0_1_1
    rfl rfl rfl rfl rfl rfl rfl d _ e).trans ?_
  refine congrArg (fun i => d (ix1 i)) (Fin.ext ?_)
  show min (colOf (wrapOf 100000#32 x) (ix2 e (0 : Fin 1))).toInt.toNat (100000 - 1) = _
  rw [colOf_apply]
  rfl

/-- The normalisation of edge `e`: the reciprocal square root of the product of its end nodes' degrees, at least 1. -/
theorem normOf_apply (ei : IVec S2x600000 32) (e : Fin 600000) :
    normOf ei (ix1 e) = Ideal.rsqrt (max
      (degOf (srcOf ei) (ix1 (rowOf (N := 100000) (by decide) (wrapOf 100000#32 (srcOf ei) (ix1 e))))
        * degOf (dstOf ei) (ix1 (rowOf (N := 100000) (by decide) (wrapOf 100000#32 (dstOf ei) (ix1 e))))) 1) := by
  unfold normOf Host.rsqrt
  rw [Ideal.hostUnary_rsqrt_def, maximumf_apply, mulf_apply, atEdges_apply, atEdges_apply]
  congr 2
  unfold onesE
  rw [broadcastInDim_scalar_apply, constant_apply]
  exact Ideal.ofBits_one_f32

end Cert.KernelIdeal.HandVal
-- ==== Proof.KHostScatter.lean ====
import Idealize.ShloMosaic.Lib.ValueIdx
import Idealize.ShloMosaic.Lib.Pipeline.Value
import Idealize.ShloMosaic.PureOps.Ideal.Laws

noncomputable section

namespace Cert.KernelIdeal.HandVal
open Idealize.ShloMosaic Idealize.ShloMosaic.ValueIdx
open scoped BigOperators

/-! # A row scatter-add read at an index

`zeros.at[idx].add(upd)` for rows `upd : [E, D]` and an index column `idx : [E, 1]` into `[N, D]`: entry `(n, k)`
of the result is the operand's entry plus the sum, over the rows `e` whose index (read signed, NOT clamped) is `n`, of
`upd (e, k)`; a row whose index is outside `[0, N)` goes nowhere. -/

/-- The dimension numbers of a scatter of whole rows of a matrix. -/
abbrev srows2 (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : Nat} (wf : ScatterDims.WF ⟨2, ![N, D]⟩ ⟨2, ![E, 1]⟩ ⟨2, ![E, D]⟩ [1] [0] [0] 1)
    (idx : IVec ⟨2, ![E, 1]⟩ w)

theorem start2_0 (j : (⟨2, ![E, D]⟩ : Shape).Idx) :
    (srows2 N E D wf).start j idx (0 : Fin 2) = (idx (ix2 (j 0) (0 : Fin 1))).toInt := by
  unfold ScatterDims.start
  rw [dif_pos (show (0 : Fin 2) ∈ (srows2 N E D wf).scatterDimsToOperandDims from List.mem_singleton.mpr rfl)]
  have hsi : (srows2 N E D wf).siIdx j ⟨List.idxOf (0 : Fin 2) (srows2 N E D wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

theorem start2_1 (j : (⟨2, ![E, D]⟩ : Shape).Idx) : (srows2 N E D wf).start j idx (1 : Fin 2) = 0 := by
  unfold ScatterDims.start
  rw [dif_neg (show ¬ (1 : Fin 2) ∈ ([0] : List (Fin 2)) by decide)]

theorem window2_0 (j : (⟨2, ![E, D]⟩ : Shape).Idx) : (srows2 N E D wf).window j (0 : Fin 2) = 0 := by
  unfold ScatterDims.window
  have hk : ¬ (0 : Fin 2) ∈ (srows2 N E D wf).sKept := fun h => by
    have h2 := (List.mem_filter.1 h).2
    simp at h2
  rw [dif_neg hk]

theorem window2_1 (j : (⟨2, ![E, D]⟩ : Shape).Idx) : (srows2 N E D wf).window j (1 : Fin 2) = (j 1).val := rfl

/-- Where an update lands: row `idx[e, 0]` (read signed), same column; nowhere when the row is outside. -/
theorem resultIdx2_eq_some_iff (j : (⟨2, ![E, D]⟩ : Shape).Idx) (i : (⟨2, ![N, D]⟩ : Shape).Idx) :
    (srows2 N E D wf).resultIdx? j idx = some i ↔ (idx (ix2 (j 0) (0 : Fin 1))).toInt = ((i 0).val : Int) ∧ (j 1).val = (i 1).val := by
  unfold ScatterDims.resultIdx?
  have hi0 : (i 0).val < N := (i 0).isLt
  have hj1 : (j 1).val < D := (j 1).isLt
  have s0 := start2_0 wf idx j
  have s1 := start2_1 wf idx j
  have w0 := window2_0 wf j
  have w1 := window2_1 wf j
  constructor
  · intro h
    split at h
    · next hall =>
      have e := Option.some.inj h
      have e0 := congrArg (fun f => (f (0 : Fin 2)).val) e
      have e1 := congrArg (fun f => (f (1 : Fin 2)).val) e
      have h0 := hall (0 : Fin 2)
      simp only [s0, w0] at e0 h0
      simp only [s1, w1] at e1
      refine ⟨by omega, by omega⟩
    · exact absurd h (by simp)
  · rintro ⟨h0, h1⟩
    have hall : ∀ a : Fin 2, 0 ≤ (srows2 N E D wf).start j idx a + ((srows2 N E D wf).window j a : Int)
        ∧ (srows2 N E D wf).start j idx a + ((srows2 N E D wf).window j a : Int) < ((⟨2, ![N, D]⟩ : Shape).size a : Int) := by
      intro a
      match a with
      | ⟨0, _⟩ =>
        show 0 ≤ (srows2 N E D wf).start j idx (0 : Fin 2) + ((srows2 N E D wf).window j (0 : Fin 2) : Int)
          ∧ (srows2 N E D wf).start j idx (0 : Fin 2) + ((srows2 N E D wf).window j (0 : Fin 2) : Int) < (N : Int)
        rw [s0, w0]; omega
      | ⟨1, _⟩ =>
        show 0 ≤ (srows2 N E D wf).start j idx (1 : Fin 2) + ((srows2 N E D wf).window j (1 : Fin 2) : Int)
          ∧ (srows2 N E D wf).start j idx (1 : Fin 2) + ((srows2 N E D wf).window j (1 : Fin 2) : Int) < (D : Int)
        rw [s1, w1]; omega
    rw [dif_pos hall]
    congr 1
    funext a
    refine Fin.ext ?_
    match a with
    | ⟨0, _⟩ =>
      show ((srows2 N E D wf).start j idx (0 : Fin 2) + ((srows2 N E D wf).window j (0 : Fin 2) : Int)).toNat = (i 0).val
      rw [s0, w0]; omega
    | ⟨1, _⟩ =>
      show ((srows2 N E D wf).start j idx (1 : Fin 2) + ((srows2 N E D wf).window j (1 : Fin 2) : Int)).toNat = (i 1).val
      rw [s1, w1]; omega

/-- THE ROW SCATTER-ADD READ AT `(n, k)`, at the dimension numbers `srows2`. -/
theorem scatterAdd2_apply {φ : FTy} (x : FVec Ideal ⟨2, ![N, D]⟩ φ) (upd : FVec Ideal ⟨2, ![E, D]⟩ φ) (n : Fin N) (k : Fin D) :
    Host.scatterAdd (srows2 N E D wf) x idx upd (ix2 n k)
      = x (ix2 n k) + ∑ e ∈ Finset.univ.filter (fun e : Fin E => (idx (ix2 e (0 : Fin 1))).toInt = (n.val : Int)), upd (ix2 e k) := by
  show Ideal.hostScatterAdd (srows2 N E D wf) x idx upd (ix2 n k) = _
  unfold Ideal.hostScatterAdd
  congr 1
  rw [Finset.sum_filter, sum_idx2, Finset.sum_filter]
  refine Finset.sum_congr rfl fun e _ => ?_
  simp only [resultIdx2_eq_some_iff wf idx]
  by_cases ht : (idx (ix2 e (0 : Fin 1))).toInt = (n.val : Int)
  · have : ∀ b : Fin D, ((idx (ix2 ((ix2 e b : (⟨2, ![E, D]⟩ : Shape).Idx) 0) (0 : Fin 1))).toInt = (((ix2 n k : (⟨2, ![N, D]⟩ : Shape).Idx) 0).val : Int)
        ∧ ((ix2 e b : (⟨2, ![E, D]⟩ : Shape).Idx) 1).val = ((ix2 n k : (⟨2, ![N, D]⟩ : Shape).Idx) 1).val) ↔ b = k := fun b =>
      ⟨fun h => Fin.ext h.2, fun h => ⟨ht, congrArg Fin.val h⟩⟩
    simp only [this, Finset.sum_ite_eq', Finset.mem_univ, if_true, ht]
  · have : ∀ b : Fin D, ¬((idx (ix2 ((ix2 e b : (⟨2, ![E, D]⟩ : Shape).Idx) 0) (0 : Fin 1))).toInt = (((ix2 n k : (⟨2, ![N, D]⟩ : Shape).Idx) 0).val : Int)
        ∧ ((ix2 e b : (⟨2, ![E, D]⟩ : Shape).Idx) 1).val = ((ix2 n k : (⟨2, ![N, D]⟩ : Shape).Idx) 1).val) := fun b h => ht h.1
    simp only [this, if_false, Finset.sum_const_zero, ht]

end RowScatter

/-- THE ROW SCATTER-ADD READ AT `(n, k)`, for any dimension numbers with those fields. -/
theorem scatterAdd_rows_apply {N E D w : Nat} {φ : FTy} (d : ScatterDims ⟨2, ![N, D]⟩ ⟨2, ![E, 1]⟩ ⟨2, ![E, D]⟩)
    (hu : d.updateWindowDims = [1]) (hi : d.insertedWindowDims = [0]) (hm : d.scatterDimsToOperandDims = [0])
    (hv : d.indexVectorDim = 1) (x : FVec Ideal ⟨2, ![N, D]⟩ φ) (idx : IVec ⟨2, ![E, 1]⟩ w)
    (upd : FVec Ideal ⟨2, ![E, D]⟩ φ) (n : Fin N) (k : Fin D) :
    Host.scatterAdd d x idx upd (ix2 n k)
      = x (ix2 n k) + ∑ e ∈ Finset.univ.filter (fun e : Fin E => (idx (ix2 e (0 : Fin 1))).toInt = (n.val : Int)), upd (ix2 e k) := by
  obtain ⟨uw, iw, sd, iv, wf⟩ := d
  simp only at hu hi hm hv
  subst hu hi hm hv
  exact scatterAdd2_apply wf idx x upd n k

end Cert.KernelIdeal.HandVal
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«164897_j31104153157801_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibHostLayer.lean ====
/-
  A dense layer on the host, read at an index.

  `x @ W + b` for a batch x of E rows of N numbers, a weight matrix W laid out [N, Q] and a bias vector b of Q numbers
  lowers to a `dot_general` contracting x's second axis with W's first, and b broadcast first to one row [1, Q] and
  then along the E rows.  Over the extended reals entry (e, q) of the result is  Σ n, x (e, n) * W (n, q) + b q.
-/
import proofs.«164897_j31104153157801_1_alg».proof.Proof.LibDenseHost
import Idealize.ShloMosaic.Lib.Pipeline.Value

set_option maxRecDepth 16384

noncomputable section

open scoped BigOperators

namespace Idealize.ShloMosaic.HostLayer

open Idealize.ShloMosaic Idealize.ShloMosaic.ValueIdx Idealize.ShloMosaic.DenseBlock

/-- A bias vector broadcast to one row and then along the rows, at (e, q). -/
theorem bias_apply {E Q : ℕ} (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    broadcastInDim ⟨2, ![E, Q]⟩ ![0, 1] h2 (broadcastInDim ⟨2, ![1, Q]⟩ ![1] h1 b) (ix2 e q) = b (ix1 q) := by
  have hq := q.isLt
  rw [broadcastInDim_apply ![0, 1] h2 _ (ix2 e q) (ix2 (0 : Fin 1) q) (fun a => by
      match a with
      | ⟨0, _⟩ => show (0 : ℕ) = if (1 : ℕ) = 1 then 0 else e.val; simp
      | ⟨1, _⟩ => show q.val = if Q = 1 then 0 else q.val; split <;> omega),
    broadcastInDim_apply ![1] h1 _ (ix2 (0 : Fin 1) q) (ix1 q) (fun a => by
      match a with
      | ⟨0, _⟩ => show q.val = if Q = 1 then 0 else q.val; split <;> omega)]

/-- One layer on the host: a product and a broadcast bias, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    addf (Host.dotGeneral (mmDims E N Q wf) none X W)
        (broadcastInDim ⟨2, ![E, Q]⟩ ![0, 1] h2 (broadcastInDim ⟨2, ![1, Q]⟩ ![1] h1 b)) (ix2 e q)
      = (∑ n : Fin N, X (ix2 e n) * W (ix2 n q)) + b (ix1 q) := by
  show FloatOps.dotGeneral (mmDims E N Q wf) none _ X W (ix2 e q)
      + broadcastInDim ⟨2, ![E, Q]⟩ ![0, 1] h2 (broadcastInDim ⟨2, ![1, Q]⟩ ![1] h1 b) (ix2 e q) = _
  rw [dotGeneral_apply_ix2, bias_apply]

end Idealize.ShloMosaic.HostLayer

end
-- ==== Proof.RVal1.lean ====
/-
  The reference's stages read at an index.

  Flat positions: a row of 256 numbers is read blade-major, position 64 b + c for blade b and channel c, by the
  Clifford-linear maps, and channel-major, position 4 c + b, by the gate and by the final flattening.
-/
import proofs.«164897_j31104153157801_1_alg».proof.Proof.RVal0
import proofs.«164897_j31104153157801_1_alg».proof.Proof.LibHostLayer
import proofs.«164897_j31104153157801_1_alg».proof.Proof.LibRowGather
import Idealize.ShloMosaic.Lib.ValueLayout
import Idealize.ShloMosaic.Lib.IdealHost

set_option maxRecDepth 16384

noncomputable section

open scoped BigOperators

namespace Cert.ReferenceIdeal.HandVal

open Cert.ReferenceIdeal Cert.ReferenceIdeal.Gen Idealize.ShloMosaic Idealize.ShloMosaic.ValueIdx
  Idealize.ShloMosaic.DenseBlock Idealize.ShloMosaic.HostLayer Idealize.ShloMosaic.RowGather

/-! ## Flat positions -/

/-- The blade-major position of (blade, channel). -/
def bm (b : Fin 4) (c : Fin 64) : Fin 256 := ⟨64 * b.val + c.val, by omega⟩
/-- The channel-major position of (channel, blade). -/
def cm (c : Fin 64) (b : Fin 4) : Fin 256 := ⟨4 * c.val + b.val, by omega⟩
/-- The channel of a blade-major position. -/
def chB (i : Fin 256) : Fin 64 := ⟨i.val % 64, by omega⟩
/-- The blade of a blade-major position. -/
def blB (i : Fin 256) : Fin 4 := ⟨i.val / 64, by omega⟩
/-- The channel of a channel-major position. -/
def chC (k : Fin 256) : Fin 64 := ⟨k.val / 4, by omega⟩
/-- The blade of a channel-major position. -/
def blC (k : Fin 256) : Fin 4 := ⟨k.val % 4, by omega⟩

theorem bm_blB_chB (i : Fin 256) : bm (blB i) (chB i) = i := Fin.ext (by show 64 * (i.val / 64) + i.val % 64 = i.val; omega)
theorem cm_chC_blC (k : Fin 256) : cm (chC k) (blC k) = k := Fin.ext (by show 4 * (k.val / 4) + k.val % 4 = k.val; omega)

/-! ## Re-layouts -/

theorem hcN_apply (h : FVec Ideal S100000x256 .f32) (n : Fin 100000) (c : Fin 64) (b : Fin 4) :
    hcN h (ix3 n c b) = h (ix2 n (bm b c)) := by
  unfold hcN
  refine (transpose_ix3_021_apply _ _ n c b).trans ?_
  exact shapeCast_apply _ _ _ _ (by
    rw [Shape.rowMajor_val_two, Shape.rowMajor_val_three]
    show n.val * 256 + (64 * b.val + c.val) = (n.val * 4 + b.val) * 64 + c.val
    omega)

theorem hcR_apply (rel : FVec Ideal S500x256 .f32) (r : Fin 500) (c : Fin 64) (b : Fin 4) :
    hcR rel (ix3 r c b) = rel (ix2 r (bm b c)) := by
  unfold hcR
  refine (transpose_ix3_021_apply _ _ r c b).trans ?_
  exact shapeCast_apply _ _ _ _ (by
    rw [Shape.rowMajor_val_two, Shape.rowMajor_val_three]
    show r.val * 256 + (64 * b.val + c.val) = (r.val * 4 + b.val) * 64 + c.val
    omega)

theorem srcOf_apply (ei : IVec S2x600000 32) (e : Fin 600000) : srcOf ei (ix1 e) = ei (ix2 (0 : Fin 2) e) := by
  unfold srcOf
  refine (shapeCast_apply _ _ _ (ix2 (0 : Fin 1) e) (by
    rw [Shape.rowMajor_val_two, Shape.rowMajor_val_one]
    show 0 * 600000 + e.val = e.val
    omega)).trans ?_
  exact extractStridedSlice_apply _ _ _ _ _ (fun a => by
    match a with
    | ⟨0, _⟩ => rfl
    | ⟨1, _⟩ => exact (Nat.zero_add _).symm)

theorem dstOf_apply (ei : IVec S2x600000 32) (e : Fin 600000) : dstOf ei (ix1 e) = ei (ix2 (1 : Fin 2) e) := by
  unfold dstOf
  refine (shapeCast_apply _ _ _ (ix2 (0 : Fin 1) e) (by
    rw [Shape.rowMajor_val_two, Shape.rowMajor_val_one]
    show 0 * 600000 + e.val = e.val
    omega)).trans ?_
  exact extractStridedSlice_apply _ _ _ _ _ (fun a => by
    match a with
    | ⟨0, _⟩ => rfl
    | ⟨1, _⟩ => exact (Nat.zero_add _).symm)

theorem colOf_apply (x : IVec S600000 32) (e : Fin 600000) : colOf x (ix2 e (0 : Fin 1)) = x (ix1 e) := by
  unfold colOf
  exact broadcastInDim_apply _ _ _ _ _ (fun a => by
    match a with
    | ⟨0, _⟩ => show e.val = if (600000 : ℕ) = 1 then 0 else e.val; simp)

/-! ## The rows the gathers read -/

/-- The source node of edge e as a row of the node arrays: negative indices from the end, then clamped. -/
def srcIx (ei : IVec S2x600000 32) (e : Fin 600000) : Fin 100000 :=
  rowOf (by decide) (fixN (srcOf ei) (ix1 e))
/-- The destination node of edge e as a row of the node arrays. -/
def dstIx (ei : IVec S2x600000 32) (e : Fin 600000) : Fin 100000 :=
  rowOf (by decide) (fixN (dstOf ei) (ix1 e))
/-- The relation of edge e as a row of the embedding table. -/
def etIx (et : IVec S600000 32) (e : Fin 600000) : Fin 500 :=
  rowOf (by decide) (fixR et (ix1 e))

theorem hsrcOf_apply (h : FVec Ideal S100000x256 .f32) (ei : IVec S2x600000 32) (e : Fin 600000) (c : Fin 64) (b : Fin 4) :
    hsrcOf h ei (ix3 e c b) = h (ix2 (srcIx ei e) (bm b c)) := by
  unfold hsrcOf
  refine (rows3_apply gather_S100000x64x4_S600000x1_S600000x64x4_12_0_n_n_0_1_1644_wf _ e c b (by decide) _).trans ?_
  rw [colOf_apply, hcN_apply]
  rfl

theorem ruvOf_apply (rel : FVec Ideal S500x256 .f32) (et : IVec S600000 32) (e : Fin 600000) (c : Fin 64) (b : Fin 4) :
    ruvOf rel et (ix3 e c b) = rel (ix2 (etIx et e) (bm b c)) := by
  unfold ruvOf
  refine (rows3_apply gather_S500x64x4_S600000x1_S600000x64x4_12_0_n_n_0_1_1644_wf _ e c b (by decide) _).trans ?_
  rw [colOf_apply, hcR_apply]
  rfl

end Cert.ReferenceIdeal.HandVal

end
-- ==== Proof.RVal2.lean ====
/-
  The reference's message and update read at an index, as plain sums over the 256 positions of a row.
-/
import proofs.«164897_j31104153157801_1_alg».proof.Proof.RVal1

set_option maxRecDepth 16384

noncomputable section

open scoped BigOperators

namespace Cert.ReferenceIdeal.HandVal

open Cert.ReferenceIdeal Cert.ReferenceIdeal.Gen Idealize.ShloMosaic Idealize.ShloMosaic.ValueIdx
  Idealize.ShloMosaic.DenseBlock Idealize.ShloMosaic.HostLayer Idealize.ShloMosaic.RowGather

variable (h : FVec Ideal S100000x256 .f32) (ei : IVec S2x600000 32) (et : IVec S600000 32) (rel : FVec Ideal S500x256 .f32)
  (mw : FVec Ideal S4x64x64 .f32) (mb : FVec Ideal S4x64 .f32) (uw : FVec Ideal S4x64x64 .f32) (ub : FVec Ideal S4x64 .f32)
  (gw : FVec Ideal S1x256 .f32) (gb : FVec Ideal S1 .f32)

/-- A bias [4, 64] flattened, at a blade-major position. -/
theorem biasFlat_apply (bias : FVec Ideal S4x64 .f32) (b : Fin 4) (c : Fin 64) :
    (shapeCast S256 bias shapeCasts_S4x64_S256 : FVec Ideal S256 .f32) (ix1 (bm b c)) = bias (ix2 b c) :=
  shapeCast_apply _ _ _ _ (by
    rw [Shape.rowMajor_val_two, Shape.rowMajor_val_one]
    show b.val * 64 + c.val = 64 * b.val + c.val
    omega)

/-- The first map's operand row, at a blade-major position: the source's feature times the relation's. -/
theorem xf1_apply (e : Fin 600000) (i : Fin 256) :
    (shapeCast S600000x256 (transpose S600000x4x64 [0, 2, 1] (mulf (hsrcOf h ei) (ruvOf rel et)) transposes_S600000x64x4_S600000x4x64_0_2_1)
      shapeCasts_S600000x4x64_S600000x256 : FVec Ideal S600000x256 .f32) (ix2 e i)
      = h (ix2 (srcIx ei e) i) * rel (ix2 (etIx et e) i) := by
  refine (shapeCast_apply _ _ _ (ix3 e (blB i) (chB i)) (by
    rw [Shape.rowMajor_val_two, Shape.rowMajor_val_three]
    show (e.val * 4 + i.val / 64) * 64 + i.val % 64 = e.val * 256 + i.val
    omega)).trans ?_
  refine (transpose_ix3_021_apply _ _ e (blB i) (chB i)).trans ?_
  rw [mulf_apply, hsrcOf_apply, ruvOf_apply, bm_blB_chB]

/-- **The linear map plus bias of edge e at (channel c, blade b)**. -/
theorem msg0Of_apply (e : Fin 600000) (c : Fin 64) (b : Fin 4) :
    msg0Of h ei et rel mw mb (ix3 e c b)
      = (∑ i : Fin 256, (h (ix2 (srcIx ei e) i) * rel (ix2 (etIx et e) i)) * cliffordOf mw (ix2 (bm b c) i)) + mb (ix2 b c) := by
  unfold msg0Of
  refine (transpose_ix3_021_apply _ _ e c b).trans ?_
  refine (shapeCast_apply _ _ _ (ix2 e (bm b c)) (by
    rw [Shape.rowMajor_val_two, Shape.rowMajor_val_three]
    show e.val * 256 + (64 * b.val + c.val) = (e.val * 4 + b.val) * 64 + c.val
    omega)).trans ?_
  unfold lin1Of
  refine (layer_apply dot_S600000x256_S256x256_S600000x256_1_0_0_1_n_n_wf _ _ _ _ _ e (bm b c)).trans ?_
  rw [biasFlat_apply]
  congr 1
  refine Finset.sum_congr rfl fun i _ => ?_
  rw [xf1_apply, transpose_ix2_apply]

/-- The gate's operand row, at a channel-major position. -/
theorem rflat_apply (e : Fin 600000) (k : Fin 256) :
    (shapeCast S600000x256 (ruvOf rel et) shapeCasts_S600000x64x4_S600000x256 : FVec Ideal S600000x256 .f32) (ix2 e k)
      = rel (ix2 (etIx et e) (bm (blC k) (chC k))) := by
  refine (shapeCast_apply _ _ _ (ix3 e (chC k) (blC k)) (by
    rw [Shape.rowMajor_val_two, Shape.rowMajor_val_three]
    show (e.val * 64 + k.val / 4) * 4 + k.val % 4 = e.val * 256 + k.val
    omega)).trans ?_
  rw [ruvOf_apply]

/-- The gate's argument of edge e: its relation's embedding against the gate weights, plus the gate bias. -/
def gateArg (e : Fin 600000) : EReal :=
  (∑ k : Fin 256, rel (ix2 (etIx et e) (bm (blC k) (chC k))) * gw (ix2 (0 : Fin 1) k)) + gb (ix1 (0 : Fin 1))

/-- The gate's argument as the reference computes it: a product with the gate weights' column plus the broadcast bias. -/
theorem gatePre_apply (e : Fin 600000) :
    (addf (Host.dotGeneral dot_S600000x256_S256x1_S600000x1_1_0_0_1_n_n none (shapeCast _ (ruvOf rel et) shapeCasts_S600000x64x4_S600000x256)
          (transpose S256x1 [1, 0] gw transposes_S1x256_S256x1_1_0))
        (broadcastInDim S600000x1 ![0, 1] bcast_S1x1_S600000x1_0_1 (broadcastInDim S1x1 ![1] bcast_S1_S1x1_1 gb))
        : FVec Ideal S600000x1 .f32) (ix2 e (0 : Fin 1))
      = gateArg et rel gw gb e := by
  refine (layer_apply dot_S600000x256_S256x1_S600000x1_1_0_0_1_n_n_wf _ _ _ _ _ e (0 : Fin 1)).trans ?_
  unfold gateArg
  congr 1
  refine Finset.sum_congr rfl fun k _ => ?_
  rw [rflat_apply, transpose_ix2_apply]

/-- **The gate of edge e is the logistic function of its argument**. -/
theorem gateOf_apply (e : Fin 600000) :
    gateOf et rel gw gb (ix2 e (0 : Fin 1)) = Ideal.logistic (gateArg et rel gw gb e) := by
  unfold gateOf
  show Ideal.div (broadcastInDim S600000x1 ![] bcast_S_S600000x1 (constant (F := Ideal) S_ .f32 0x3F800000#32) (ix2 e (0 : Fin 1)))
      (broadcastInDim S600000x1 ![] bcast_S_S600000x1 (constant (F := Ideal) S_ .f32 0x3F800000#32) (ix2 e (0 : Fin 1))
        + Ideal.exp (-((addf _ _ : FVec Ideal S600000x1 .f32) (ix2 e (0 : Fin 1))))) = _
  rw [broadcastInDim_scalar_apply, constant_apply, Ideal.ofBits_one_f32, gatePre_apply]
  rfl

/-- A per-edge column [E, 1] broadcast over channels and blades. -/
theorem bcastCol_apply (g : FVec Ideal S600000x1 .f32) (e : Fin 600000) (c : Fin 64) (b : Fin 4) :
    broadcastInDim S600000x64x4 ![0, 1, 2] bcast_S600000x1x1_S600000x64x4_0_1_2
      (broadcastInDim S600000x1x1 ![0, 1] bcast_S600000x1_S600000x1x1_0_1 g) (ix3 e c b) = g (ix2 e (0 : Fin 1)) := by
  rw [broadcastInDim_apply ![0, 1, 2] bcast_S600000x1x1_S600000x64x4_0_1_2 _ (ix3 e c b) (ix3 e (0 : Fin 1) (0 : Fin 1)) (fun a => by
      match a with
      | ⟨0, _⟩ => show e.val = if (600000 : ℕ) = 1 then 0 else e.val; simp
      | ⟨1, _⟩ => show (0 : ℕ) = if (1 : ℕ) = 1 then 0 else c.val; simp
      | ⟨2, _⟩ => show (0 : ℕ) = if (1 : ℕ) = 1 then 0 else b.val; simp),
    broadcastInDim_apply ![0, 1] bcast_S600000x1_S600000x1x1_0_1 _ (ix3 e (0 : Fin 1) (0 : Fin 1)) (ix2 e (0 : Fin 1)) (fun a => by
      match a with
      | ⟨0, _⟩ => show e.val = if (600000 : ℕ) = 1 then 0 else e.val; simp
      | ⟨1, _⟩ => show (0 : ℕ) = if (1 : ℕ) = 1 then 0 else 0; simp)]

/-- A per-edge list [E] broadcast over channels and blades. -/
theorem bcastVec_apply (g : FVec Ideal S600000 .f32) (e : Fin 600000) (c : Fin 64) (b : Fin 4) :
    broadcastInDim S600000x64x4 ![0, 1, 2] bcast_S600000x1x1_S600000x64x4_0_1_2
      (broadcastInDim S600000x1x1 ![0] bcast_S600000_S600000x1x1_0 g) (ix3 e c b) = g (ix1 e) := by
  rw [broadcastInDim_apply ![0, 1, 2] bcast_S600000x1x1_S600000x64x4_0_1_2 _ (ix3 e c b) (ix3 e (0 : Fin 1) (0 : Fin 1)) (fun a => by
      match a with
      | ⟨0, _⟩ => show e.val = if (600000 : ℕ) = 1 then 0 else e.val; simp
      | ⟨1, _⟩ => show (0 : ℕ) = if (1 : ℕ) = 1 then 0 else c.val; simp
      | ⟨2, _⟩ => show (0 : ℕ) = if (1 : ℕ) = 1 then 0 else b.val; simp),
    broadcastInDim_apply ![0] bcast_S600000_S600000x1x1_0 _ (ix3 e (0 : Fin 1) (0 : Fin 1)) (ix1 e) (fun a => by
      match a with
      | ⟨0, _⟩ => show e.val = if (600000 : ℕ) = 1 then 0 else e.val; simp)]

/-- **The message of edge e at (channel c, blade b)**: the linear map's value times the gate times the normalisation. -/
theorem msgOf_apply (e : Fin 600000) (c : Fin 64) (b : Fin 4) :
    msgOf h ei et rel mw mb gw gb (ix3 e c b)
      = ((∑ i : Fin 256, (h (ix2 (srcIx ei e) i) * rel (ix2 (etIx et e) i)) * cliffordOf mw (ix2 (bm b c) i)) + mb (ix2 b c))
          * Ideal.logistic (gateArg et rel gw gb e) * normOf ei (ix1 e) := by
  unfold msgOf
  rw [mulf_apply, mulf_apply, bcastCol_apply, bcastVec_apply, msg0Of_apply, gateOf_apply]

/-- The second map's operand row, at a blade-major position: the node's feature plus its aggregate. -/
theorem xf2_apply (agg : FVec Ideal S100000x64x4 .f32) (n : Fin 100000) (i : Fin 256) :
    (shapeCast S100000x256 (transpose S100000x4x64 [0, 2, 1] (addf (hcN h) agg) transposes_S100000x64x4_S100000x4x64_0_2_1)
      shapeCasts_S100000x4x64_S100000x256 : FVec Ideal S100000x256 .f32) (ix2 n i)
      = h (ix2 n i) + agg (ix3 n (chB i) (blB i)) := by
  refine (shapeCast_apply _ _ _ (ix3 n (blB i) (chB i)) (by
    rw [Shape.rowMajor_val_two, Shape.rowMajor_val_three]
    show (n.val * 4 + i.val / 64) * 64 + i.val % 64 = n.val * 256 + i.val
    omega)).trans ?_
  refine (transpose_ix3_021_apply _ _ n (blB i) (chB i)).trans ?_
  rw [addf_apply, hcN_apply, bm_blB_chB]

/-- **The result at node n, channel-major position 4 c + b**. -/
theorem outOf_apply (agg : FVec Ideal S100000x64x4 .f32) (n : Fin 100000) (c : Fin 64) (b : Fin 4) :
    outOf h agg uw ub (ix2 n (cm c b))
      = (∑ i : Fin 256, (h (ix2 n i) + agg (ix3 n (chB i) (blB i))) * cliffordOf uw (ix2 (bm b c) i)) + ub (ix2 b c) := by
  unfold outOf
  refine (shapeCast_apply _ _ _ (ix3 n c b) (by
    rw [Shape.rowMajor_val_two, Shape.rowMajor_val_three]
    show (n.val * 64 + c.val) * 4 + b.val = n.val * 256 + (4 * c.val + b.val)
    omega)).trans ?_
  refine (transpose_ix3_021_apply _ _ n c b).trans ?_
  refine (shapeCast_apply _ _ _ (ix2 n (bm b c)) (by
    rw [Shape.rowMajor_val_two, Shape.rowMajor_val_three]
    show n.val * 256 + (64 * b.val + c.val) = (n.val * 4 + b.val) * 64 + c.val
    omega)).trans ?_
  unfold lin2Of
  refine (layer_apply dot_S100000x256_S256x256_S100000x256_1_0_0_1_n_n_wf _ _ _ _ _ n (bm b c)).trans ?_
  rw [biasFlat_apply]
  congr 1
  refine Finset.sum_congr rfl fun i _ => ?_
  rw [xf2_apply, transpose_ix2_apply]

end Cert.ReferenceIdeal.HandVal

end
-- ==== Proof.LibRowScatter.lean ====
/-
  A scatter-add of whole rows, read at an index.

  `zeros.at[idx].add(upd)` for an operand x : [N, A, B], an index list idx : [E, 1] and updates upd : [E, A, B] adds
  row e of the updates into row idx[e, 0] of the operand; an index outside [0, N) drops its row.  Over the extended
  reals entry (n, a, b) of the result is  x (n, a, b) + Σ over the edges e with idx[e, 0] = n of upd (e, a, b).
  The same for a vector x : [N] and updates upd : [E].
-/
import Idealize.ShloMosaic.Lib.ValueIdx
import Idealize.ShloMosaic.PureOps.ShapeOps
import Idealize.ShloMosaic.PureOps.Contract

noncomputable section

open scoped BigOperators

namespace Idealize.ShloMosaic.RowScatter

open Idealize.ShloMosaic Idealize.ShloMosaic.ValueIdx

/-! ## Rank 3 -/

/-- The dimension numbers of a scatter of whole rows into a rank-3 operand. -/
abbrev srows3 (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

section Rows3
variable {N E A B w : Nat} (wf : ScatterDims.WF ⟨3, ![N, A, B]⟩ ⟨2, ![E, 1]⟩ ⟨3, ![E, A, B]⟩ [1, 2] [0] [0] 1)
    (idx : IVec ⟨2, ![E, 1]⟩ w)

theorem start3_0 (j : (⟨3, ![E, A, B]⟩ : Shape).Idx) :
    (srows3 N E A B wf).start j idx (0 : Fin 3) = (idx (ix2 (j 0) (0 : Fin 1))).toInt := by
  unfold ScatterDims.start
  rw [dif_pos (show (0 : Fin 3) ∈ (srows3 N E A B wf).scatterDimsToOperandDims from List.mem_singleton.mpr rfl)]
  have hsi : (srows3 N E A B wf).siIdx j ⟨List.idxOf (0 : Fin 3) (srows3 N E A B wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

theorem start3_1 (j : (⟨3, ![E, A, B]⟩ : Shape).Idx) : (srows3 N E A B wf).start j idx (1 : Fin 3) = 0 := by
  unfold ScatterDims.start
  rw [dif_neg (show ¬ (1 : Fin 3) ∈ ([0] : List (Fin 3)) by decide)]

theorem start3_2 (j : (⟨3, ![E, A, B]⟩ : Shape).Idx) : (srows3 N E A B wf).start j idx (2 : Fin 3) = 0 := by
  unfold ScatterDims.start
  rw [dif_neg (show ¬ (2 : Fin 3) ∈ ([0] : List (Fin 3)) by decide)]

theorem window3_0 (j : (⟨3, ![E, A, B]⟩ : Shape).Idx) : (srows3 N E A B wf).window j (0 : Fin 3) = 0 := by
  unfold ScatterDims.window
  have hk : ¬ (0 : Fin 3) ∈ (srows3 N E A B wf).sKept := fun h => by
    have h2 := (List.mem_filter.1 h).2
    simp at h2
  rw [dif_neg hk]

theorem window3_1 (j : (⟨3, ![E, A, B]⟩ : Shape).Idx) : (srows3 N E A B wf).window j (1 : Fin 3) = (j 1).val := rfl

theorem window3_2 (j : (⟨3, ![E, A, B]⟩ : Shape).Idx) : (srows3 N E A B wf).window j (2 : Fin 3) = (j 2).val := rfl

/-- Where an update lands: row `idx[e, 0]` (read signed), same column and depth; nowhere when the row is outside. -/
theorem resultIdx3_eq_some_iff (j : (⟨3, ![E, A, B]⟩ : Shape).Idx) (i : (⟨3, ![N, A, B]⟩ : Shape).Idx) :
    (srows3 N E A B wf).resultIdx? j idx = some i
      ↔ (idx (ix2 (j 0) (0 : Fin 1))).toInt = ((i 0).val : Int) ∧ (j 1).val = (i 1).val ∧ (j 2).val = (i 2).val := by
  unfold ScatterDims.resultIdx?
  have hi0 : (i 0).val < N := (i 0).isLt
  have hj1 : (j 1).val < A := (j 1).isLt
  have hj2 : (j 2).val < B := (j 2).isLt
  have hi1 : (i 1).val < A := (i 1).isLt
  have hi2 : (i 2).val < B := (i 2).isLt
  have s0 := start3_0 wf idx j
  have s1 := start3_1 wf idx j
  have s2 := start3_2 wf idx j
  have w0 := window3_0 wf j
  have w1 := window3_1 wf j
  have w2 := window3_2 wf j
  constructor
  · intro h
    split at h
    · next hall =>
      have e := Option.some.inj h
      have e0 := congrArg (fun f => (f (0 : Fin 3)).val) e
      have e1 := congrArg (fun f => (f (1 : Fin 3)).val) e
      have e2 := congrArg (fun f => (f (2 : Fin 3)).val) e
      have h0 := hall (0 : Fin 3)
      simp only [s0, w0] at e0 h0
      simp only [s1, w1] at e1
      simp only [s2, w2] at e2
      refine ⟨by omega, by omega, by omega⟩
    · exact absurd h (by simp)
  · rintro ⟨h0, h1, h2⟩
    have hall : ∀ a : Fin 3, 0 ≤ (srows3 N E A B wf).start j idx a + ((srows3 N E A B wf).window j a : Int)
        ∧ (srows3 N E A B wf).start j idx a + ((srows3 N E A B wf).window j a : Int) < ((⟨3, ![N, A, B]⟩ : Shape).size a : Int) := by
      intro a
      match a with
      | ⟨0, _⟩ =>
        show 0 ≤ (srows3 N E A B wf).start j idx (0 : Fin 3) + ((srows3 N E A B wf).window j (0 : Fin 3) : Int)
          ∧ (srows3 N E A B wf).start j idx (0 : Fin 3) + ((srows3 N E A B wf).window j (0 : Fin 3) : Int) < (N : Int)
        rw [s0, w0]; omega
      | ⟨1, _⟩ =>
        show 0 ≤ (srows3 N E A B wf).start j idx (1 : Fin 3) + ((srows3 N E A B wf).window j (1 : Fin 3) : Int)
          ∧ (srows3 N E A B wf).start j idx (1 : Fin 3) + ((srows3 N E A B wf).window j (1 : Fin 3) : Int) < (A : Int)
        rw [s1, w1]; omega
      | ⟨2, _⟩ =>
        show 0 ≤ (srows3 N E A B wf).start j idx (2 : Fin 3) + ((srows3 N E A B wf).window j (2 : Fin 3) : Int)
          ∧ (srows3 N E A B wf).start j idx (2 : Fin 3) + ((srows3 N E A B wf).window j (2 : Fin 3) : Int) < (B : Int)
        rw [s2, w2]; omega
    rw [dif_pos hall]
    congr 1
    funext a
    refine Fin.ext ?_
    match a with
    | ⟨0, _⟩ =>
      show ((srows3 N E A B wf).start j idx (0 : Fin 3) + ((srows3 N E A B wf).window j (0 : Fin 3) : Int)).toNat = (i 0).val
      rw [s0, w0]; omega
    | ⟨1, _⟩ =>
      show ((srows3 N E A B wf).start j idx (1 : Fin 3) + ((srows3 N E A B wf).window j (1 : Fin 3) : Int)).toNat = (i 1).val
      rw [s1, w1]; omega
    | ⟨2, _⟩ =>
      show ((srows3 N E A B wf).start j idx (2 : Fin 3) + ((srows3 N E A B wf).window j (2 : Fin 3) : Int)).toNat = (i 2).val
      rw [s2, w2]; omega

/-- **The scatter-add of rows at an index**: the operand's entry plus the updates of the edges that name the row. -/
theorem scatterAdd3_apply {φ : FTy} (x : FVec Ideal ⟨3, ![N, A, B]⟩ φ) (upd : FVec Ideal ⟨3, ![E, A, B]⟩ φ)
    (n : Fin N) (a : Fin A) (b : Fin B) :
    Host.scatterAdd (srows3 N E A B wf) x idx upd (ix3 n a b)
      = x (ix3 n a b) + ∑ e ∈ Finset.univ.filter (fun e : Fin E => (idx (ix2 e (0 : Fin 1))).toInt = (n.val : Int)),
          upd (ix3 e a b) := by
  show Ideal.hostScatterAdd (srows3 N E A B wf) x idx upd (ix3 n a b) = _
  unfold Ideal.hostScatterAdd
  congr 1
  refine (Finset.sum_bij (fun e _ => ix3 e a b) ?_ ?_ ?_ ?_).symm
  · intro e he
    rw [Finset.mem_filter] at he ⊢
    exact ⟨Finset.mem_univ _, (resultIdx3_eq_some_iff wf idx _ _).2 ⟨he.2, rfl, rfl⟩⟩
  · intro e₁ _ e₂ _ h
    exact congrFun h (0 : Fin 3)
  · intro j hj
    rw [Finset.mem_filter] at hj
    obtain ⟨h0, h1, h2⟩ := (resultIdx3_eq_some_iff wf idx _ _).1 hj.2
    refine ⟨j 0, Finset.mem_filter.2 ⟨Finset.mem_univ _, h0⟩, ?_⟩
    funext c
    match c with
    | ⟨0, _⟩ => rfl
    | ⟨1, _⟩ => exact (Fin.ext h1).symm
    | ⟨2, _⟩ => exact (Fin.ext h2).symm
  · intro e _
    rfl

end Rows3

/-! ## Rank 1 -/

/-- The dimension numbers of a scatter of numbers into a vector. -/
abbrev srows1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows1
variable {N E w : Nat} (wf : ScatterDims.WF ⟨1, ![N]⟩ ⟨2, ![E, 1]⟩ ⟨1, ![E]⟩ [] [0] [0] 1) (idx : IVec ⟨2, ![E, 1]⟩ w)

theorem start1_0 (j : (⟨1, ![E]⟩ : Shape).Idx) :
    (srows1 N E wf).start j idx (0 : Fin 1) = (idx (ix2 (j 0) (0 : Fin 1))).toInt := by
  unfold ScatterDims.start
  rw [dif_pos (show (0 : Fin 1) ∈ (srows1 N E wf).scatterDimsToOperandDims from List.mem_singleton.mpr rfl)]
  have hsi : (srows1 N E wf).siIdx j ⟨List.idxOf (0 : Fin 1) (srows1 N E wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

theorem window1_0 (j : (⟨1, ![E]⟩ : Shape).Idx) : (srows1 N E wf).window j (0 : Fin 1) = 0 := by
  unfold ScatterDims.window
  have hk : ¬ (0 : Fin 1) ∈ (srows1 N E wf).sKept := fun h => by
    have h2 := (List.mem_filter.1 h).2
    simp at h2
  rw [dif_neg hk]

theorem resultIdx1_eq_some_iff (j : (⟨1, ![E]⟩ : Shape).Idx) (i : (⟨1, ![N]⟩ : Shape).Idx) :
    (srows1 N E wf).resultIdx? j idx = some i ↔ (idx (ix2 (j 0) (0 : Fin 1))).toInt = ((i 0).val : Int) := by
  unfold ScatterDims.resultIdx?
  have hi0 : (i 0).val < N := (i 0).isLt
  have s0 := start1_0 wf idx j
  have w0 := window1_0 wf j
  constructor
  · intro h
    split at h
    · next hall =>
      have e := Option.some.inj h
      have e0 := congrArg (fun f => (f (0 : Fin 1)).val) e
      have h0 := hall (0 : Fin 1)
      simp only [s0, w0] at e0 h0
      omega
    · exact absurd h (by simp)
  · intro h0
    have hall : ∀ a : Fin 1, 0 ≤ (srows1 N E wf).start j idx a + ((srows1 N E wf).window j a : Int)
        ∧ (srows1 N E wf).start j idx a + ((srows1 N E wf).window j a : Int) < ((⟨1, ![N]⟩ : Shape).size a : Int) := by
      intro a
      obtain rfl : a = 0 := Subsingleton.elim _ _
      show 0 ≤ (srows1 N E wf).start j idx (0 : Fin 1) + ((srows1 N E wf).window j (0 : Fin 1) : Int)
          ∧ (srows1 N E wf).start j idx (0 : Fin 1) + ((srows1 N E wf).window j (0 : Fin 1) : Int) < (N : Int)
      rw [s0, w0]; omega
    rw [dif_pos hall]
    congr 1
    funext a
    obtain rfl : a = 0 := Subsingleton.elim _ _
    refine Fin.ext ?_
    show ((srows1 N E wf).start j idx (0 : Fin 1) + ((srows1 N E wf).window j (0 : Fin 1) : Int)).toNat = (i 0).val
    rw [s0, w0]; omega

/-- **The scatter-add into a vector at an index**: the operand's entry plus the updates of the edges that name it. -/
theorem scatterAdd1_apply {φ : FTy} (x : FVec Ideal ⟨1, ![N]⟩ φ) (upd : FVec Ideal ⟨1, ![E]⟩ φ) (n : Fin N) :
    Host.scatterAdd (srows1 N E wf) x idx upd (ix1 n)
      = x (ix1 n) + ∑ e ∈ Finset.univ.filter (fun e : Fin E => (idx (ix2 e (0 : Fin 1))).toInt = (n.val : Int)),
          upd (ix1 e) := by
  show Ideal.hostScatterAdd (srows1 N E wf) x idx upd (ix1 n) = _
  unfold Ideal.hostScatterAdd
  congr 1
  refine (Finset.sum_bij (fun e _ => ix1 e) ?_ ?_ ?_ ?_).symm
  · intro e he
    rw [Finset.mem_filter] at he ⊢
    exact ⟨Finset.mem_univ _, (resultIdx1_eq_some_iff wf idx _ _).2 he.2⟩
  · intro e₁ _ e₂ _ h
    exact congrFun h (0 : Fin 1)
  · intro j hj
    rw [Finset.mem_filter] at hj
    have h0 := (resultIdx1_eq_some_iff wf idx _ _).1 hj.2
    refine ⟨j 0, Finset.mem_filter.2 ⟨Finset.mem_univ _, h0⟩, ?_⟩
    funext c
    obtain rfl : c = 0 := Subsingleton.elim _ _
    rfl
  · intro e _
    rfl

end Rows1

end Idealize.ShloMosaic.RowScatter

end
-- ==== Proof.BridgeLaws.lean ====
/-
  The two programs name the same objects.

  The kernel program and the reference build the Clifford matrix of a weight stack from the same slices with the same
  signs; they wrap negative indices, slice the edge list and count degrees by the same operations. The one
  real difference in the message is the order of the 256 feature positions: the kernel keeps them blade-major
  (position `64 b + c` for blade `b`, channel `c`) and re-orders the gate's weights to match, the reference reads the
  gate's weights channel-major (position `4 c + b`). The gate's sum over one order is the sum over the other,
  reindexed by the bijection between the two orders.
-/
import proofs.«164897_j31104153157801_1_alg».proof.Proof.KHostRead
import proofs.«164897_j31104153157801_1_alg».proof.Proof.RVal1

noncomputable section

namespace Cert.Bridge

open Idealize.ShloMosaic Idealize.ShloMosaic.ValueIdx
open Cert.KernelIdeal.HandVal (invF permF)
open Cert.ReferenceIdeal.HandVal (bm cm chB blB chC blC)

/-! ## The same definitions on both sides -/

/-- The Clifford matrix of a weight stack is the same matrix in both programs. -/
theorem clifford_eq (w : FVec Ideal Cert.KernelIdeal.S4x64x64 .f32) :
    Cert.KernelIdeal.HandVal.cliffordOf w = Cert.ReferenceIdeal.HandVal.cliffordOf w := rfl

theorem srcOf_eq (ei : IVec Cert.KernelIdeal.S2x600000 32) :
    Cert.KernelIdeal.HandVal.srcOf ei = Cert.ReferenceIdeal.HandVal.srcOf ei := rfl
theorem dstOf_eq (ei : IVec Cert.KernelIdeal.S2x600000 32) :
    Cert.KernelIdeal.HandVal.dstOf ei = Cert.ReferenceIdeal.HandVal.dstOf ei := rfl
theorem wrapN_eq (x : IVec Cert.KernelIdeal.S600000 32) :
    Cert.KernelIdeal.HandVal.wrapOf 100000#32 x = Cert.ReferenceIdeal.HandVal.fixN x := rfl
theorem wrapR_eq (x : IVec Cert.KernelIdeal.S600000 32) :
    Cert.KernelIdeal.HandVal.wrapOf 500#32 x = Cert.ReferenceIdeal.HandVal.fixR x := rfl
theorem degOf_eq (x : IVec Cert.KernelIdeal.S600000 32) :
    Cert.KernelIdeal.HandVal.degOf x = Cert.ReferenceIdeal.HandVal.degOf x := rfl

/-! ## Blade-major against channel-major -/

/-- The blade-major position of a channel-major position's (channel, blade) is its image under the re-ordering. -/
theorem bm_of_invF (n : Fin 256) : bm (blC (invF n)) (chC (invF n)) = n :=
  Fin.ext (by
    show 64 * ((4 * (n.val % 64) + n.val / 64) % 4) + (4 * (n.val % 64) + n.val / 64) / 4 = n.val
    have := n.isLt; omega)

/-- The re-ordering of the 256 positions, blade-major to channel-major, as a bijection. -/
def toCM : Fin 256 ≃ Fin 256 where
  toFun := invF
  invFun := permF
  left_inv n := Fin.ext (by
    show 64 * ((4 * (n.val % 64) + n.val / 64) % 4) + (4 * (n.val % 64) + n.val / 64) / 4 = n.val
    have := n.isLt; omega)
  right_inv k := Fin.ext (by
    show 4 * ((64 * (k.val % 4) + k.val / 4) % 64) + (64 * (k.val % 4) + k.val / 4) / 64 = k.val
    have := k.isLt; omega)

/-- The gate's sum over blade-major positions against re-ordered weights is the sum over channel-major positions
    against the weights as given. -/
theorem gate_sum (x g : Fin 256 → EReal) :
    ∑ n : Fin 256, x n * g (invF n) = ∑ k : Fin 256, x (bm (blC k) (chC k)) * g k :=
  Fintype.sum_equiv toCM _ _ fun n => by
    show x n * g (invF n) = x (bm (blC (invF n)) (chC (invF n))) * g (invF n)
    rw [bm_of_invF]

/-- The blade and the channel of a blade-major position. -/
theorem blade_of_bm (b : Fin 4) (c : Fin 64) : (⟨(bm b c).val / 64, by have := (bm b c).isLt; omega⟩ : Fin 4) = b :=
  Fin.ext (by show (64 * b.val + c.val) / 64 = b.val; have := c.isLt; omega)
theorem channel_of_bm (b : Fin 4) (c : Fin 64) : (⟨(bm b c).val % 64, Nat.mod_lt _ (by decide)⟩ : Fin 64) = c :=
  Fin.ext (by show (64 * b.val + c.val) % 64 = c.val; have := c.isLt; omega)

end Cert.Bridge

end
-- ==== Proof.BridgeOut.lean ====
/-
  The aggregation and the output layer are the same on both sides.

  The kernel program keeps a row of 256 feature positions blade-major (position `64 b + c` for blade `b`, channel
  `c`); the reference keeps it as `[channel, blade]` and flattens its result channel-major (position `4 c + b`).

  Aggregation: both sum, into node `n`, the messages of the edges whose destination index (read as it stands) is `n`,
  starting from zero; with messages that agree entry by entry, the two sums run over the same edges and agree term by term.

  Output layer: at node `n` and channel-major position `4 c + b` both are
  `Σ i, (h (n, i) + agg (n, i)) * K (64 b + c, i) + bias (b, c)` with `K` the Clifford matrix of the update weights:
  the kernel's matrix operand is `K` with its rows taken in channel-major order and transposed, so its column `4 c + b`
  is row `64 b + c` of `K`, and likewise its bias; the padding rows are cut off again.
-/
import proofs.«164897_j31104153157801_1_alg».proof.Proof.KHostRead
import proofs.«164897_j31104153157801_1_alg».proof.Proof.KHostRead2
import proofs.«164897_j31104153157801_1_alg».proof.Proof.KHostScatter
import proofs.«164897_j31104153157801_1_alg».proof.Proof.Reg1Val
import proofs.«164897_j31104153157801_1_alg».proof.Proof.RVal2
import proofs.«164897_j31104153157801_1_alg».proof.Proof.LibRowScatter
import proofs.«164897_j31104153157801_1_alg».proof.Proof.BridgeLaws

noncomputable section

open scoped BigOperators

namespace Cert.Bridge

open Idealize.ShloMosaic Idealize.ShloMosaic.ValueIdx
open Cert.KernelIdeal.HandVal (permF padN cutN k2ptOf b2pOf updArr)
open Cert.ReferenceIdeal.HandVal (bm cm chB blB chC blC)

/-! ## Aggregation -/

/-- The reference's aggregation of any message tensor: its rows summed into zeros at the rows `dst` names. -/
def aggR (dst : IVec Cert.ReferenceIdeal.S600000 32) (mr : FVec Ideal Cert.ReferenceIdeal.S600000x64x4 .f32) :
    FVec Ideal Cert.ReferenceIdeal.S100000x64x4 .f32 :=
  Host.scatterAdd Cert.ReferenceIdeal.scatter_S100000x64x4_S600000x1_S600000x64x4_12_0_0_1
    (broadcastInDim Cert.ReferenceIdeal.S100000x64x4 ![] Cert.ReferenceIdeal.Gen.bcast_S_S100000x64x4
      (constant (F := Ideal) Cert.ReferenceIdeal.S_ .f32 0x00000000#32))
    (Cert.ReferenceIdeal.HandVal.colOf dst) mr

/-- The reference's aggregate is that aggregation of its messages by its destinations. -/
theorem aggOf_eq_aggR (h : FVec Ideal Cert.ReferenceIdeal.S100000x256 .f32) (ei : IVec Cert.ReferenceIdeal.S2x600000 32)
    (et : IVec Cert.ReferenceIdeal.S600000 32) (rel : FVec Ideal Cert.ReferenceIdeal.S500x256 .f32)
    (mw : FVec Ideal Cert.ReferenceIdeal.S4x64x64 .f32) (mb : FVec Ideal Cert.ReferenceIdeal.S4x64 .f32)
    (gw : FVec Ideal Cert.ReferenceIdeal.S1x256 .f32) (gb : FVec Ideal Cert.ReferenceIdeal.S1 .f32) :
    Cert.ReferenceIdeal.HandVal.aggOf h ei et rel mw mb gw gb
      = aggR (Cert.ReferenceIdeal.HandVal.dstOf ei) (Cert.ReferenceIdeal.HandVal.msgOf h ei et rel mw mb gw gb) := rfl

/-- The reference's aggregation at `(n, c, b)`: the sum of the messages of the edges whose destination is `n`. -/
theorem aggR_apply (dst : IVec Cert.ReferenceIdeal.S600000 32) (mr : FVec Ideal Cert.ReferenceIdeal.S600000x64x4 .f32)
    (n : Fin 100000) (c : Fin 64) (b : Fin 4) :
    aggR dst mr (ix3 n c b)
      = ∑ e ∈ Finset.univ.filter (fun e : Fin 600000 => (dst (ix1 e)).toInt = (n.val : Int)), mr (ix3 e c b) := by
  unfold aggR
  refine (Idealize.ShloMosaic.RowScatter.scatterAdd3_apply
    Cert.ReferenceIdeal.Gen.scatter_S100000x64x4_S600000x1_S600000x64x4_12_0_0_1_wf _ _ _ n c b).trans ?_
  rw [broadcastInDim_scalar_apply, constant_apply, Ideal.ofBits_zero_f32, zero_add]
  refine Finset.sum_congr (Finset.filter_congr fun e _ => ?_) (fun _ _ => rfl)
  rw [Cert.ReferenceIdeal.HandVal.colOf_apply]

/-- The kernel program's aggregation at `(n, k)`: the sum of the message rows of the edges whose destination is `n`. -/
theorem aggK_apply (dst : IVec Cert.KernelIdeal.S600000 32) (mk : FVec Ideal Cert.KernelIdeal.S600000x256 .f32)
    (n : Fin 100000) (k : Fin 256) :
    Cert.KernelIdeal.HandVal.aggOf dst mk (ix2 n k)
      = ∑ e ∈ Finset.univ.filter (fun e : Fin 600000 => (dst (ix1 e)).toInt = (n.val : Int)), mk (ix2 e k) := by
  unfold Cert.KernelIdeal.HandVal.aggOf
  refine (Cert.KernelIdeal.HandVal.scatterAdd_rows_apply (N := 100000) (E := 600000) (D := 256)
    Cert.KernelIdeal.scatter_S100000x256_S600000x1_S600000x256_1_0_0_1 rfl rfl rfl rfl _ _ _ n k).trans ?_
  rw [broadcastInDim_scalar_apply, constant_apply, Ideal.ofBits_zero_f32, zero_add]
  refine Finset.sum_congr (Finset.filter_congr fun e _ => ?_) (fun _ _ => rfl)
  rw [Cert.KernelIdeal.HandVal.colOf_apply]

/-- **Aggregation**: message arrays that agree entry by entry — the kernel's at `(e, 64 b + c)`, the reference's at
    `(e, c, b)` — summed by the same destinations agree entry by entry, `(n, 64 b + c)` against `(n, c, b)`. -/
theorem agg_bridge (dst : IVec Cert.KernelIdeal.S600000 32) (mk : FVec Ideal Cert.KernelIdeal.S600000x256 .f32)
    (mr : FVec Ideal Cert.ReferenceIdeal.S600000x64x4 .f32)
    (hm : ∀ (e : Fin 600000) (c : Fin 64) (b : Fin 4), mk (ix2 e (bm b c)) = mr (ix3 e c b))
    (n : Fin 100000) (c : Fin 64) (b : Fin 4) :
    Cert.KernelIdeal.HandVal.aggOf dst mk (ix2 n (bm b c)) = aggR dst mr (ix3 n c b) := by
  rw [aggK_apply, aggR_apply]
  exact Finset.sum_congr rfl fun e _ => hm e c b

/-! ## The output layer -/

/-- The channel-major position `4 c + b` is sent to the blade-major position `64 b + c`. -/
theorem permF_cm (c : Fin 64) (b : Fin 4) : permF (cm c b) = bm b c :=
  Fin.ext (by
    show 64 * ((4 * c.val + b.val) % 4) + (4 * c.val + b.val) / 4 = 64 * b.val + c.val
    have := c.isLt; have := b.isLt; omega)

/-- Node `n` as a row of the padded arrays. -/
def inN (n : Fin 100000) : Fin 100352 := ⟨n.val, by have := n.isLt; omega⟩

theorem padN_at (x : FVec Ideal Cert.KernelIdeal.S100000x256 .f32) (n : Fin 100000) (k : Fin 256) :
    padN x (ix2 (inN n) k) = x (ix2 n k) := Cert.KernelIdeal.HandVal.padN_apply_lt x (inN n) k n.isLt

/-- The update layer of the padded arrays at node `n`, column `q`. -/
theorem updArr_at (hp ha : Cert.KernelIdeal.S100352x256.Idx → EReal) (k2t : Cert.KernelIdeal.S256x256.Idx → EReal)
    (b2 : Cert.KernelIdeal.S1x256.Idx → EReal) (r : Fin 100352) (q : Fin 256) :
    updArr hp ha k2t b2 (ix2 r q)
      = (∑ i : Fin 256, (hp (ix2 r i) + ha (ix2 r i)) * k2t (ix2 i q)) + b2 (ix2 (0 : Fin 1) q) := rfl

/-- **The output layer**: with aggregates that agree entry by entry — the kernel's at `(n, 64 b + c)`, the
    reference's at `(n, c, b)` — the kernel program's result and the reference's agree at every node `n` and
    channel-major position `4 c + b`. -/
theorem out_bridge (h : FVec Ideal Cert.KernelIdeal.S100000x256 .f32) (aggk : FVec Ideal Cert.KernelIdeal.S100000x256 .f32)
    (aggr : FVec Ideal Cert.ReferenceIdeal.S100000x64x4 .f32)
    (uw : FVec Ideal Cert.KernelIdeal.S4x64x64 .f32) (ub : FVec Ideal Cert.KernelIdeal.S4x64 .f32)
    (ha : ∀ (n : Fin 100000) (c : Fin 64) (b : Fin 4), aggk (ix2 n (bm b c)) = aggr (ix3 n c b))
    (n : Fin 100000) (c : Fin 64) (b : Fin 4) :
    cutN (updArr (padN h) (padN aggk) (k2ptOf uw) (b2pOf ub)) (ix2 n (cm c b))
      = Cert.ReferenceIdeal.HandVal.outOf h aggr uw ub (ix2 n (cm c b)) := by
  rw [Cert.ReferenceIdeal.HandVal.outOf_apply, Cert.KernelIdeal.HandVal.cutN_apply]
  show updArr (padN h) (padN aggk) (k2ptOf uw) (b2pOf ub) (ix2 (inN n) (cm c b)) = _
  rw [updArr_at, Cert.KernelIdeal.HandVal.b2pOf_apply, permF_cm, Cert.KernelIdeal.HandVal.flat256_apply, blade_of_bm, channel_of_bm]
  congr 1
  refine Finset.sum_congr rfl fun i _ => ?_
  rw [padN_at, padN_at, Cert.KernelIdeal.HandVal.k2ptOf_apply, permF_cm, clifford_eq, ← ha n (chB i) (blB i),
    Cert.ReferenceIdeal.HandVal.bm_blB_chB]

/-- Every position of a row of 256 is the channel-major position of its channel and blade; so the two results agree
    at every index. -/
theorem out_bridge_all (h : FVec Ideal Cert.KernelIdeal.S100000x256 .f32) (aggk : FVec Ideal Cert.KernelIdeal.S100000x256 .f32)
    (aggr : FVec Ideal Cert.ReferenceIdeal.S100000x64x4 .f32)
    (uw : FVec Ideal Cert.KernelIdeal.S4x64x64 .f32) (ub : FVec Ideal Cert.KernelIdeal.S4x64 .f32)
    (ha : ∀ (n : Fin 100000) (c : Fin 64) (b : Fin 4), aggk (ix2 n (bm b c)) = aggr (ix3 n c b)) :
    cutN (updArr (padN h) (padN aggk) (k2ptOf uw) (b2pOf ub)) = Cert.ReferenceIdeal.HandVal.outOf h aggr uw ub := by
  funext j
  obtain ⟨n, k, rfl⟩ : ∃ (n : Fin 100000) (k : Fin 256), j = ix2 n k := ⟨j 0, j 1, eq_ix2 j⟩
  rw [← Cert.ReferenceIdeal.HandVal.cm_chC_blC k]
  exact out_bridge h aggk aggr uw ub ha n (chC k) (blC k)

end Cert.Bridge

end
-- ==== Proof.BridgeMsg.lean ====
/-
  The message tensor is the same on both sides.

  For edge `e`, channel `c` and blade `b`, the kernel program's message array holds at row `e`, blade-major position
  `64 b + c`, what the reference's message tensor holds at `(e, c, b)`:
  `(Σ i, (h (src e, i) * rel (type e, i)) * K (64 b + c, i) + bias (b, c)) * logistic (gate's argument of e) * norm e`.
  The kernel gathers whole rows and the reference gathers re-laid-out rows, but entry `(row, 64 b + c)` is read either
  way; the kernel's matrix operand is the transpose of the Clifford matrix, read back transposed; the gate's sum is
  reindexed between the two orders of the 256 positions; and the product of the three factors is re-associated.
-/
import proofs.«164897_j31104153157801_1_alg».proof.Proof.Reg0Blk
import proofs.«164897_j31104153157801_1_alg».proof.Proof.KHostRead2
import proofs.«164897_j31104153157801_1_alg».proof.Proof.RVal2
import proofs.«164897_j31104153157801_1_alg».proof.Proof.BridgeLaws

noncomputable section

namespace Cert.Bridge

open Idealize.ShloMosaic Idealize.ShloMosaic.ValueIdx
open Cert.KernelIdeal.HandVal (msgs msgAt padE padCol k1tOf b1Of gwOf gbOf invF permF)
open Idealize.ShloMosaic.RowGather (rowOf)
open Cert.ReferenceIdeal.HandVal (bm cm chB blB chC blC srcIx dstIx etIx gateArg)

/-! ## The same rows on both sides -/

theorem srcRow_eq (ei : IVec Cert.KernelIdeal.S2x600000 32) (e : Fin 600000) :
    rowOf (N := 100000) (by decide) (Cert.KernelIdeal.HandVal.wrapOf 100000#32 (Cert.KernelIdeal.HandVal.srcOf ei) (ix1 e)) = srcIx ei e := rfl
theorem dstRow_eq (ei : IVec Cert.KernelIdeal.S2x600000 32) (e : Fin 600000) :
    rowOf (N := 100000) (by decide) (Cert.KernelIdeal.HandVal.wrapOf 100000#32 (Cert.KernelIdeal.HandVal.dstOf ei) (ix1 e)) = dstIx ei e := rfl
theorem etRow_eq (et : IVec Cert.KernelIdeal.S600000 32) (e : Fin 600000) :
    rowOf (N := 500) (by decide) (Cert.KernelIdeal.HandVal.wrapOf 500#32 et (ix1 e)) = etIx et e := rfl

/-! ## A real edge among the padded rows -/

/-- Edge `e` as a row of the padded arrays. -/
def inE (e : Fin 600000) : Fin 600064 := ⟨e.val, by have := e.isLt; omega⟩

theorem padE_at (x : FVec Ideal Cert.KernelIdeal.S600000x256 .f32) (e : Fin 600000) (k : Fin 256) :
    padE x (ix2 (inE e) k) = x (ix2 e k) := Cert.KernelIdeal.HandVal.padE_apply_lt x (inE e) k e.isLt
theorem padCol_at (x : FVec Ideal Cert.KernelIdeal.S600000 .f32) (e : Fin 600000) (u : Fin 1) :
    padCol x (ix2 (inE e) u) = x (ix1 e) := Cert.KernelIdeal.HandVal.padCol_apply_lt x (inE e) u e.isLt

/-! ## The message -/

/-- The kernel program's message array at (edge `e`, position `64 b + c`) is the reference's message at `(e, c, b)`,
    given that the two programs' normalisations of edge `e` agree. -/
theorem msg_bridge_of_norm (h : FVec Ideal Cert.KernelIdeal.S100000x256 .f32) (ei : IVec Cert.KernelIdeal.S2x600000 32) (et : IVec Cert.KernelIdeal.S600000 32)
    (rel : FVec Ideal Cert.KernelIdeal.S500x256 .f32) (mw : FVec Ideal Cert.KernelIdeal.S4x64x64 .f32) (mb : FVec Ideal Cert.KernelIdeal.S4x64 .f32)
    (gw : FVec Ideal Cert.KernelIdeal.S1x256 .f32) (gb : FVec Ideal Cert.KernelIdeal.S1 .f32) (e : Fin 600000) (c : Fin 64) (b : Fin 4)
    (hn : Cert.KernelIdeal.HandVal.normOf ei (ix1 e) = Cert.ReferenceIdeal.HandVal.normOf ei (ix1 e)) :
    msgs (padE (Cert.KernelIdeal.HandVal.hsrcOf h ei)) (padE (Cert.KernelIdeal.HandVal.ruvOf rel et)) (padCol (Cert.KernelIdeal.HandVal.normOf ei)) (k1tOf mw) (b1Of mb) (gwOf gw) (gbOf gb)
        (ix2 (inE e) (bm b c))
      = Cert.ReferenceIdeal.HandVal.msgOf h ei et rel mw mb gw gb (ix3 e c b) := by
  rw [Cert.ReferenceIdeal.HandVal.msgOf_apply, mul_assoc, ← hn]
  show msgAt (padE (Cert.KernelIdeal.HandVal.hsrcOf h ei)) (padE (Cert.KernelIdeal.HandVal.ruvOf rel et)) (padCol (Cert.KernelIdeal.HandVal.normOf ei)) (k1tOf mw) (b1Of mb) (gwOf gw) (gbOf gb)
      (inE e) (bm b c) = _
  unfold msgAt
  simp only [padE_at, padCol_at, Cert.KernelIdeal.HandVal.hsrcOf_apply, Cert.KernelIdeal.HandVal.ruvOf_apply, Cert.KernelIdeal.HandVal.k1tOf_apply, Cert.KernelIdeal.HandVal.b1Of_apply, Cert.KernelIdeal.HandVal.gwOf_apply,
    Cert.KernelIdeal.HandVal.gbOf_apply, srcRow_eq, etRow_eq, clifford_eq, blade_of_bm, channel_of_bm]
  rw [gate_sum (fun n => rel (ix2 (etIx et e) n)) (fun k => gw (ix2 (0 : Fin 1) k))]
  rfl

end Cert.Bridge

end
-- ==== Proof.LibSparseFinite.lean ====
import Idealize.ShloMosaic.PureOps.ShapeOps
import Idealize.ShloMosaic.PureOps.Contract
import Idealize.ShloMosaic.PureOps.Ideal

/-!
# Real entries through a gather, an accumulating scatter, sums and products

At the extended reals [-∞, +∞] an entry is called real when it is (the reading of) a real number,
that is, neither infinity.  A sparse matrix product "gather the rows an index list names, scale
them, add them into the rows another index list names" keeps every entry real when its inputs are:

* a gather only copies entries of its operand (at a position the index array names, clamped into the
  operand), so whatever holds of every entry of the operand holds of every entry of the gather;
* an accumulating scatter returns, at each position, the operand's entry plus the sum of the updates
  whose target is that position (whatever the indices: they may repeat, and may point outside the
  operand, in which case the update contributes nothing); so a property that holds of 0, is closed
  under addition, and holds of every entry of the operand and every update, holds of every entry of
  the result;
* sums, differences, products, finite sums and finite sums of products of reals are real.
-/

noncomputable section

namespace Idealize.ShloMosaic.SparseFinite

open Idealize.ShloMosaic
open scoped BigOperators

/-! ## Reals among the extended reals are closed under the ring operations -/

/-- Zero is real. -/
theorem real_zero : ∃ r : ℝ, (0 : EReal) = (r : EReal) := ⟨0, EReal.coe_zero.symm⟩

/-- The sum of two reals is real. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb; exact ⟨p + q, (EReal.coe_add p q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb; exact ⟨p - q, (EReal.coe_sub p q).symm⟩

/-- The product of two reals is real. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb; exact ⟨p * q, (EReal.coe_mul p q).symm⟩

/-- The negative of a real is real. -/
theorem real_neg {a : EReal} (ha : ∃ r : ℝ, a = (r : EReal)) : ∃ r : ℝ, -a = (r : EReal) := by
  obtain ⟨p, rfl⟩ := ha; exact ⟨-p, (EReal.coe_neg p).symm⟩

/-- A finite sum of reals is real. -/
theorem real_sum {ι : Type*} (s : Finset ι) (x : ι → EReal) (hx : ∀ i ∈ s, ∃ r : ℝ, x i = (r : EReal)) :
    ∃ r : ℝ, ∑ i ∈ s, x i = (r : EReal) :=
  Finset.sum_induction x (fun a => ∃ r : ℝ, a = (r : EReal)) (fun _ _ => real_add) real_zero hx

/-- A finite sum of products of reals (one entry of a matrix product) is real. -/
theorem real_dot {ι : Type*} (s : Finset ι) (a b : ι → EReal) (ha : ∀ i, ∃ r : ℝ, a i = (r : EReal))
    (hb : ∀ i, ∃ r : ℝ, b i = (r : EReal)) : ∃ r : ℝ, ∑ i ∈ s, a i * b i = (r : EReal) :=
  real_sum s _ fun i _ => real_mul (ha i) (hb i)

/-! ## A gather copies entries of its operand -/

section Gather

variable {α : Type} {s si t : Shape} {w : Nat}

/-- Every entry of a gather is the operand's entry at the position the gather's dimension numbers and
    index array name for it. -/
theorem gather_apply (d : GatherDims s si t) (x : s.Idx → α) (idx : IVec si w) (j : t.Idx) :
    Host.gather d x idx j = x (d.operandIdx j idx) := rfl

/-- So every entry of a gather is an entry of the operand, whatever the indices. -/
theorem gather_mem (d : GatherDims s si t) (x : s.Idx → α) (idx : IVec si w) (j : t.Idx) :
    ∃ i : s.Idx, Host.gather d x idx j = x i := ⟨_, rfl⟩

/-- A property of every entry of the operand is a property of every entry of the gather. -/
theorem gather_pred (d : GatherDims s si t) (x : s.Idx → α) (idx : IVec si w) (P : α → Prop)
    (hx : ∀ i, P (x i)) (j : t.Idx) : P (Host.gather d x idx j) := hx _

/-- A gather of an array of reals is an array of reals. -/
theorem gather_real {φ : FTy} (d : GatherDims s si t) (x : FVec Ideal s φ) (idx : IVec si w)
    (hx : ∀ i, ∃ r : ℝ, x i = (r : EReal)) (j : t.Idx) : ∃ r : ℝ, Host.gather d x idx j = (r : EReal) :=
  hx _

end Gather

/-! ## An accumulating scatter adds updates into operand entries -/

section ScatterAdd

variable {s si u : Shape} {w : Nat} {φ : FTy}

/-- At the extended reals the accumulating scatter is, at each position, the operand's entry plus the
    exact sum of the updates whose target is that position. -/
theorem scatterAdd_apply (d : ScatterDims s si u) (x : FVec Ideal s φ) (idx : IVec si w) (upd : FVec Ideal u φ)
    (i : s.Idx) : Host.scatterAdd d x idx upd i = Ideal.hostScatterAdd d x idx upd i := rfl

/-- A property that holds of 0, is closed under addition, and holds of every entry of the operand and
    of every update, holds of every entry of the accumulating scatter, whatever the indices. -/
theorem scatterAdd_pred (d : ScatterDims s si u) (x : FVec Ideal s φ) (idx : IVec si w) (upd : FVec Ideal u φ)
    (P : EReal → Prop) (h0 : P 0) (hadd : ∀ a b, P a → P b → P (a + b)) (hx : ∀ i, P (x i))
    (hupd : ∀ j, P (upd j)) (i : s.Idx) : P (Host.scatterAdd d x idx upd i) := by
  rw [scatterAdd_apply]
  unfold Ideal.hostScatterAdd
  exact hadd _ _ (hx i) (Finset.sum_induction upd P hadd h0 fun j _ => hupd j)

/-- An accumulating scatter of real updates into an operand of reals is an array of reals. -/
theorem scatterAdd_real (d : ScatterDims s si u) (x : FVec Ideal s φ) (idx : IVec si w) (upd : FVec Ideal u φ)
    (hx : ∀ i, ∃ r : ℝ, x i = (r : EReal)) (hupd : ∀ j, ∃ r : ℝ, upd j = (r : EReal)) (i : s.Idx) :
    ∃ r : ℝ, Host.scatterAdd d x idx upd i = (r : EReal) :=
  scatterAdd_pred d x idx upd (fun a => ∃ r : ℝ, a = (r : EReal)) real_zero (fun _ _ => real_add) hx hupd i

end ScatterAdd

end Idealize.ShloMosaic.SparseFinite
-- ==== Proof.RVal3.lean ====
/-
  The reference's aggregation and degree normalisation read at an index.

  The aggregate of node n is the plain sum of the messages of the edges whose destination is n; the degree lists are
  counts, hence real numbers, and for a real x at least 1 the power x ^ (-1/2) is the reciprocal square root.
-/
import proofs.«164897_j31104153157801_1_alg».proof.Proof.RVal2
import proofs.«164897_j31104153157801_1_alg».proof.Proof.LibRowScatter
import proofs.«164897_j31104153157801_1_alg».proof.Proof.LibSparseFinite

set_option maxRecDepth 16384

noncomputable section

open scoped BigOperators

namespace Cert.ReferenceIdeal.HandVal

open Cert.ReferenceIdeal Cert.ReferenceIdeal.Gen Idealize.ShloMosaic Idealize.ShloMosaic.ValueIdx
  Idealize.ShloMosaic.RowGather Idealize.ShloMosaic.RowScatter

variable (h : FVec Ideal S100000x256 .f32) (ei : IVec S2x600000 32) (et : IVec S600000 32) (rel : FVec Ideal S500x256 .f32)
  (mw : FVec Ideal S4x64x64 .f32) (mb : FVec Ideal S4x64 .f32) (uw : FVec Ideal S4x64x64 .f32) (ub : FVec Ideal S4x64 .f32)
  (gw : FVec Ideal S1x256 .f32) (gb : FVec Ideal S1 .f32)

/-- **The aggregate of node n at (channel c, blade b)**: the sum of the messages of the edges into n. -/
theorem aggOf_apply (n : Fin 100000) (c : Fin 64) (b : Fin 4) :
    aggOf h ei et rel mw mb gw gb (ix3 n c b)
      = ∑ e ∈ Finset.univ.filter (fun e : Fin 600000 => (ei (ix2 (1 : Fin 2) e)).toInt = (n.val : Int)),
          msgOf h ei et rel mw mb gw gb (ix3 e c b) := by
  unfold aggOf
  refine (scatterAdd3_apply scatter_S100000x64x4_S600000x1_S600000x64x4_12_0_0_1_wf _ _ _ n c b).trans ?_
  rw [broadcastInDim_scalar_apply, constant_apply, Ideal.ofBits_zero_f32, zero_add]
  refine Finset.sum_congr ?_ (fun _ _ => rfl)
  refine Finset.filter_congr (fun e _ => ?_)
  rw [colOf_apply, dstOf_apply]

/-- A natural number of ones added up is that number. -/
theorem nsmul_one_ereal (n : ℕ) : n • (1 : EReal) = (n : EReal) := by
  induction n with
  | zero => simp
  | succ k ih => rw [succ_nsmul, ih, Nat.cast_succ]

/-- The host's power at an index. -/
theorem hostPowf_apply {s : Shape} {φ : FTy} (x y : FVec Ideal s φ) (i : s.Idx) :
    Host.powf x y i = Ideal.pow (x i) (y i) := rfl

/-- A degree list counts the edges that name each node. -/
theorem degOf_apply (idx : IVec S600000 32) (n : Fin 100000) :
    degOf idx (ix1 n) = ((Finset.univ.filter (fun e : Fin 600000 => (idx (ix1 e)).toInt = (n.val : Int))).card : EReal) := by
  unfold degOf
  refine (scatterAdd1_apply scatter_S100000_S600000x1_S600000_n_0_0_1_wf _ _ _ n).trans ?_
  rw [broadcastInDim_scalar_apply, constant_apply, Ideal.ofBits_zero_f32, zero_add]
  have hf : (Finset.univ.filter (fun e : Fin 600000 => (colOf idx (ix2 e (0 : Fin 1))).toInt = (n.val : Int)))
      = Finset.univ.filter (fun e : Fin 600000 => (idx (ix1 e)).toInt = (n.val : Int)) :=
    Finset.filter_congr (fun e _ => by rw [colOf_apply])
  rw [hf]
  have h1 : ∀ e : Fin 600000, onesE (ix1 e) = 1 := fun e => by
    unfold onesE
    rw [broadcastInDim_scalar_apply, constant_apply, Ideal.ofBits_one_f32]
  simp only [h1, Finset.sum_const]
  exact nsmul_one_ereal _

/-- A degree is a real number. -/
theorem degOf_real (idx : IVec S600000 32) (n : Fin 100000) : ∃ r : ℝ, 0 ≤ r ∧ degOf idx (ix1 n) = (r : EReal) := by
  rw [degOf_apply]
  exact ⟨_, Nat.cast_nonneg _, (EReal.coe_natCast).symm⟩

/-- The word 0xBF000000 is minus one half. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

/-- For a real x at least 1, x ^ (-1/2) is the reciprocal square root. -/
theorem pow_neg_half (r : ℝ) (hr : 1 ≤ r) :
    Ideal.pow (r : EReal) ((-(1 / 2 : ℝ) : ℝ) : EReal) = Ideal.rsqrt (r : EReal) := by
  have h0 : 0 < r := by linarith
  rw [Ideal.pow_coe_coe, Ideal.rsqrt_coe, if_neg (not_lt.2 h0.le), if_neg (ne_of_gt h0)]
  congr 1
  show r ^ (-(1 / 2 : ℝ)) = (Real.sqrt r)⁻¹
  rw [Real.rpow_neg h0.le, Real.sqrt_eq_rpow]

/-- A degree list read at an edge's node. -/
theorem gdegOf_apply (d : FVec Ideal S100000 .f32) (idx : IVec S600000 32) (e : Fin 600000) :
    gdegOf d idx (ix1 e) = d (ix1 (rowOf (by decide) (fixN idx (ix1 e)))) := by
  unfold gdegOf
  refine (rows1_apply (by decide) gather_S100000_S600000x1_S600000_n_0_n_n_0_1_1_wf _ _ e).trans ?_
  rw [colOf_apply]

/-- The product of the two degrees of edge e. -/
def degProd (e : Fin 600000) : EReal :=
  degOf (srcOf ei) (ix1 (srcIx ei e)) * degOf (dstOf ei) (ix1 (dstIx ei e))

/-- **The normalisation of edge e is the reciprocal square root of the larger of 1 and its degrees' product**. -/
theorem normOf_apply (e : Fin 600000) : normOf ei (ix1 e) = Ideal.rsqrt (max (degProd ei e) 1) := by
  unfold normOf degProd srcIx dstIx
  rw [hostPowf_apply, maximumf_apply, mulf_apply, gdegOf_apply, gdegOf_apply]
  rw [broadcastInDim_scalar_apply, broadcastInDim_scalar_apply, constant_apply, constant_apply, Ideal.ofBits_one_f32,
    ofBits_neg_half_f32]
  obtain ⟨p, _, hp⟩ := degOf_real (srcOf ei) (rowOf (by decide) (fixN (srcOf ei) (ix1 e)))
  obtain ⟨q, _, hq⟩ := degOf_real (dstOf ei) (rowOf (by decide) (fixN (dstOf ei) (ix1 e)))
  have hm : max ((p : EReal) * (q : EReal)) 1 = ((max (p * q) 1 : ℝ) : EReal) := by
    rw [← EReal.coe_mul, ← EReal.coe_one]
    exact (EReal.coe_strictMono.monotone.map_max).symm
  rw [hp, hq, hm]
  exact pow_neg_half _ (le_max_right _ _)

end Cert.ReferenceIdeal.HandVal

end
-- ==== Proof.BridgeNorm.lean ====
/-
  The degree normalisation is the same on both sides, and so is the message.

  Both programs count, for each edge, how many edges leave its source node and how many enter its destination node, and
  scale by the reciprocal square root of the larger of 1 and the product of the two counts: the kernel program takes
  the reciprocal square root, the reference raises to the power -1/2, which for a real number at least 1 is the same.
-/
import proofs.«164897_j31104153157801_1_alg».proof.Proof.BridgeMsg
import proofs.«164897_j31104153157801_1_alg».proof.Proof.RVal3

noncomputable section

namespace Cert.Bridge

open Idealize.ShloMosaic Idealize.ShloMosaic.ValueIdx
open Cert.KernelIdeal.HandVal (msgs padE padCol k1tOf b1Of gwOf gbOf)
open Cert.ReferenceIdeal.HandVal (bm)

/-- The two programs' normalisations of edge `e` agree. -/
theorem norm_bridge (ei : IVec Cert.KernelIdeal.S2x600000 32) (e : Fin 600000) :
    Cert.KernelIdeal.HandVal.normOf ei (ix1 e) = Cert.ReferenceIdeal.HandVal.normOf ei (ix1 e) := by
  rw [Cert.KernelIdeal.HandVal.normOf_apply, Cert.ReferenceIdeal.HandVal.normOf_apply]
  rfl

/-- The kernel program's message array at (edge `e`, position `64 b + c`) is the reference's message at `(e, c, b)`. -/
theorem msg_bridge (h : FVec Ideal Cert.KernelIdeal.S100000x256 .f32) (ei : IVec Cert.KernelIdeal.S2x600000 32) (et : IVec Cert.KernelIdeal.S600000 32)
    (rel : FVec Ideal Cert.KernelIdeal.S500x256 .f32) (mw : FVec Ideal Cert.KernelIdeal.S4x64x64 .f32) (mb : FVec Ideal Cert.KernelIdeal.S4x64 .f32)
    (gw : FVec Ideal Cert.KernelIdeal.S1x256 .f32) (gb : FVec Ideal Cert.KernelIdeal.S1 .f32) (e : Fin 600000) (c : Fin 64) (b : Fin 4) :
    msgs (padE (Cert.KernelIdeal.HandVal.hsrcOf h ei)) (padE (Cert.KernelIdeal.HandVal.ruvOf rel et)) (padCol (Cert.KernelIdeal.HandVal.normOf ei)) (k1tOf mw) (b1Of mb) (gwOf gw) (gbOf gb)
        (ix2 (inE e) (bm b c))
      = Cert.ReferenceIdeal.HandVal.msgOf h ei et rel mw mb gw gb (ix3 e c b) :=
  msg_bridge_of_norm h ei et rel mw mb gw gb e c b (norm_bridge ei e)

end Cert.Bridge

end
-- ==== Proof.Bridge.lean ====
/-
  The two programs compute the same function of their ten arguments.

  Both results are the update layer of the node features plus the aggregated messages. The messages agree entry by
  entry (edge `e`, blade-major position `64 b + c` against `(e, c, b)`); summed by the same destinations the aggregates
  agree entry by entry; and the update layer of agreeing aggregates gives the same value at every node and every
  channel-major position `4 c + b`, which are all the positions of a row.
-/
import proofs.«164897_j31104153157801_1_alg».proof.Proof.KVal
import proofs.«164897_j31104153157801_1_alg».proof.Proof.BridgeOut
import proofs.«164897_j31104153157801_1_alg».proof.Proof.BridgeNorm

noncomputable section

namespace Cert.Bridge

open Idealize.ShloMosaic Idealize.ShloMosaic.ValueIdx
open Cert.ReferenceIdeal.HandVal (bm)

/-- The kernel program's messages, cut to the real edges, agree with the reference's entry by entry. -/
theorem msgs_cut_bridge (h : FVec Ideal Cert.KernelIdeal.S100000x256 .f32) (ei : IVec Cert.KernelIdeal.S2x600000 32) (et : IVec Cert.KernelIdeal.S600000 32)
    (rel : FVec Ideal Cert.KernelIdeal.S500x256 .f32) (mw : FVec Ideal Cert.KernelIdeal.S4x64x64 .f32) (mb : FVec Ideal Cert.KernelIdeal.S4x64 .f32)
    (gw : FVec Ideal Cert.KernelIdeal.S1x256 .f32) (gb : FVec Ideal Cert.KernelIdeal.S1 .f32) (e : Fin 600000) (c : Fin 64) (b : Fin 4) :
    Cert.KernelIdeal.HandVal.cutE (Cert.KernelIdeal.HandVal.msgsOf h ei et rel mw mb gw gb) (ix2 e (bm b c))
      = Cert.ReferenceIdeal.HandVal.msgOf h ei et rel mw mb gw gb (ix3 e c b) := by
  rw [Cert.KernelIdeal.HandVal.cutE_apply]
  exact msg_bridge h ei et rel mw mb gw gb e c b

/-- The kernel program's result and the reference's result are the same function of the ten arguments. -/
theorem bridge (h : FVec Ideal Cert.KernelIdeal.S100000x256 .f32) (ei : IVec Cert.KernelIdeal.S2x600000 32) (et : IVec Cert.KernelIdeal.S600000 32)
    (rel : FVec Ideal Cert.KernelIdeal.S500x256 .f32) (mw : FVec Ideal Cert.KernelIdeal.S4x64x64 .f32) (mb : FVec Ideal Cert.KernelIdeal.S4x64 .f32)
    (uw : FVec Ideal Cert.KernelIdeal.S4x64x64 .f32) (ub : FVec Ideal Cert.KernelIdeal.S4x64 .f32)
    (gw : FVec Ideal Cert.KernelIdeal.S1x256 .f32) (gb : FVec Ideal Cert.KernelIdeal.S1 .f32) :
    Cert.KernelIdeal.HandVal.kvalOf h ei et rel mw mb uw ub gw gb = Cert.ReferenceIdeal.HandVal.rvalOf h ei et rel mw mb uw ub gw gb := by
  unfold Cert.KernelIdeal.HandVal.kvalOf Cert.ReferenceIdeal.HandVal.rvalOf
  rw [aggOf_eq_aggR]
  refine out_bridge_all h _ _ uw ub fun n c b => ?_
  exact agg_bridge (Cert.KernelIdeal.HandVal.dstOf ei) _ _ (fun e c b => msgs_cut_bridge h ei et rel mw mb gw gb e c b) n c b

end Cert.Bridge

end
-- ==== Proof.lean ====
/-
  The five claims about the message-passing layer.

  Frames. The kernel program (at the word level and idealized) is run item by item — twelve stretches of host
  operations and the two pallas_calls — and at the end every unscoped buffer holds the last boundary's contents; no
  stretch and no pallas_call writes an argument array, so each argument is read back as launched. The reference's
  frame is its generated run with the result dropped.

  Preservation. The ideal pass rewrote nothing: the idealization is the program's own text read at the ideal instance.

  Equality of the results over the extended reals. Both programs compute, for node n, channel c and blade b,
      out (n, 4c+b) = Σ_i (h (n,i) + agg (n,i)) · K₂ (64b+c, i) + upd_b (b,c),
      agg (n, j) = Σ_{e : dst e = n} msg (e, j),
      msg (e, 64b+c) = (Σ_i h (src e, i) · rel (type e, i) · K₁ (64b+c, i) + msg_b (b,c)) · σ(Σ_i rel (type e, i) · g i + g₀) · (max (deg_src (src e) · deg_dst (dst e)) 1)^(-1/2),
  with K₁, K₂ the Clifford kernel matrices of the two weight tensors. The kernel works in the blade-major layout and
  permutes K₂'s rows and the gate weights beforehand by two constant tables; the reference re-lays its arrays
  channel-major instead. The two agree entry by entry after re-indexing the finite sums.
-/
import proofs.«164897_j31104153157801_1_alg».proof.Defs
import proofs.«164897_j31104153157801_1_alg».proof.Proof.Gen.Kernel
import proofs.«164897_j31104153157801_1_alg».proof.Proof.Gen.KernelIdeal
import proofs.«164897_j31104153157801_1_alg».proof.Proof.Gen.ReferenceIdeal
import proofs.«164897_j31104153157801_1_alg».proof.Proof.Gen.ReferenceIdeal.Run
import proofs.«164897_j31104153157801_1_alg».proof.Proof.Gen.Pre_finite_inputs
import proofs.«164897_j31104153157801_1_alg».proof.Proof.Transport
import proofs.«164897_j31104153157801_1_alg».proof.Proof.TransportB
import proofs.«164897_j31104153157801_1_alg».proof.Proof.RVal0
import proofs.«164897_j31104153157801_1_alg».proof.Proof.KVal
import proofs.«164897_j31104153157801_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves every argument array as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W14_arg m ρ c Cert.Kernel.main_arg0 (by simp [Cert.Kernel.Hand.argList])),
      (h c _ (Cert.Kernel.Hand.mem_uc Cert.Kernel.main_arg1 (by decide))).trans (Cert.Kernel.Hand.W14_arg m ρ c Cert.Kernel.main_arg1 (by simp [Cert.Kernel.Hand.argList])),
      (h c _ (Cert.Kernel.Hand.mem_uc Cert.Kernel.main_arg2 (by decide))).trans (Cert.Kernel.Hand.W14_arg m ρ c Cert.Kernel.main_arg2 (by simp [Cert.Kernel.Hand.argList])),
      (h c _ (Cert.Kernel.Hand.mem_uc Cert.Kernel.main_arg3 (by decide))).trans (Cert.Kernel.Hand.W14_arg m ρ c Cert.Kernel.main_arg3 (by simp [Cert.Kernel.Hand.argList])),
      (h c _ (Cert.Kernel.Hand.mem_uc Cert.Kernel.main_arg4 (by decide))).trans (Cert.Kernel.Hand.W14_arg m ρ c Cert.Kernel.main_arg4 (by simp [Cert.Kernel.Hand.argList])),
      (h c _ (Cert.Kernel.Hand.mem_uc Cert.Kernel.main_arg5 (by decide))).trans (Cert.Kernel.Hand.W14_arg m ρ c Cert.Kernel.main_arg5 (by simp [Cert.Kernel.Hand.argList])),
      (h c _ (Cert.Kernel.Hand.mem_uc Cert.Kernel.main_arg6 (by decide))).trans (Cert.Kernel.Hand.W14_arg m ρ c Cert.Kernel.main_arg6 (by simp [Cert.Kernel.Hand.argList])),
      (h c _ (Cert.Kernel.Hand.mem_uc Cert.Kernel.main_arg7 (by decide))).trans (Cert.Kernel.Hand.W14_arg m ρ c Cert.Kernel.main_arg7 (by simp [Cert.Kernel.Hand.argList])),
      (h c _ (Cert.Kernel.Hand.mem_uc Cert.Kernel.main_arg8 (by decide))).trans (Cert.Kernel.Hand.W14_arg m ρ c Cert.Kernel.main_arg8 (by simp [Cert.Kernel.Hand.argList])),
      (h c _ (Cert.Kernel.Hand.mem_uc Cert.Kernel.main_arg9 (by decide))).trans (Cert.Kernel.Hand.W14_arg m ρ c Cert.Kernel.main_arg9 (by simp [Cert.Kernel.Hand.argList]))⟩)
    (Cert.Kernel.Hand.run_main (F := Bits) m ρ)

/-- So does the idealized kernel program. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W14_arg m ρ c Cert.KernelIdeal.main_arg0 (by simp [Cert.KernelIdeal.Hand.argList])),
      (h c _ (Cert.KernelIdeal.Hand.mem_uc Cert.KernelIdeal.main_arg1 (by decide))).trans (Cert.KernelIdeal.Hand.W14_arg m ρ c Cert.KernelIdeal.main_arg1 (by simp [Cert.KernelIdeal.Hand.argList])),
      (h c _ (Cert.KernelIdeal.Hand.mem_uc Cert.KernelIdeal.main_arg2 (by decide))).trans (Cert.KernelIdeal.Hand.W14_arg m ρ c Cert.KernelIdeal.main_arg2 (by simp [Cert.KernelIdeal.Hand.argList])),
      (h c _ (Cert.KernelIdeal.Hand.mem_uc Cert.KernelIdeal.main_arg3 (by decide))).trans (Cert.KernelIdeal.Hand.W14_arg m ρ c Cert.KernelIdeal.main_arg3 (by simp [Cert.KernelIdeal.Hand.argList])),
      (h c _ (Cert.KernelIdeal.Hand.mem_uc Cert.KernelIdeal.main_arg4 (by decide))).trans (Cert.KernelIdeal.Hand.W14_arg m ρ c Cert.KernelIdeal.main_arg4 (by simp [Cert.KernelIdeal.Hand.argList])),
      (h c _ (Cert.KernelIdeal.Hand.mem_uc Cert.KernelIdeal.main_arg5 (by decide))).trans (Cert.KernelIdeal.Hand.W14_arg m ρ c Cert.KernelIdeal.main_arg5 (by simp [Cert.KernelIdeal.Hand.argList])),
      (h c _ (Cert.KernelIdeal.Hand.mem_uc Cert.KernelIdeal.main_arg6 (by decide))).trans (Cert.KernelIdeal.Hand.W14_arg m ρ c Cert.KernelIdeal.main_arg6 (by simp [Cert.KernelIdeal.Hand.argList])),
      (h c _ (Cert.KernelIdeal.Hand.mem_uc Cert.KernelIdeal.main_arg7 (by decide))).trans (Cert.KernelIdeal.Hand.W14_arg m ρ c Cert.KernelIdeal.main_arg7 (by simp [Cert.KernelIdeal.Hand.argList])),
      (h c _ (Cert.KernelIdeal.Hand.mem_uc Cert.KernelIdeal.main_arg8 (by decide))).trans (Cert.KernelIdeal.Hand.W14_arg m ρ c Cert.KernelIdeal.main_arg8 (by simp [Cert.KernelIdeal.Hand.argList])),
      (h c _ (Cert.KernelIdeal.Hand.mem_uc Cert.KernelIdeal.main_arg9 (by decide))).trans (Cert.KernelIdeal.Hand.W14_arg m ρ c Cert.KernelIdeal.main_arg9 (by simp [Cert.KernelIdeal.Hand.argList]))⟩)
    (Cert.KernelIdeal.Hand.run_main (F := Ideal) m ρ)

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The reference's value of the arguments is what the kernel program's last boundary holds in its result buffer:
    the kernel's value chain read back to the launch memory, then the two composed functions identified entry by entry. -/
theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.ReferenceIdeal.HandVal.rvalOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Hand.W14 (F := Ideal) m ρ c (Proc.devRef .tc Cert.KernelIdeal.main_v183) :=
  (Cert.Bridge.bridge _ _ _ _ _ _ _ _ _ _).symm.trans (Cert.KernelIdeal.HandVal.kernel_value m ρ c).symm

/-- From memories that agree on the arguments both idealized programs run, and end with the same result array. -/
theorem algebraic : Cert.algebraic_KernelIdeal_ReferenceIdeal := by
  intro m ρ m' ρ' _ hagree
  refine ⟨fun c => Cert.KernelIdeal.Hand.W14 (F := Ideal) m ρ c (Proc.devRef .tc Cert.KernelIdeal.main_v183), ?_, ?_⟩
  · exact (θ_run Cert.KernelIdeal.defs _ _).mono (fun r h c =>
      ⟨h c _ (Cert.KernelIdeal.Hand.mem_uc Cert.KernelIdeal.main_v183 (by decide)),
      (h c _ (Cert.KernelIdeal.Hand.mem_uc Cert.KernelIdeal.main_arg0 (by decide))).trans (Cert.KernelIdeal.Hand.W14_arg m ρ c Cert.KernelIdeal.main_arg0 (by simp [Cert.KernelIdeal.Hand.argList])),
      (h c _ (Cert.KernelIdeal.Hand.mem_uc Cert.KernelIdeal.main_arg1 (by decide))).trans (Cert.KernelIdeal.Hand.W14_arg m ρ c Cert.KernelIdeal.main_arg1 (by simp [Cert.KernelIdeal.Hand.argList])),
      (h c _ (Cert.KernelIdeal.Hand.mem_uc Cert.KernelIdeal.main_arg2 (by decide))).trans (Cert.KernelIdeal.Hand.W14_arg m ρ c Cert.KernelIdeal.main_arg2 (by simp [Cert.KernelIdeal.Hand.argList])),
      (h c _ (Cert.KernelIdeal.Hand.mem_uc Cert.KernelIdeal.main_arg3 (by decide))).trans (Cert.KernelIdeal.Hand.W14_arg m ρ c Cert.KernelIdeal.main_arg3 (by simp [Cert.KernelIdeal.Hand.argList])),
      (h c _ (Cert.KernelIdeal.Hand.mem_uc Cert.KernelIdeal.main_arg4 (by decide))).trans (Cert.KernelIdeal.Hand.W14_arg m ρ c Cert.KernelIdeal.main_arg4 (by simp [Cert.KernelIdeal.Hand.argList])),
      (h c _ (Cert.KernelIdeal.Hand.mem_uc Cert.KernelIdeal.main_arg5 (by decide))).trans (Cert.KernelIdeal.Hand.W14_arg m ρ c Cert.KernelIdeal.main_arg5 (by simp [Cert.KernelIdeal.Hand.argList])),
      (h c _ (Cert.KernelIdeal.Hand.mem_uc Cert.KernelIdeal.main_arg6 (by decide))).trans (Cert.KernelIdeal.Hand.W14_arg m ρ c Cert.KernelIdeal.main_arg6 (by simp [Cert.KernelIdeal.Hand.argList])),
      (h c _ (Cert.KernelIdeal.Hand.mem_uc Cert.KernelIdeal.main_arg7 (by decide))).trans (Cert.KernelIdeal.Hand.W14_arg m ρ c Cert.KernelIdeal.main_arg7 (by simp [Cert.KernelIdeal.Hand.argList])),
      (h c _ (Cert.KernelIdeal.Hand.mem_uc Cert.KernelIdeal.main_arg8 (by decide))).trans (Cert.KernelIdeal.Hand.W14_arg m ρ c Cert.KernelIdeal.main_arg8 (by simp [Cert.KernelIdeal.Hand.argList])),
      (h c _ (Cert.KernelIdeal.Hand.mem_uc Cert.KernelIdeal.main_arg9 (by decide))).trans (Cert.KernelIdeal.Hand.W14_arg m ρ c Cert.KernelIdeal.main_arg9 (by simp [Cert.KernelIdeal.Hand.argList]))⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.HandVal.ref_value (StableHlo.launchContents m' c)).trans ?_
    obtain ⟨h0, h1, h2, h3, h4, h5, h6, h7, h8, h9⟩ := hagree c
    show Cert.ReferenceIdeal.HandVal.rvalOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [h0, h1, h2, h3, h4, h5, h6, h7, h8, h9]
    exact result_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
